-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v134_1)) (v2 : (c : Dev Cert.KernelIdeal.nD) → Buf (Elt Ideal) ((c.tc : Thread Cert.KernelIdeal.nD Cert.KernelIdeal.τ).loc Cert.KernelIdeal.main_v135_1)) (v3 : (c : Dev Cert.KernelIdeal.nD) → Buf (Elt Ideal) ((c.tc : Thread Cert.KernelIdeal.nD Cert.KernelIdeal.τ).loc Cert.KernelIdeal.main_v136_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v134_1) = v1 c
          ∧ r.2.mem ((c.tc : Thread Cert.KernelIdeal.nD Cert.KernelIdeal.τ).loc Cert.KernelIdeal.main_v135_1) = v2 c
          ∧ r.2.mem ((c.tc : Thread Cert.KernelIdeal.nD Cert.KernelIdeal.τ).loc Cert.KernelIdeal.main_v136_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v221) = v1 c
          ∧ r.2.mem ((c.tc : Thread Cert.ReferenceIdeal.nD Cert.ReferenceIdeal.τ).loc Cert.ReferenceIdeal.main_v222) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S150000x64 : Shape := ⟨2, ![150000, 64]⟩
abbrev S32x64 : Shape := ⟨2, ![32, 64]⟩
abbrev S64x64 : Shape := ⟨2, ![64, 64]⟩
abbrev S2000000 : Shape := ⟨1, ![2000000]⟩
abbrev S1000000 : Shape := ⟨1, ![1000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S200000x64 .f32) (main_arg1 : FVec F S150000x64 .f32) (main_arg2 : FVec F S32x64 .f32) (main_arg3 : FVec F S64x64 .f32) (main_arg4 : FVec F S64x64 .f32) (main_arg5 : IVec S2000000 32) (main_arg6 : IVec S2000000 32) (main_arg7 : IVec S2000000 32) (main_arg8 : IVec S1000000 32) (main_arg9 : IVec S1000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S200000x64 : Shape := ⟨2, ![200000, 64]⟩
abbrev S150000x64 : Shape := ⟨2, ![150000, 64]⟩
abbrev S32x64 : Shape := ⟨2, ![32, 64]⟩
abbrev S64x64 : Shape := ⟨2, ![64, 64]⟩
abbrev S2000000 : Shape := ⟨1, ![2000000]⟩
abbrev S1000000 : Shape := ⟨1, ![1000000]⟩
abbrev S_ : Shape := ⟨0, ![]⟩
abbrev S50000x64 : Shape := ⟨2, ![50000, 64]⟩
abbrev S2000000x1 : Shape := ⟨2, ![2000000, 1]⟩
abbrev S2000000x64 : Shape := ⟨2, ![2000000, 64]⟩
abbrev S10000x64 : Shape := ⟨2, ![10000, 64]⟩
abbrev S150000 : Shape := ⟨1, ![150000]⟩
abbrev S150000x1 : Shape := ⟨2, ![150000, 1]⟩
abbrev S100000x64 : Shape := ⟨2, ![100000, 64]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 194
  | .vmem => 108
  | .smem => 0
  | _ => 0

abbrev hbmTy0_0 (i : Nat) : BufTy := match i % 128 with
  | 0 => ⟨S200000x64, .f32⟩
  | 1 => ⟨S150000x64, .f32⟩
  | 2 => ⟨S32x64, .f32⟩
  | 3 => ⟨S64x64, .f32⟩
  | 4 => ⟨S64x64, .f32⟩
  | 5 => ⟨S2000000, .i32⟩
  | 6 => ⟨S2000000, .i32⟩
  | 7 => ⟨S2000000, .i32⟩
  | 8 => ⟨S1000000, .i32⟩
  | 9 => ⟨S1000000, .i32⟩
  | 10 => ⟨S_, .f32⟩
  | 11 => ⟨S50000x64, .f32⟩
  | 12 => ⟨S_, .f32⟩
  | 13 => ⟨S50000x64, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S_, .f32⟩
  | 34 => ⟨S150000x64, .f32⟩
  | 35 => ⟨S2000000x1, .i32⟩
  | 36 => ⟨S150000x64, .f32⟩
  | 37 => ⟨S_, .f32⟩
  | 38 => ⟨S2000000, .f32⟩
  | 39 => ⟨S_, .f32⟩
  | 40 => ⟨S150000, .f32⟩
  | 41 => ⟨S2000000x1, .i32⟩
  | 42 => ⟨S150000, .f32⟩
  | 43 => ⟨S_, .f32⟩
  | 44 => ⟨S150000, .f32⟩
  | 45 => ⟨S150000, .f32⟩
  | 46 => ⟨S150000x1, .f32⟩
  | 47 => ⟨S150000x64, .f32⟩
  | 48 => ⟨S150000x64, .f32⟩
  | 49 => ⟨S50000x64, .f32⟩
  | 50 => ⟨S100000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S50000x64, .f32⟩
  | 62 => ⟨S1000000x1, .i32⟩
  | 63 => ⟨S50000x64, .f32⟩
  | 64 => ⟨S_, .f32⟩
  | 65 => ⟨S1000000, .f32⟩
  | 66 => ⟨S_, .f32⟩
  | 67 => ⟨S50000, .f32⟩
  | 68 => ⟨S1000000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x64, .f32⟩
  | 75 => ⟨S50000x64, .f32⟩
  | 76 => ⟨S50000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S_, .f32⟩
  | 87 => ⟨S200000x64, .f32⟩
  | 88 => ⟨S1000000x1, .i32⟩
  | 89 => ⟨S200000x64, .f32⟩
  | 90 => ⟨S50000x64, .f32⟩
  | 91 => ⟨S50000x64, .f32⟩
  | 92 => ⟨S50000x64, .f32⟩
  | 93 => ⟨S100000x64, .f32⟩
  | 94 => ⟨S100000x64, .f32⟩
  | 95 => ⟨S100000x64, .f32⟩
  | 96 => ⟨S150000x64, .f32⟩
  | 97 => ⟨S200000x64, .f32⟩
  | 98 => ⟨S200000x64, .f32⟩
  | 99 => ⟨S50000x64, .f32⟩
  | 100 => ⟨S50000x64, .f32⟩
  | 101 => ⟨S50000x64, .f32⟩
  | 102 => ⟨S50000x64, .f32⟩
  | 103 => ⟨S150000x64, .f32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S2000000x64, .f32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i32⟩
  | 119 => ⟨S2000000, .i32⟩
  | 120 => ⟨S2000000x1, .i32⟩
  | 121 => ⟨S2000000x64, .f32⟩
  | 122 => ⟨S2000000x64, .f32⟩
  | 123 => ⟨S_, .f32⟩
  | 124 => ⟨S150000x64, .f32⟩
  | 125 => ⟨S2000000x1, .i32⟩
  | 126 => ⟨S150000x64, .f32⟩
  | 127 => ⟨S_, .f32⟩
  | _ => ⟨S200000x64, .f32⟩

abbrev hbmTy0_1 (i : Nat) : BufTy := match i % 128 with
  | 0 => ⟨S2000000, .f32⟩
  | 1 => ⟨S_, .f32⟩
  | 2 => ⟨S150000, .f32⟩
  | 3 => ⟨S2000000x1, .i32⟩
  | 4 => ⟨S150000, .f32⟩
  | 5 => ⟨S_, .f32⟩
  | 6 => ⟨S150000, .f32⟩
  | 7 => ⟨S150000, .f32⟩
  | 8 => ⟨S150000x1, .f32⟩
  | 9 => ⟨S150000x64, .f32⟩
  | 10 => ⟨S150000x64, .f32⟩
  | 11 => ⟨S50000x64, .f32⟩
  | 12 => ⟨S100000x64, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S_, .f32⟩
  | 23 => ⟨S50000x64, .f32⟩
  | 24 => ⟨S1000000x1, .i32⟩
  | 25 => ⟨S50000x64, .f32⟩
  | 26 => ⟨S_, .f32⟩
  | 27 => ⟨S1000000, .f32⟩
  | 28 => ⟨S_, .f32⟩
  | 29 => ⟨S50000, .f32⟩
  | 30 => ⟨S1000000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x64, .f32⟩
  | 37 => ⟨S50000x64, .f32⟩
  | 38 => ⟨S50000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S_, .f32⟩
  | 49 => ⟨S200000x64, .f32⟩
  | 50 => ⟨S1000000x1, .i32⟩
  | 51 => ⟨S200000x64, .f32⟩
  | 52 => ⟨S50000x64, .f32⟩
  | 53 => ⟨S50000x64, .f32⟩
  | 54 => ⟨S50000x64, .f32⟩
  | 55 => ⟨S100000x64, .f32⟩
  | 56 => ⟨S100000x64, .f32⟩
  | 57 => ⟨S100000x64, .f32⟩
  | 58 => ⟨S150000x64, .f32⟩
  | 59 => ⟨S200000x64, .f32⟩
  | 60 => ⟨S200000x64, .f32⟩
  | 61 => ⟨S50000x64, .f32⟩
  | 62 => ⟨S50000x64, .f32⟩
  | 63 => ⟨S50000x64, .f32⟩
  | 64 => ⟨S50000x64, .f32⟩
  | 65 => ⟨S150000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S64x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S5000x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S5000x64, .f32⟩
  | .local _ .vmem, ⟨95, _⟩ => ⟨S5000x64, .f32⟩
  | .local _ .vmem, ⟨96, _⟩ => ⟨S5000x64, .f32⟩
  | .local _ .vmem, ⟨97, _⟩ => ⟨S5000x64, .f32⟩
  | .local _ .vmem, ⟨98, _⟩ => ⟨S5000x64, .f32⟩
  | .local _ .vmem, ⟨99, _⟩ => ⟨S5000x64, .f32⟩
  | .local _ .vmem, ⟨100, _⟩ => ⟨S5000x64, .f32⟩
  | .local _ .vmem, ⟨101, _⟩ => ⟨S5000x64, .f32⟩
  | .local _ .vmem, ⟨102, _⟩ => ⟨S5000x64, .f32⟩
  | .local _ .vmem, ⟨103, _⟩ => ⟨S5000x64, .f32⟩
  | .local _ .vmem, ⟨104, _⟩ => ⟨S5000x64, .f32⟩
  | .local _ .vmem, ⟨105, _⟩ => ⟨S5000x64, .f32⟩
  | .local _ .vmem, ⟨106, _⟩ => ⟨S5000x64, .f32⟩
  | .local _ .vmem, ⟨107, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_14 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62_0 : Ref sig .tc := ⟨.hbm, 91, rfl⟩
abbrev main_v62_1 : Ref sig .tc := ⟨.hbm, 92, rfl⟩
abbrev main_v63 : Ref sig .tc := ⟨.hbm, 93, rfl⟩
abbrev main_v64_0 : Ref sig .tc := ⟨.hbm, 94, rfl⟩
abbrev main_v64_1 : Ref sig .tc := ⟨.hbm, 95, rfl⟩
abbrev main_v65 : Ref sig .tc := ⟨.hbm, 96, rfl⟩
abbrev main_v66_0 : Ref sig .tc := ⟨.hbm, 97, rfl⟩
abbrev main_v66_1 : Ref sig .tc := ⟨.hbm, 98, rfl⟩
abbrev main_v67_0 : Ref sig .tc := ⟨.hbm, 99, rfl⟩
abbrev main_v67_1 : Ref sig .tc := ⟨.hbm, 100, rfl⟩
abbrev main_v68_0 : Ref sig .tc := ⟨.hbm, 101, rfl⟩
abbrev main_v68_1 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_c_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_21 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_22 : Ref sig .tc := ⟨.hbm, 127, rfl⟩
abbrev main_v88 : Ref sig .tc := ⟨.hbm, 128, rfl⟩
abbrev main_cst_23 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_24 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_c_25 : Ref sig .tc := ⟨.hbm, 141, rfl⟩
abbrev main_v99 : Ref sig .tc := ⟨.hbm, 142, rfl⟩
abbrev main_v100 : Ref sig .tc := ⟨.hbm, 143, rfl⟩
abbrev main_c_26 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_27 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_28 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_30 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_31 : Ref sig .tc := ⟨.hbm, 167, rfl⟩
abbrev main_v119 : Ref sig .tc := ⟨.hbm, 168, rfl⟩
abbrev main_v120 : Ref sig .tc := ⟨.hbm, 169, rfl⟩
abbrev main_c_32 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_33 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130_0 : Ref sig .tc := ⟨.hbm, 181, rfl⟩
abbrev main_v130_1 : Ref sig .tc := ⟨.hbm, 182, rfl⟩
abbrev main_v131 : Ref sig .tc := ⟨.hbm, 183, rfl⟩
abbrev main_v132_0 : Ref sig .tc := ⟨.hbm, 184, rfl⟩
abbrev main_v132_1 : Ref sig .tc := ⟨.hbm, 185, rfl⟩
abbrev main_v133 : Ref sig .tc := ⟨.hbm, 186, rfl⟩
abbrev main_v134_0 : Ref sig .tc := ⟨.hbm, 187, rfl⟩
abbrev main_v134_1 : Ref sig .tc := ⟨.hbm, 188, rfl⟩
abbrev main_v135_0 : Ref sig .tc := ⟨.hbm, 189, rfl⟩
abbrev main_v135_1 : Ref sig .tc := ⟨.hbm, 190, rfl⟩
abbrev main_v136_0 : Ref sig .tc := ⟨.hbm, 191, rfl⟩
abbrev main_v136_1 : Ref sig .tc := ⟨.hbm, 192, rfl⟩
abbrev main_v137 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg4_1 : Ref sig .tc := ⟨.vmem, 67, rfl⟩
abbrev cc9_stg0_0 : Ref sig .tc := ⟨.vmem, 68, rfl⟩
abbrev cc9_stg0_1 : Ref sig .tc := ⟨.vmem, 69, rfl⟩
abbrev cc9_stg1_0 : Ref sig .tc := ⟨.vmem, 70, rfl⟩
abbrev cc9_stg1_1 : Ref sig .tc := ⟨.vmem, 71, rfl⟩
abbrev cc9_stg2_0 : Ref sig .tc := ⟨.vmem, 72, rfl⟩
abbrev cc9_stg2_1 : Ref sig .tc := ⟨.vmem, 73, rfl⟩
abbrev cc9_stg3_0 : Ref sig .tc := ⟨.vmem, 74, rfl⟩
abbrev cc9_stg3_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc10_stg3_0 : Ref sig .tc := ⟨.vmem, 82, rfl⟩
abbrev cc10_stg3_1 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg1_1 : Ref sig .tc := ⟨.vmem, 87, rfl⟩
abbrev cc11_stg2_0 : Ref sig .tc := ⟨.vmem, 88, rfl⟩
abbrev cc11_stg2_1 : Ref sig .tc := ⟨.vmem, 89, rfl⟩
abbrev cc11_stg3_0 : Ref sig .tc := ⟨.vmem, 90, rfl⟩
abbrev cc11_stg3_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg1_1 : Ref sig .tc := ⟨.vmem, 95, rfl⟩
abbrev cc12_stg2_0 : Ref sig .tc := ⟨.vmem, 96, rfl⟩
abbrev cc12_stg2_1 : Ref sig .tc := ⟨.vmem, 97, rfl⟩
abbrev cc12_stg3_0 : Ref sig .tc := ⟨.vmem, 98, rfl⟩
abbrev cc12_stg3_1 : Ref sig .tc := ⟨.vmem, 99, rfl⟩
abbrev cc13_stg0_0 : Ref sig .tc := ⟨.vmem, 100, rfl⟩
abbrev cc13_stg0_1 : Ref sig .tc := ⟨.vmem, 101, rfl⟩
abbrev cc13_stg1_0 : Ref sig .tc := ⟨.vmem, 102, rfl⟩
abbrev cc13_stg1_1 : Ref sig .tc := ⟨.vmem, 103, rfl⟩
abbrev cc13_stg2_0 : Ref sig .tc := ⟨.vmem, 104, rfl⟩
abbrev cc13_stg2_1 : Ref sig .tc := ⟨.vmem, 105, rfl⟩
abbrev cc13_stg3_0 : Ref sig .tc := ⟨.vmem, 106, rfl⟩
abbrev cc13_stg3_1 : Ref sig .tc := ⟨.vmem, 107, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem1_1 : DmaSem sig := 63
abbrev cc8_sem2_0 : DmaSem sig := 64
abbrev cc8_sem3_0 : DmaSem sig := 65
abbrev cc8_sem4_0 : DmaSem sig := 66
abbrev cc8_sem4_1 : DmaSem sig := 67
abbrev cc9_sem0_0 : DmaSem sig := 68
abbrev cc9_sem0_1 : DmaSem sig := 69
abbrev cc9_sem1_0 : DmaSem sig := 70
abbrev cc9_sem1_1 : DmaSem sig := 71
abbrev cc9_sem2_0 : DmaSem sig := 72
abbrev cc9_sem2_1 : DmaSem sig := 73
abbrev cc9_sem3_0 : DmaSem sig := 74
abbrev cc9_sem3_1 : DmaSem sig := 75
abbrev cc10_sem0_0 : DmaSem sig := 76
abbrev cc10_sem0_1 : DmaSem sig := 77
abbrev cc10_sem1_0 : DmaSem sig := 78
abbrev cc10_sem1_1 : DmaSem sig := 79
abbrev cc10_sem2_0 : DmaSem sig := 80
abbrev cc10_sem2_1 : DmaSem sig := 81
abbrev cc10_sem3_0 : DmaSem sig := 82
abbrev cc10_sem3_1 : DmaSem sig := 83
abbrev cc11_sem0_0 : DmaSem sig := 84
abbrev cc11_sem0_1 : DmaSem sig := 85
abbrev cc11_sem1_0 : DmaSem sig := 86
abbrev cc11_sem1_1 : DmaSem sig := 87
abbrev cc11_sem2_0 : DmaSem sig := 88
abbrev cc11_sem2_1 : DmaSem sig := 89
abbrev cc11_sem3_0 : DmaSem sig := 90
abbrev cc11_sem3_1 : DmaSem sig := 91
abbrev cc12_sem0_0 : DmaSem sig := 92
abbrev cc12_sem0_1 : DmaSem sig := 93
abbrev cc12_sem1_0 : DmaSem sig := 94
abbrev cc12_sem1_1 : DmaSem sig := 95
abbrev cc12_sem2_0 : DmaSem sig := 96
abbrev cc12_sem2_1 : DmaSem sig := 97
abbrev cc12_sem3_0 : DmaSem sig := 98
abbrev cc12_sem3_1 : DmaSem sig := 99
abbrev cc13_sem0_0 : DmaSem sig := 100
abbrev cc13_sem0_1 : DmaSem sig := 101
abbrev cc13_sem1_0 : DmaSem sig := 102
abbrev cc13_sem1_1 : DmaSem sig := 103
abbrev cc13_sem2_0 : DmaSem sig := 104
abbrev cc13_sem2_1 : DmaSem sig := 105
abbrev cc13_sem3_0 : DmaSem sig := 106
abbrev cc13_sem3_1 : DmaSem sig := 107

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![200], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S5000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S5000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  bcast_S_S50000x64 : S_.BroadcastsInDim S50000x64 (![] : Fin 0 → Fin S50000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  slices_S150000x64_S50000x64_0_0 : S150000x64.Slices ![0, 0] S50000x64
  slices_S150000x64_S100000x64_50000_0 : S150000x64.Slices ![50000, 0] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S200000x64 : S_.BroadcastsInDim S200000x64 (![] : Fin 0 → Fin S200000x64.rank)
  reduces_S5000x64_S5000 : S5000x64.Reduces [1] S5000
  shapeCasts_S5000_S5000x1 : S5000.ShapeCasts S5000x1
  broadcasts_S5000x1_S5000x64 : S5000x1.Broadcasts S5000x64
  concatenates_S50000x64_S100000x64_S150000x64_d0 : Shape.Concatenates [S50000x64, S100000x64] S150000x64 0
  gather_S150000x64_S2000000x1_S2000000x64_1_0_n_n_0_1_164_wf : GatherDims.WF S150000x64 S2000000x1 S2000000x64 [1] [0] [] [0] [] 1 ![1, 64]
  gather_S32x64_S2000000x1_S2000000x64_1_0_n_n_0_1_164_wf : GatherDims.WF S32x64 S2000000x1 S2000000x64 [1] [0] [] [0] [] 1 ![1, 64]
  scatter_S150000x64_S2000000x1_S2000000x64_1_0_0_1_wf : ScatterDims.WF S150000x64 S2000000x1 S2000000x64 [1] [0] [0] 1
  scatter_S150000_S2000000x1_S2000000_n_0_0_1_wf : ScatterDims.WF S150000 S2000000x1 S2000000 [] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S5000x64_S64x64_S5000x64_1_1_0_0_n_n_wf : DotDims.WF S5000x64 S64x64 S5000x64 [1] [1] [0] [0] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .f32 = 32 ∨ (Rect.block (s := S2000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S2000000x64.size a
  hwx0_1 : ∀ i : grid0.Coords, EltTy.bits .f32 = 32 ∨ (Rect.block (s := S2000000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S2000000x64.size a
  hwx0_2 : ∀ i : grid0.Coords, EltTy.bits .f32 = 32 ∨ (Rect.block (s := S2000000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S200000x64.size a
  hwx4_1 : ∀ i : grid4.Coords, EltTy.bits .f32 = 32 ∨ (Rect.block (s := S200000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S200000x64.size a
  hwx4_2 : ∀ i : grid4.Coords, EltTy.bits .f32 = 32 ∨ (Rect.block (s := S200000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S200000x64.size a
  hwx4_3 : ∀ i : grid4.Coords, EltTy.bits .f32 = 32 ∨ (Rect.block (s := S200000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S2000000x64.size a
  hwx7_0 : ∀ i : grid7.Coords, EltTy.bits .f32 = 32 ∨ (Rect.block (s := S2000000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S2000000x64.size a
  hwx7_1 : ∀ i : grid7.Coords, EltTy.bits .f32 = 32 ∨ (Rect.block (s := S2000000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S2000000x64.size a
  hwx7_2 : ∀ i : grid7.Coords, EltTy.bits .f32 = 32 ∨ (Rect.block (s := S2000000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S50000x64.size a
  hwx9_3 : ∀ i : grid9.Coords, EltTy.bits .f32 = 32 ∨ (Rect.block (s := S50000x64) S5000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S100000x64.size a
  hwx10_3 : ∀ i : grid10.Coords, EltTy.bits .f32 = 32 ∨ (Rect.block (s := S100000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S200000x64.size a
  hwx11_0 : ∀ i : grid11.Coords, EltTy.bits .f32 = 32 ∨ (Rect.block (s := S200000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S200000x64.size a
  hwx11_1 : ∀ i : grid11.Coords, EltTy.bits .f32 = 32 ∨ (Rect.block (s := S200000x64) S5000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S200000x64.size a
  hwx11_2 : ∀ i : grid11.Coords, EltTy.bits .f32 = 32 ∨ (Rect.block (s := S200000x64) S5000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S200000x64.size a
  hwx11_3 : ∀ i : grid11.Coords, EltTy.bits .f32 = 32 ∨ (Rect.block (s := S200000x64) S5000x64.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S50000x64.size a
  hwx12_2 : ∀ i : grid12.Coords, EltTy.bits .f32 = 32 ∨ (Rect.block (s := S50000x64) S5000x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x64.size a ≤ S50000x64.size a
  hwx12_3 : ∀ i : grid12.Coords, EltTy.bits .f32 = 32 ∨ (Rect.block (s := S50000x64) S5000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S50000x64.size a
  hwx13_1 : ∀ i : grid13.Coords, EltTy.bits .f32 = 32 ∨ (Rect.block (s := S50000x64) S5000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S50000x64.size a
  hwx13_2 : ∀ i : grid13.Coords, EltTy.bits .f32 = 32 ∨ (Rect.block (s := S50000x64) S5000x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x64.size a ≤ S50000x64.size a
  hwx13_3 : ∀ i : grid13.Coords, EltTy.bits .f32 = 32 ∨ (Rect.block (s := S50000x64) S5000x64.size (cc13_transform_3 i) (hinb13_3 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def gather_S32x64_S2000000x1_S2000000x64_1_0_n_n_0_1_164 : GatherDims S32x64 S2000000x1 S2000000x64 where
  offsetDims := [1]
  collapsedSliceDims := [0]
  operandBatchingDims := []
  startIndicesBatchingDims := []
  startIndexMap := [0]
  indexVectorDim := 1
  sliceSizes := ![1, 64]
  wf := gather_S32x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

abbrev win0_0 : Pipeline.Window sig grid0 :=
  Pipeline.Window.ofSpec (Memref.whole main_v8) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62_0) S5000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62_1) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64_0) S5000x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64_1) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66_0) S5000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66_1) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67_0) S5000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v67_1) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v49) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68_0) S5000x64.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v68_1) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v76) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v83) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v84) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v97) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg3) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg4) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v118) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v130_0) S5000x64.size cc9_transform_2 reads9_2 true false 2 stage9_2 sem9_2
    hrank9 hreads9_2 hinb9_2 nbuf9_2 (Memref.isWhole_whole _) hwx9_2 hstage9_2

abbrev win9_3 : Pipeline.Window sig grid9 :=
  Pipeline.Window.ofSpec (Memref.whole main_v130_1) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v98) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v131) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v132_0) S5000x64.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v132_1) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v128) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v66_1) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v134_0) S5000x64.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v134_1) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v97) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v67_1) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v135_0) S5000x64.size cc12_transform_2 reads12_2 true false 2 stage12_2 sem12_2
    hrank12 hreads12_2 hinb12_2 nbuf12_2 (Memref.isWhole_whole _) hwx12_2 hstage12_2

abbrev win12_3 : Pipeline.Window sig grid12 :=
  Pipeline.Window.ofSpec (Memref.whole main_v135_1) S5000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v117) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v68_1) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v136_0) S5000x64.size cc13_transform_2 reads13_2 true false 2 stage13_2 sem13_2
    hrank13 hreads13_2 hinb13_2 nbuf13_2 (Memref.isWhole_whole _) hwx13_2 hstage13_2

abbrev win13_3 : Pipeline.Window sig grid13 :=
  Pipeline.Window.ofSpec (Memref.whole main_v136_1) S5000x64.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S200000x64 : Shape := ⟨2, ![200000, 64]⟩
abbrev S150000x64 : Shape := ⟨2, ![150000, 64]⟩
abbrev S32x64 : Shape := ⟨2, ![32, 64]⟩
abbrev S64x64 : Shape := ⟨2, ![64, 64]⟩
abbrev S2000000 : Shape := ⟨1, ![2000000]⟩
abbrev S1000000 : Shape := ⟨1, ![1000000]⟩
abbrev S_ : Shape := ⟨0, ![]⟩
abbrev S50000x64 : Shape := ⟨2, ![50000, 64]⟩
abbrev S2000000x1 : Shape := ⟨2, ![2000000, 1]⟩
abbrev S2000000x64 : Shape := ⟨2, ![2000000, 64]⟩
abbrev S150000 : Shape := ⟨1, ![150000]⟩
abbrev S150000x1 : Shape := ⟨2, ![150000, 1]⟩
abbrev S100000x64 : Shape := ⟨2, ![100000, 64]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S200000 : Shape := ⟨1, ![200000]⟩
abbrev S200000x1 : Shape := ⟨2, ![200000, 1]⟩

abbrev nBuf : Space → Nat
  | .hbm => 292
  | .vmem => 0
  | .smem => 0
  | _ => 0

abbrev hbmTy0_0 (i : Nat) : BufTy := match i % 128 with
  | 0 => ⟨S200000x64, .f32⟩
  | 1 => ⟨S150000x64, .f32⟩
  | 2 => ⟨S32x64, .f32⟩
  | 3 => ⟨S64x64, .f32⟩
  | 4 => ⟨S64x64, .f32⟩
  | 5 => ⟨S2000000, .i32⟩
  | 6 => ⟨S2000000, .i32⟩
  | 7 => ⟨S2000000, .i32⟩
  | 8 => ⟨S1000000, .i32⟩
  | 9 => ⟨S1000000, .i32⟩
  | 10 => ⟨S_, .f32⟩
  | 11 => ⟨S50000x64, .f32⟩
  | 12 => ⟨S_, .f32⟩
  | 13 => ⟨S50000x64, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x64, .f32⟩
  | 32 => ⟨S2000000x64, .f32⟩
  | 33 => ⟨S_, .f32⟩
  | 34 => ⟨S150000x64, .f32⟩
  | 35 => ⟨S2000000x1, .i32⟩
  | 36 => ⟨S150000x64, .f32⟩
  | 37 => ⟨S_, .f32⟩
  | 38 => ⟨S2000000, .f32⟩
  | 39 => ⟨S_, .f32⟩
  | 40 => ⟨S150000, .f32⟩
  | 41 => ⟨S2000000x1, .i32⟩
  | 42 => ⟨S150000, .f32⟩
  | 43 => ⟨S_, .f32⟩
  | 44 => ⟨S150000, .f32⟩
  | 45 => ⟨S150000, .f32⟩
  | 46 => ⟨S150000x1, .f32⟩
  | 47 => ⟨S150000x64, .f32⟩
  | 48 => ⟨S150000x64, .f32⟩
  | 49 => ⟨S50000x64, .f32⟩
  | 50 => ⟨S100000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S50000x64, .f32⟩
  | 62 => ⟨S1000000x1, .i32⟩
  | 63 => ⟨S50000x64, .f32⟩
  | 64 => ⟨S_, .f32⟩
  | 65 => ⟨S1000000, .f32⟩
  | 66 => ⟨S_, .f32⟩
  | 67 => ⟨S50000, .f32⟩
  | 68 => ⟨S1000000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x64, .f32⟩
  | 75 => ⟨S50000x64, .f32⟩
  | 76 => ⟨S64x64, .f32⟩
  | 77 => ⟨S50000x64, .f32⟩
  | 78 => ⟨S64x64, .f32⟩
  | 79 => ⟨S50000x64, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S50000x64, .f32⟩
  | 94 => ⟨S50000x64, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S_, .f32⟩
  | 105 => ⟨S200000x64, .f32⟩
  | 106 => ⟨S1000000x1, .i32⟩
  | 107 => ⟨S200000x64, .f32⟩
  | 108 => ⟨S150000x64, .f32⟩
  | 109 => ⟨S150000x64, .f32⟩
  | 110 => ⟨S_, .f32⟩
  | 111 => ⟨S150000, .f32⟩
  | 112 => ⟨S150000x1, .f32⟩
  | 113 => ⟨S150000x1, .f32⟩
  | 114 => ⟨S_, .f32⟩
  | 115 => ⟨S150000x1, .f32⟩
  | 116 => ⟨S150000x1, .f32⟩
  | 117 => ⟨S150000x64, .f32⟩
  | 118 => ⟨S150000x64, .f32⟩
  | 119 => ⟨S200000x64, .f32⟩
  | 120 => ⟨S_, .f32⟩
  | 121 => ⟨S200000, .f32⟩
  | 122 => ⟨S200000x1, .f32⟩
  | 123 => ⟨S200000x1, .f32⟩
  | 124 => ⟨S_, .f32⟩
  | 125 => ⟨S200000x1, .f32⟩
  | 126 => ⟨S200000x1, .f32⟩
  | 127 => ⟨S200000x64, .f32⟩
  | _ => ⟨S200000x64, .f32⟩

abbrev hbmTy0_1 (i : Nat) : BufTy := match i % 128 with
  | 0 => ⟨S200000x64, .f32⟩
  | 1 => ⟨S50000x64, .f32⟩
  | 2 => ⟨S_, .f32⟩
  | 3 => ⟨S50000, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S50000x64, .f32⟩
  | 10 => ⟨S50000x64, .f32⟩
  | 11 => ⟨S50000x64, .f32⟩
  | 12 => ⟨S_, .f32⟩
  | 13 => ⟨S50000, .f32⟩
  | 14 => ⟨S50000x1, .f32⟩
  | 15 => ⟨S50000x1, .f32⟩
  | 16 => ⟨S_, .f32⟩
  | 17 => ⟨S50000x1, .f32⟩
  | 18 => ⟨S50000x1, .f32⟩
  | 19 => ⟨S50000x64, .f32⟩
  | 20 => ⟨S50000x64, .f32⟩
  | 21 => ⟨S150000x64, .f32⟩
  | 22 => ⟨S200000x64, .f32⟩
  | 23 => ⟨S50000x64, .f32⟩
  | 24 => ⟨S50000x64, .f32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x64, .f32⟩
  | 34 => ⟨S_, .i32⟩
  | 35 => ⟨S2000000, .i32⟩
  | 36 => ⟨S2000000, .i1⟩
  | 37 => ⟨S_, .i32⟩
  | 38 => ⟨S2000000, .i32⟩
  | 39 => ⟨S2000000, .i32⟩
  | 40 => ⟨S2000000, .i32⟩
  | 41 => ⟨S2000000x1, .i32⟩
  | 42 => ⟨S2000000x64, .f32⟩
  | 43 => ⟨S2000000x64, .f32⟩
  | 44 => ⟨S_, .f32⟩
  | 45 => ⟨S150000x64, .f32⟩
  | 46 => ⟨S2000000x1, .i32⟩
  | 47 => ⟨S150000x64, .f32⟩
  | 48 => ⟨S_, .f32⟩
  | 49 => ⟨S2000000, .f32⟩
  | 50 => ⟨S_, .f32⟩
  | 51 => ⟨S150000, .f32⟩
  | 52 => ⟨S2000000x1, .i32⟩
  | 53 => ⟨S150000, .f32⟩
  | 54 => ⟨S_, .f32⟩
  | 55 => ⟨S150000, .f32⟩
  | 56 => ⟨S150000, .f32⟩
  | 57 => ⟨S150000x1, .f32⟩
  | 58 => ⟨S150000x64, .f32⟩
  | 59 => ⟨S150000x64, .f32⟩
  | 60 => ⟨S50000x64, .f32⟩
  | 61 => ⟨S100000x64, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S_, .f32⟩
  | 72 => ⟨S50000x64, .f32⟩
  | 73 => ⟨S1000000x1, .i32⟩
  | 74 => ⟨S50000x64, .f32⟩
  | 75 => ⟨S_, .f32⟩
  | 76 => ⟨S1000000, .f32⟩
  | 77 => ⟨S_, .f32⟩
  | 78 => ⟨S50000, .f32⟩
  | 79 => ⟨S1000000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x64, .f32⟩
  | 86 => ⟨S50000x64, .f32⟩
  | 87 => ⟨S64x64, .f32⟩
  | 88 => ⟨S50000x64, .f32⟩
  | 89 => ⟨S64x64, .f32⟩
  | 90 => ⟨S50000x64, .f32⟩
  | 91 => ⟨S50000x64, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S50000x64, .f32⟩
  | 106 => ⟨S_, .i32⟩
  | 107 => ⟨S1000000, .i32⟩
  | 108 => ⟨S1000000, .i1⟩
  | 109 => ⟨S_, .i32⟩
  | 110 => ⟨S1000000, .i32⟩
  | 111 => ⟨S1000000, .i32⟩
  | 112 => ⟨S1000000, .i32⟩
  | 113 => ⟨S1000000x1, .i32⟩
  | 114 => ⟨S1000000x64, .f32⟩
  | 115 => ⟨S_, .f32⟩
  | 116 => ⟨S200000x64, .f32⟩
  | 117 => ⟨S1000000x1, .i32⟩
  | 118 => ⟨S200000x64, .f32⟩
  | 119 => ⟨S150000x64, .f32⟩
  | 120 => ⟨S150000x64, .f32⟩
  | 121 => ⟨S_, .f32⟩
  | 122 => ⟨S150000, .f32⟩
  | 123 => ⟨S150000x1, .f32⟩
  | 124 => ⟨S150000x1, .f32⟩
  | 125 => ⟨S_, .f32⟩
  | 126 => ⟨S150000x1, .f32⟩
  | 127 => ⟨S150000x1, .f32⟩
  | _ => ⟨S200000x64, .f32⟩

abbrev hbmTy0_2 (i : Nat) : BufTy := match i % 128 with
  | 0 => ⟨S150000x64, .f32⟩
  | 1 => ⟨S150000x64, .f32⟩
  | 2 => ⟨S200000x64, .f32⟩
  | 3 => ⟨S_, .f32⟩
  | 4 => ⟨S200000, .f32⟩
  | 5 => ⟨S200000x1, .f32⟩
  | 6 => ⟨S200000x1, .f32⟩
  | 7 => ⟨S_, .f32⟩
  | 8 => ⟨S200000x1, .f32⟩
  | 9 => ⟨S200000x1, .f32⟩
  | 10 => ⟨S200000x64, .f32⟩
  | 11 => ⟨S200000x64, .f32⟩
  | 12 => ⟨S50000x64, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x64, .f32⟩
  | 21 => ⟨S50000x64, .f32⟩
  | 22 => ⟨S50000x64, .f32⟩
  | 23 => ⟨S_, .f32⟩
  | 24 => ⟨S50000, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S50000x64, .f32⟩
  | 31 => ⟨S50000x64, .f32⟩
  | 32 => ⟨S150000x64, .f32⟩
  | 33 => ⟨S200000x64, .f32⟩
  | 34 => ⟨S50000x64, .f32⟩
  | 35 => ⟨S50000x64, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_17 : Ref sig .tc := ⟨.hbm, 95, rfl⟩
abbrev main_v66 : Ref sig .tc := ⟨.hbm, 96, rfl⟩
abbrev main_v67 : Ref sig .tc := ⟨.hbm, 97, rfl⟩
abbrev main_c_18 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_20 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_22 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_23 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_24 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_25 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_26 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_27 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_28 : Ref sig .tc := ⟨.hbm, 153, rfl⟩
abbrev main_v113 : Ref sig .tc := ⟨.hbm, 154, rfl⟩
abbrev main_v114 : Ref sig .tc := ⟨.hbm, 155, rfl⟩
abbrev main_c_29 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_30 : Ref sig .tc := ⟨.hbm, 162, rfl⟩
abbrev main_v120 : Ref sig .tc := ⟨.hbm, 163, rfl⟩
abbrev main_v121 : Ref sig .tc := ⟨.hbm, 164, rfl⟩
abbrev main_c_31 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_32 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_33 : Ref sig .tc := ⟨.hbm, 176, rfl⟩
abbrev main_v131 : Ref sig .tc := ⟨.hbm, 177, rfl⟩
abbrev main_cst_34 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_35 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_c_36 : Ref sig .tc := ⟨.hbm, 190, rfl⟩
abbrev main_v142 : Ref sig .tc := ⟨.hbm, 191, rfl⟩
abbrev main_v143 : Ref sig .tc := ⟨.hbm, 192, rfl⟩
abbrev main_c_37 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_38 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_39 : Ref sig .tc := ⟨.hbm, 203, rfl⟩
abbrev main_v152 : Ref sig .tc := ⟨.hbm, 204, rfl⟩
abbrev main_cst_40 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_41 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_42 : Ref sig .tc := ⟨.hbm, 222, rfl⟩
abbrev main_v168 : Ref sig .tc := ⟨.hbm, 223, rfl⟩
abbrev main_v169 : Ref sig .tc := ⟨.hbm, 224, rfl⟩
abbrev main_cst_43 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_44 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_c_45 : Ref sig .tc := ⟨.hbm, 234, rfl⟩
abbrev main_v177 : Ref sig .tc := ⟨.hbm, 235, rfl⟩
abbrev main_v178 : Ref sig .tc := ⟨.hbm, 236, rfl⟩
abbrev main_c_46 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_47 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_48 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_cst_49 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_cst_50 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_cst_51 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_52 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_cst_53 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_cst_54 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_cst_55 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S150000x64 : S_.BroadcastsInDim S150000x64 (![] : Fin 0 → Fin S150000x64.rank)
  bcast_S_S150000 : S_.BroadcastsInDim S150000 (![] : Fin 0 → Fin S150000.rank)
  bcast_S150000_S150000x1_0 : S150000.BroadcastsInDim S150000x1 (![0] : Fin 1 → Fin S150000x1.rank)
  bcast_S150000x1_S150000x64_0_1 : S150000x1.BroadcastsInDim S150000x64 (![0, 1] : Fin 2 → Fin S150000x64.rank)
  slices_S150000x64_S50000x64_0_0 : S150000x64.Slices ![0, 0] S50000x64
  slices_S150000x64_S100000x64_50000_0 : S150000x64.Slices ![50000, 0] S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S_S200000x64 : S_.BroadcastsInDim S200000x64 (![] : Fin 0 → Fin S200000x64.rank)
  concatenates_S50000x64_S100000x64_S150000x64_d0 : Shape.Concatenates [S50000x64, S100000x64] S150000x64 0
  reducesTo_S150000x64_S150000_d1 : S150000x64.ReducesTo [1] S150000
  h_S_ : 0 < S_.numel
  bcast_S_S150000x1 : S_.BroadcastsInDim S150000x1 (![] : Fin 0 → Fin S150000x1.rank)
  reducesTo_S200000x64_S200000_d1 : S200000x64.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  reducesTo_S50000x64_S50000_d1 : S50000x64.ReducesTo [1] S50000
  bcast_S_S50000x1 : S_.BroadcastsInDim S50000x1 (![] : Fin 0 → Fin S50000x1.rank)
  gather_S150000x64_S2000000x1_S2000000x64_1_0_n_n_0_1_164_wf : GatherDims.WF S150000x64 S2000000x1 S2000000x64 [1] [0] [] [0] [] 1 ![1, 64]
  gather_S32x64_S2000000x1_S2000000x64_1_0_n_n_0_1_164_wf : GatherDims.WF S32x64 S2000000x1 S2000000x64 [1] [0] [] [0] [] 1 ![1, 64]
  scatter_S150000x64_S2000000x1_S2000000x64_1_0_0_1_wf : ScatterDims.WF S150000x64 S2000000x1 S2000000x64 [1] [0] [0] 1
  scatter_S150000_S2000000x1_S2000000_n_0_0_1_wf : ScatterDims.WF S150000 S2000000x1 S2000000 [] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def gather_S32x64_S2000000x1_S2000000x64_1_0_n_n_0_1_164 : GatherDims S32x64 S2000000x1 S2000000x64 where
  offsetDims := [1]
  collapsedSliceDims := [0]
  operandBatchingDims := []
  startIndicesBatchingDims := []
  startIndexMap := [0]
  indexVectorDim := 1
  sliceSizes := ![1, 64]
  wf := gather_S32x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def scatter_S150000_S2000000x1_S2000000_n_0_0_1 : ScatterDims S150000 S2000000x1 S2000000 where
  updateWindowDims := []
  insertedWindowDims := [0]
  scatterDimsToOperandDims := [0]
  indexVectorDim := 1
  wf := scatter_S150000_S2000000x1_S2000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf

class Facts : Prop extends Facts₀ where

variable [Facts]
-- ==== Proof.KRun.lean ====
/-
  The kernel program's run, with its results read.

  The program is 25 segments in order: stretches of host operations and 14 regions. The contents of the buffers at each
  boundary are a fold from the launch memory: a stretch applies its operations, a region leaves its output arrays at what
  its write-backs hold and every other buffer as entered. Every weakly fair execution terminates with every unscoped
  buffer at the last boundary's contents; so the four result buffers end at the last boundary's contents of their
  references, and the argument arrays end as launched.
-/
import proofs.«124958_j46205258170764_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and each argument array as launched. -/
theorem run_results : θ_run defs (onTc (τ := τ) (main (F := F))) ⟨m, fun _ => 0, ρ⟩ (fun r => ∀ c : Dev nD,
      r.2.mem ((c.tc : Thread nD τ).loc main_v133) = W25 m ρ c (Proc.devRef .tc main_v133)
      ∧ r.2.mem ((c.tc : Thread nD τ).loc main_v134_1) = W25 m ρ c (Proc.devRef .tc main_v134_1)
      ∧ r.2.mem ((c.tc : Thread nD τ).loc main_v135_1) = W25 m ρ c (Proc.devRef .tc main_v135_1)
      ∧ r.2.mem ((c.tc : Thread nD τ).loc main_v136_1) = W25 m ρ c (Proc.devRef .tc main_v136_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v133 (by decide)),
       h c _ (mem_uc main_v134_1 (by decide)),
       h c _ (mem_uc main_v135_1 (by decide)),
       h c _ (mem_uc main_v136_1 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c),
       (h c _ (mem_uc main_arg9 (by decide))).trans (W25_main_arg9 m ρ c)⟩)

end Cert.KernelIdeal.KRun

end
-- ==== Proof.Stages.lean ====
/-
  The stages of one hop of the graph convolution, each named once as a function of the arrays it reads: the two row
  gathers behind the neighbour product, the scatter-mean over entities, its two row slices, the scatter-mean of user rows over
  items, the gate's logistic weight and the fused items, the scatter-sum over users, the concatenation of item rows and
  attribute rows, and the row normalisation at the three row counts. The reference program's run is these stages
  composed: each named intermediate of the run is one stage applied to earlier ones or to the argument arrays.
-/
import proofs.«124958_j46205258170764_2_alg».proof.Proof.Gen.ReferenceIdeal.Run
import Idealize.ShloMosaic.PureOps.Ideal

set_option maxRecDepth 8192

noncomputable section

namespace Cert.Stage

open Cert.ReferenceIdeal Cert.ReferenceIdeal.Gen Cert.ReferenceIdeal.Value Idealize.ShloMosaic Idealize.ShloMosaic.TcCoe Idealize.SL.Sem Idealize.ShloMosaic.StableHlo

/-- Rows of the entity matrix gathered at the edges' tails (a negative index wraps once). -/
def gE (ee : FVec Ideal S150000x64 .f32) (et : IVec S2000000 32) : FVec Ideal S2000000x64 .f32 :=
  Host.gather gather_S150000x64_S2000000x1_S2000000x64_1_0_n_n_0_1_164 ee (broadcastInDim S2000000x1 ![0] bcast_S2000000_S2000000x1_0 (select (cmpi .slt et (broadcastInDim S2000000 ![] bcast_S_S2000000 (constantI S_ 32 0#32))) (addi et (broadcastInDim S2000000 ![] bcast_S_S2000000 (constantI S_ 32 150000#32))) et))

/-- Rows of the relation matrix gathered at the edges' types. -/
def gW (w : FVec Ideal S32x64 .f32) (ety : IVec S2000000 32) : FVec Ideal S2000000x64 .f32 :=
  Host.gather gather_S32x64_S2000000x1_S2000000x64_1_0_n_n_0_1_164 w (broadcastInDim S2000000x1 ![0] bcast_S2000000_S2000000x1_0 (select (cmpi .slt ety (broadcastInDim S2000000 ![] bcast_S_S2000000 (constantI S_ 32 0#32))) (addi ety (broadcastInDim S2000000 ![] bcast_S_S2000000 (constantI S_ 32 32#32))) ety))

/-- The scatter-mean of the edge rows nb over their head entities: the scattered sum divided by the head counts floored at 1. -/
def aggE (nb : FVec Ideal S2000000x64 .f32) (eh : IVec S2000000 32) : FVec Ideal S150000x64 .f32 :=
  Host.divf (Host.scatterAdd scatter_S150000x64_S2000000x1_S2000000x64_1_0_0_1 (broadcastInDim S150000x64 ![] bcast_S_S150000x64 (constant S_ .f32 0x00000000#32)) (broadcastInDim S2000000x1 ![0] bcast_S2000000_S2000000x1_0 eh) nb) (broadcastInDim S150000x64 ![0, 1] bcast_S150000x1_S150000x64_0_1 (broadcastInDim S150000x1 ![0] bcast_S150000_S150000x1_0 (maximumf (Host.scatterAdd scatter_S150000_S2000000x1_S2000000_n_0_0_1 (broadcastInDim S150000 ![] bcast_S_S150000 (constant S_ .f32 0x00000000#32)) (broadcastInDim S2000000x1 ![0] bcast_S2000000_S2000000x1_0 eh) (broadcastInDim S2000000 ![] bcast_S_S2000000 (constant S_ .f32 0x3F800000#32))) (broadcastInDim S150000 ![] bcast_S_S150000 (constant S_ .f32 0x3F800000#32)))))

/-- The first 50000 rows (the items). -/
def top (X : FVec Ideal S150000x64 .f32) : FVec Ideal S50000x64 .f32 := extractStridedSlice S50000x64 ![0, 0] X slices_S150000x64_S50000x64_0_0

/-- The last 100000 rows (the attributes). -/
def bot (X : FVec Ideal S150000x64 .f32) : FVec Ideal S100000x64 .f32 := extractStridedSlice S100000x64 ![50000, 0] X slices_S150000x64_S100000x64_50000_0

/-- The scatter-mean over items of the user rows gathered at the interactions' users. -/
def aggI (ue : FVec Ideal S200000x64 .f32) (mr mc : IVec S1000000 32) : FVec Ideal S50000x64 .f32 :=
  Host.divf (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 mc) (Host.gather gather_S200000x64_S1000000x1_S1000000x64_1_0_n_n_0_1_164 ue (broadcastInDim S1000000x1 ![0] bcast_S1000000_S1000000x1_0 (select (cmpi .slt mr (broadcastInDim S1000000 ![] bcast_S_S1000000 (constantI S_ 32 0#32))) (addi mr (broadcastInDim S1000000 ![] bcast_S_S1000000 (constantI S_ 32 200000#32))) mr)))) (broadcastInDim S50000x64 ![0, 1] bcast_S50000x1_S50000x64_0_1 (broadcastInDim S50000x1 ![0] bcast_S50000_S50000x1_0 (maximumf (Host.scatterAdd scatter_S50000_S1000000x1_S1000000_n_0_0_1 (broadcastInDim S50000 ![] bcast_S_S50000 (constant S_ .f32 0x00000000#32)) (broadcastInDim S1000000x1 ![0] bcast_S1000000_S1000000x1_0 mc) (broadcastInDim S1000000 ![] bcast_S_S1000000 (constant S_ .f32 0x3F800000#32))) (broadcastInDim S50000 ![] bcast_S_S50000 (constant S_ .f32 0x3F800000#32)))))

/-- The gate's weight: the logistic function of kg g1ᵀ + intg g2ᵀ, spelled with negate, exponential, add and divide. -/
def gateW (kg intg : FVec Ideal S50000x64 .f32) (g1 g2 : FVec Ideal S64x64 .f32) : FVec Ideal S50000x64 .f32 :=
  Host.divf (broadcastInDim S50000x64 ![] bcast_S_S50000x64 (constant S_ .f32 0x3F800000#32)) (addf (broadcastInDim S50000x64 ![] bcast_S_S50000x64 (constant S_ .f32 0x3F800000#32)) (Host.exp (Host.negf (addf (Host.dotGeneral dot_S50000x64_S64x64_S50000x64_1_0_0_1_n_n none kg (transpose S64x64 [1, 0] g1 transposes_S64x64_S64x64_1_0)) (Host.dotGeneral dot_S50000x64_S64x64_S50000x64_1_0_0_1_n_n none intg (transpose S64x64 [1, 0] g2 transposes_S64x64_S64x64_1_0))))))

/-- The fused items: weight · kg + (1 - weight) · intg. -/
def fuse (sg kg intg : FVec Ideal S50000x64 .f32) : FVec Ideal S50000x64 .f32 :=
  addf (mulf sg kg) (mulf (subf (broadcastInDim S50000x64 ![] bcast_S_S50000x64 (constant S_ .f32 0x3F800000#32)) sg) intg)

/-- The scatter-sum over users of the fused item rows gathered at the interactions' items. -/
def aggU (f : FVec Ideal S50000x64 .f32) (mr mc : IVec S1000000 32) : FVec Ideal S200000x64 .f32 :=
  Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 mr) (Host.gather gather_S50000x64_S1000000x1_S1000000x64_1_0_n_n_0_1_164 f (broadcastInDim S1000000x1 ![0] bcast_S1000000_S1000000x1_0 (select (cmpi .slt mc (broadcastInDim S1000000 ![] bcast_S_S1000000 (constantI S_ 32 0#32))) (addi mc (broadcastInDim S1000000 ![] bcast_S_S1000000 (constantI S_ 32 50000#32))) mc)))

/-- Item rows on top of attribute rows. -/
def cat (a : FVec Ideal S50000x64 .f32) (b : FVec Ideal S100000x64 .f32) : FVec Ideal S150000x64 .f32 :=
  concatenate S150000x64 0 [⟨S50000x64, a⟩, ⟨S100000x64, b⟩] concatenates_S50000x64_S100000x64_S150000x64_d0

/-- Every row divided by its norm floored at 1e-12: 150000 rows. -/
def nrm150 (X : FVec Ideal S150000x64 .f32) : FVec Ideal S150000x64 .f32 :=
  Host.divf X (broadcastInDim S150000x64 ![0, 1] bcast_S150000x1_S150000x64_0_1 (maximumf (Host.sqrt (broadcastInDim S150000x1 ![0] bcast_S150000_S150000x1_0 (Host.reduceAdd (mulf X X) (constant S_ .f32 0x00000000#32) reducesTo_S150000x64_S150000_d1 h_S_))) (broadcastInDim S150000x1 ![] bcast_S_S150000x1 (constant S_ .f32 0x2B8CBCCC#32))))

/-- The same for 200000 rows. -/
def nrm200 (X : FVec Ideal S200000x64 .f32) : FVec Ideal S200000x64 .f32 :=
  Host.divf X (broadcastInDim S200000x64 ![0, 1] bcast_S200000x1_S200000x64_0_1 (maximumf (Host.sqrt (broadcastInDim S200000x1 ![0] bcast_S200000_S200000x1_0 (Host.reduceAdd (mulf X X) (constant S_ .f32 0x00000000#32) reducesTo_S200000x64_S200000_d1 h_S_))) (broadcastInDim S200000x1 ![] bcast_S_S200000x1 (constant S_ .f32 0x2B8CBCCC#32))))

/-- The same for 50000 rows. -/
def nrm50 (X : FVec Ideal S50000x64 .f32) : FVec Ideal S50000x64 .f32 :=
  Host.divf X (broadcastInDim S50000x64 ![0, 1] bcast_S50000x1_S50000x64_0_1 (maximumf (Host.sqrt (broadcastInDim S50000x1 ![0] bcast_S50000_S50000x1_0 (Host.reduceAdd (mulf X X) (constant S_ .f32 0x00000000#32) reducesTo_S50000x64_S50000_d1 h_S_))) (broadcastInDim S50000x1 ![] bcast_S_S50000x1 (constant S_ .f32 0x2B8CBCCC#32))))

/-- The zero matrix of 50000 rows. -/
def zeros50 : FVec Ideal S50000x64 .f32 := broadcastInDim S50000x64 ![] bcast_S_S50000x64 (constant S_ .f32 0x00000000#32)

variable (V0 : Valuation τ sig (Elt Ideal))

theorem res28 : res_main_v28 V0 = aggE (mulf (gE (V0 (Proc.devRef .tc main_arg1)) (V0 (Proc.devRef .tc main_arg6))) (gW (V0 (Proc.devRef .tc main_arg2)) (V0 (Proc.devRef .tc main_arg7)))) (V0 (Proc.devRef .tc main_arg5)) := rfl
theorem res29 : res_main_v29 V0 = top (res_main_v28 V0) := rfl
theorem res49 : res_main_v49 V0 = aggI (V0 (Proc.devRef .tc main_arg0)) (V0 (Proc.devRef .tc main_arg8)) (V0 (Proc.devRef .tc main_arg9)) := rfl
theorem res60 : res_main_v60 V0 = gateW (res_main_v29 V0) (res_main_v49 V0) (V0 (Proc.devRef .tc main_arg3)) (V0 (Proc.devRef .tc main_arg4)) := rfl
theorem res65 : res_main_v65 V0 = fuse (res_main_v60 V0) (res_main_v29 V0) (res_main_v49 V0) := rfl
theorem res75 : res_main_v75 V0 = aggU (res_main_v65 V0) (V0 (Proc.devRef .tc main_arg8)) (V0 (Proc.devRef .tc main_arg9)) := rfl
theorem res76 : res_main_v76 V0 = cat (res_main_v65 V0) (bot (res_main_v28 V0)) := rfl
theorem res84 : res_main_v84 V0 = nrm150 (res_main_v76 V0) := rfl
theorem res92 : res_main_v92 V0 = nrm200 (res_main_v75 V0) := rfl
theorem res139 : res_main_v139 V0 = aggE (mulf (gE (res_main_v84 V0) (V0 (Proc.devRef .tc main_arg6))) (gW (V0 (Proc.devRef .tc main_arg2)) (V0 (Proc.devRef .tc main_arg7)))) (V0 (Proc.devRef .tc main_arg5)) := rfl
theorem res140 : res_main_v140 V0 = top (res_main_v139 V0) := rfl
theorem res160 : res_main_v160 V0 = aggI (res_main_v92 V0) (V0 (Proc.devRef .tc main_arg8)) (V0 (Proc.devRef .tc main_arg9)) := rfl
theorem res171 : res_main_v171 V0 = gateW (res_main_v140 V0) (res_main_v160 V0) (V0 (Proc.devRef .tc main_arg3)) (V0 (Proc.devRef .tc main_arg4)) := rfl
theorem res176 : res_main_v176 V0 = fuse (res_main_v171 V0) (res_main_v140 V0) (res_main_v160 V0) := rfl
theorem res186 : res_main_v186 V0 = aggU (res_main_v176 V0) (V0 (Proc.devRef .tc main_arg8)) (V0 (Proc.devRef .tc main_arg9)) := rfl
theorem res187 : res_main_v187 V0 = cat (res_main_v176 V0) (bot (res_main_v139 V0)) := rfl

end Cert.Stage

end
-- ==== Proof.Spec.lean ====
/-
  The mathematics both programs compute, stated once over matrices with 64 columns and any number of rows, on the
  extended reals (the ideal reading of a float).

  A hop of the graph convolution is built from three row-blocked pieces:
  * the entrywise product of two matrices;
  * the gated fusion of two matrices kg, intg with two 64 x 64 weights g1, g2: with
    s (p, q) = sum_k kg (p, k) g1 (q, k) + sum_k intg (p, k) g2 (q, k)  (both products against the TRANSPOSED weight),
    the result is sigma (s) kg + (1 - sigma (s)) intg entry by entry, sigma the logistic function;
  * the row normalisation x (p, q) / max (sqrt (sum_k x (p, k)^2), eps), and the residual res + normalised x.
  Every one of them acts row by row: the entry at (p, q) depends on row p of the row-blocked operands only. That is
  what lets a kernel compute it block of rows by block of rows, and lets it be taken through a concatenation of rows.
-/
import Idealize.ShloMosaic.PureOps.Ideal.Laws
import Idealize.ShloMosaic.Lib.ValueIdx

noncomputable section

namespace Cert.Spec

open Idealize.ShloMosaic Idealize.ShloMosaic.ValueIdx

/-- A matrix of extended reals with n rows and k columns, indexed as the programs index their arrays. -/
abbrev Mat (n k : ℕ) : Type := (⟨2, ![n, k]⟩ : Shape).Idx → EReal

/-- The floor under a row's norm: the f32 word both programs write for 1e-12. -/
def eps : EReal := Ideal.ofBits .f32 0x2B8CBCCC#32

/-- The f32 word of 1. -/
def one : EReal := Ideal.ofBits .f32 0x3F800000#32

/-- Row p of x against row q of g: sum_k x (p, k) g (q, k). -/
def rowDot {n : ℕ} (x : Mat n 64) (g : Mat 64 64) (p : Fin n) (q : Fin 64) : EReal :=
  ∑ k : Fin 64, x (ix2 p k) * g (ix2 q k)

/-- The gate's blend of two entries a, b at the pre-activation s. -/
def blend (s a b : EReal) : EReal := Ideal.logistic s * a + (one - Ideal.logistic s) * b

/-- The gated fusion at (p, q). -/
def gateAt {n : ℕ} (kg intg : Mat n 64) (g1 g2 : Mat 64 64) (p : Fin n) (q : Fin 64) : EReal :=
  blend (rowDot kg g1 p q + rowDot intg g2 p q) (kg (ix2 p q)) (intg (ix2 p q))

/-- The gated fusion of kg and intg under the weights g1, g2. -/
def gate {n : ℕ} (kg intg : Mat n 64) (g1 g2 : Mat 64 64) : Mat n 64 := fun i => gateAt kg intg g1 g2 (i 0) (i 1)

/-- The sum of the squares of row p. -/
def rowSq {n : ℕ} (x : Mat n 64) (p : Fin n) : EReal := ∑ k : Fin 64, x (ix2 p k) * x (ix2 p k)

/-- An entry a of a row whose squares sum to ss, normalised. -/
def unit (a ss : EReal) : EReal := Ideal.div a (max (Ideal.sqrt ss) eps)

/-- The row-normalised matrix at (p, q). -/
def normedAt {n : ℕ} (x : Mat n 64) (p : Fin n) (q : Fin 64) : EReal := unit (x (ix2 p q)) (rowSq x p)

/-- Every row divided by its norm (floored at eps). -/
def normed {n : ℕ} (x : Mat n 64) : Mat n 64 := fun i => normedAt x (i 0) (i 1)

/-- The residual: res plus the row-normalised x. -/
def resAdd {n : ℕ} (x res : Mat n 64) : Mat n 64 := fun i => res i + normedAt x (i 0) (i 1)

theorem gate_ix2 {n : ℕ} (kg intg : Mat n 64) (g1 g2 : Mat 64 64) (p : Fin n) (q : Fin 64) :
    gate kg intg g1 g2 (ix2 p q) = gateAt kg intg g1 g2 p q := rfl

theorem normed_ix2 {n : ℕ} (x : Mat n 64) (p : Fin n) (q : Fin 64) : normed x (ix2 p q) = normedAt x p q := rfl

theorem resAdd_ix2 {n : ℕ} (x res : Mat n 64) (p : Fin n) (q : Fin 64) :
    resAdd x res (ix2 p q) = res (ix2 p q) + normedAt x p q := rfl

/-- The gated fusion at (p, q) sees only row p of kg and of intg: if row p' of kg', intg' is row p of kg, intg, the
    entries agree. -/
theorem gateAt_congr {n n' : ℕ} (kg intg : Mat n 64) (kg' intg' : Mat n' 64) (g1 g2 : Mat 64 64) (p : Fin n) (p' : Fin n') (q : Fin 64)
    (hk : ∀ k : Fin 64, kg' (ix2 p' k) = kg (ix2 p k)) (hi : ∀ k : Fin 64, intg' (ix2 p' k) = intg (ix2 p k)) :
    gateAt kg' intg' g1 g2 p' q = gateAt kg intg g1 g2 p q := by
  unfold gateAt rowDot
  rw [hk q, hi q]
  congr 2
  · exact Finset.sum_congr rfl fun k _ => by rw [hk k]
  · exact Finset.sum_congr rfl fun k _ => by rw [hi k]

/-- The normalised entry at (p, q) sees only row p of x. -/
theorem normedAt_congr {n n' : ℕ} (x : Mat n 64) (x' : Mat n' 64) (p : Fin n) (p' : Fin n') (q : Fin 64)
    (hx : ∀ k : Fin 64, x' (ix2 p' k) = x (ix2 p k)) : normedAt x' p' q = normedAt x p q := by
  unfold normedAt rowSq
  rw [hx q]
  congr 1
  exact Finset.sum_congr rfl fun k _ => by rw [hx k]

end Cert.Spec

end
-- ==== Proof.Reg0.lean ====
/-
  The entrywise product, block of rows by block of rows.

  The region multiplies two matrices of 2,000,000 rows and 64 columns entry by entry, 10,000 rows at a grid point: point t
  reads rows 10000 t … 10000 t + 9999 of both operands and writes the same rows of the result. The 200 blocks tile the
  result, and every entry of a block is the product of the two operands' entries at the same place of the whole array; so
  after the region the result array is the entrywise product of the two arrays as the region found them.
-/
import proofs.«124958_j46205258170764_2_alg».proof.Proof.Gen.KernelIdeal.Frame
import Idealize.ShloMosaic.Lib.Pipeline.Value
import Idealize.ShloMosaic.Lib.ValueIdx

noncomputable section

namespace Cert.KernelIdeal.Reg0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The entrywise product of two arrays of 2,000,000 rows. -/
abbrev G (a0 a1 : S2000000x64.Idx → Ideal .f32) : S2000000x64.Idx → Ideal .f32 := fun i => FloatOps.mulf (F := Ideal) (φ := .f32) (a0 i) (a1 i)

/-- The zero offsets of a whole-buffer access, as a constant function. -/
theorem hz : (![0, 0] : Fin 2 → Nat) = fun _ => 0 := funext fun a => by fin_cases a <;> rfl

/-- The body's stored value is the product of its two loaded blocks (the casts between equal shapes are the identity). -/
theorem pay_eq (x0 x1 : Vec Ideal S10000x64 .f32) : k0_pay1 x0 x1 = mulf x0 x1 := by
  unfold k0_pay1
  simp only [shapeCast_self]

/-- The three windows move together: at point t each has block index (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the entrywise product of the two arrays as the region finds them. -/
theorem flushed_eq (c : Dev nD) (t : Fin cfg0.N) :
    (dat0 V c).flushed 2 t = ((cfg0.win 2).blk t).view.read (Elt Ideal)
      (G (V c main_v8) (V c main_v15)) := by
  show (cfg0.win 2).cut (grid0.coords t) ((dat0 V c).after 2 t) = _
  rw [after0_2]
  unfold out0_2
  rw [View.canon_unit_zero hz]
  simp only [View.ld_unit_zero (S := S10000x64) hz]
  rw [pay_eq]
  obtain ⟨e0, e1, e2, e3, e4, e5⟩ := idx_facts t
  funext j
  show FloatOps.mulf (F := Ideal) (φ := .f32) (V c main_v8 (((cfg0.win 0).blk t).view.emb j)) (V c main_v15 (((cfg0.win 1).blk t).view.emb j))
    = FloatOps.mulf (F := Ideal) (φ := .f32) (V c main_v8 (((cfg0.win 2).blk t).view.emb j)) (V c main_v15 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-- An index of the result array is in point t's block iff each coordinate is in the block's range on its axis. -/
theorem mem_blk (t : Fin cfg0.N) (i : S2000000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v16).slice (win0_2.rect t)).set ↔ _
  rw [View.set_slice_whole, Rect.mem_set_unit]
  exact Iff.rfl

/-- Every index of the result array is in some point's block: row r is in the block of point r / 10000. -/
theorem cover (i : S2000000x64.Idx) :
    ∃ t : Fin cfg0.N, (cfg0.win 2).flush t = true ∧ i ∈ ((cfg0.win 2).blk t).view.set := by
  have hi0 : (i 0).val < 2000000 := (i 0).isLt
  have hi1 : (i 1).val < 64 := (i 1).isLt
  have hlt : (i 0).val / 10000 < 200 := by omega
  obtain ⟨-, -, -, -, e4, e5⟩ := idx_facts (⟨(i 0).val / 10000, hlt⟩ : Fin cfg0.N)
  have e4' : win0_2.index (⟨(i 0).val / 10000, hlt⟩ : Fin cfg0.N) (0 : Fin 2) = (i 0).val / 10000 := e4
  refine ⟨⟨(i 0).val / 10000, hlt⟩, flush0_2 _, ?_⟩
  rw [mem_blk]
  intro a
  match a with
  | ⟨0, _⟩ =>
    show win0_2.index (⟨(i 0).val / 10000, hlt⟩ : Fin cfg0.N) (0 : Fin 2) * 10000 ≤ (i 0).val
      ∧ (i 0).val < win0_2.index (⟨(i 0).val / 10000, hlt⟩ : Fin cfg0.N) (0 : Fin 2) * 10000 + 10000
    rw [e4']; omega
  | ⟨1, _⟩ =>
    show win0_2.index (⟨(i 0).val / 10000, hlt⟩ : Fin cfg0.N) (1 : Fin 2) * 64 ≤ (i 1).val
      ∧ (i 1).val < win0_2.index (⟨(i 0).val / 10000, hlt⟩ : Fin cfg0.N) (1 : Fin 2) * 64 + 64
    rw [e5]; omega

/-- After the region the result array is the entrywise product of the two operand arrays as the region found them. -/
theorem arr_2 (c : Dev nD) : (dat0 V c).arrAt 2 cfg0.N
    = G (V c main_v8) (V c main_v15) :=
  (dat0 V c).arrAt_eq_of_cover 2 _ (fun t _ => flushed_eq V c t) (cover)

end Cert.KernelIdeal.Reg0

end
-- ==== Proof.Reg7.lean ====
/-
  The entrywise product, block of rows by block of rows.

  The region multiplies two matrices of 2,000,000 rows and 64 columns entry by entry, 10,000 rows at a grid point: point t
  reads rows 10000 t … 10000 t + 9999 of both operands and writes the same rows of the result. The 200 blocks tile the
  result, and every entry of a block is the product of the two operands' entries at the same place of the whole array; so
  after the region the result array is the entrywise product of the two arrays as the region found them.
-/
import proofs.«124958_j46205258170764_2_alg».proof.Proof.Gen.KernelIdeal.Frame
import Idealize.ShloMosaic.Lib.Pipeline.Value
import Idealize.ShloMosaic.Lib.ValueIdx

noncomputable section

namespace Cert.KernelIdeal.Reg7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The entrywise product of two arrays of 2,000,000 rows. -/
abbrev G (a0 a1 : S2000000x64.Idx → Ideal .f32) : S2000000x64.Idx → Ideal .f32 := fun i => FloatOps.mulf (F := Ideal) (φ := .f32) (a0 i) (a1 i)

/-- The zero offsets of a whole-buffer access, as a constant function. -/
theorem hz : (![0, 0] : Fin 2 → Nat) = fun _ => 0 := funext fun a => by fin_cases a <;> rfl

/-- The body's stored value is the product of its two loaded blocks (the casts between equal shapes are the identity). -/
theorem pay_eq (x0 x1 : Vec Ideal S10000x64 .f32) : k7_pay1 x0 x1 = mulf x0 x1 := by
  unfold k7_pay1
  simp only [shapeCast_self]

/-- The three windows move together: at point t each has block index (t, 0). -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point t writes back is block t of the entrywise product of the two arrays as the region finds them. -/
theorem flushed_eq (c : Dev nD) (t : Fin cfg7.N) :
    (dat7 V c).flushed 2 t = ((cfg7.win 2).blk t).view.read (Elt Ideal)
      (G (V c main_v76) (V c main_v83)) := by
  show (cfg7.win 2).cut (grid7.coords t) ((dat7 V c).after 2 t) = _
  rw [after7_2]
  unfold out7_2
  rw [View.canon_unit_zero hz]
  simp only [View.ld_unit_zero (S := S10000x64) hz]
  rw [pay_eq]
  obtain ⟨e0, e1, e2, e3, e4, e5⟩ := idx_facts t
  funext j
  show FloatOps.mulf (F := Ideal) (φ := .f32) (V c main_v76 (((cfg7.win 0).blk t).view.emb j)) (V c main_v83 (((cfg7.win 1).blk t).view.emb j))
    = FloatOps.mulf (F := Ideal) (φ := .f32) (V c main_v76 (((cfg7.win 2).blk t).view.emb j)) (V c main_v83 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb j = ((cfg7.win 2).blk t).view.emb j := by
    funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 64 + 1 * (j 1).val = win7_2.index t (1 : Fin 2) * 64 + 1 * (j 1).val; omega
  rw [h0, h1]

/-- An index of the result array is in point t's block iff each coordinate is in the block's range on its axis. -/
theorem mem_blk (t : Fin cfg7.N) (i : S2000000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v84).slice (win7_2.rect t)).set ↔ _
  rw [View.set_slice_whole, Rect.mem_set_unit]
  exact Iff.rfl

/-- Every index of the result array is in some point's block: row r is in the block of point r / 10000. -/
theorem cover (i : S2000000x64.Idx) :
    ∃ t : Fin cfg7.N, (cfg7.win 2).flush t = true ∧ i ∈ ((cfg7.win 2).blk t).view.set := by
  have hi0 : (i 0).val < 2000000 := (i 0).isLt
  have hi1 : (i 1).val < 64 := (i 1).isLt
  have hlt : (i 0).val / 10000 < 200 := by omega
  obtain ⟨-, -, -, -, e4, e5⟩ := idx_facts (⟨(i 0).val / 10000, hlt⟩ : Fin cfg7.N)
  have e4' : win7_2.index (⟨(i 0).val / 10000, hlt⟩ : Fin cfg7.N) (0 : Fin 2) = (i 0).val / 10000 := e4
  refine ⟨⟨(i 0).val / 10000, hlt⟩, flush7_2 _, ?_⟩
  rw [mem_blk]
  intro a
  match a with
  | ⟨0, _⟩ =>
    show win7_2.index (⟨(i 0).val / 10000, hlt⟩ : Fin cfg7.N) (0 : Fin 2) * 10000 ≤ (i 0).val
      ∧ (i 0).val < win7_2.index (⟨(i 0).val / 10000, hlt⟩ : Fin cfg7.N) (0 : Fin 2) * 10000 + 10000
    rw [e4']; omega
  | ⟨1, _⟩ =>
    show win7_2.index (⟨(i 0).val / 10000, hlt⟩ : Fin cfg7.N) (1 : Fin 2) * 64 ≤ (i 1).val
      ∧ (i 1).val < win7_2.index (⟨(i 0).val / 10000, hlt⟩ : Fin cfg7.N) (1 : Fin 2) * 64 + 64
    rw [e5]; omega

/-- After the region the result array is the entrywise product of the two operand arrays as the region found them. -/
theorem arr_2 (c : Dev nD) : (dat7 V c).arrAt 2 cfg7.N
    = G (V c main_v76) (V c main_v83) :=
  (dat7 V c).arrAt_eq_of_cover 2 _ (fun t _ => flushed_eq V c t) (cover)

end Cert.KernelIdeal.Reg7

end
-- ==== Proof.Vals.lean ====
/-
  The values of one run, named as functions of the argument arrays.

  With the launch memory m on core c: the argument arrays A0 … A9; for the first hop the gathered tail rows T1 and
  relation rows RL, their product N1, the scatter-mean over entities E1 with its item rows IK1 and attribute rows AT1, the
  scatter-mean of user rows over items II1, the gated fusion F1, the scatter-sum over users UA1, the normalised rows
  (FN1, AN1, UE1), the residuals (FR1, AR1 joined to ER1; UR1; KR1; IR1) and the next hop's entity rows EM1; for the second
  hop the same with index 2, ending in the four results ER2, UR2, KR2, IR2. The stages are the reference program's own
  (gathers, scatters, slices and the concatenation); the three kernels' pieces are the specification's.
-/
import proofs.«124958_j46205258170764_2_alg».proof.Proof.Gen.KernelIdeal.Frame
import proofs.«124958_j46205258170764_2_alg».proof.Proof.Stages
import proofs.«124958_j46205258170764_2_alg».proof.Proof.Spec
import proofs.«124958_j46205258170764_2_alg».proof.Proof.Reg0
import proofs.«124958_j46205258170764_2_alg».proof.Proof.Reg7

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (c : Dev nD)

def A0 : FVec Ideal S200000x64 .f32 := m ((c : Thread nD τ).loc main_arg0)
def A1 : FVec Ideal S150000x64 .f32 := m ((c : Thread nD τ).loc main_arg1)
def A2 : FVec Ideal S32x64 .f32 := m ((c : Thread nD τ).loc main_arg2)
def A3 : FVec Ideal S64x64 .f32 := m ((c : Thread nD τ).loc main_arg3)
def A4 : FVec Ideal S64x64 .f32 := m ((c : Thread nD τ).loc main_arg4)
def A5 : IVec S2000000 32 := m ((c : Thread nD τ).loc main_arg5)
def A6 : IVec S2000000 32 := m ((c : Thread nD τ).loc main_arg6)
def A7 : IVec S2000000 32 := m ((c : Thread nD τ).loc main_arg7)
def A8 : IVec S1000000 32 := m ((c : Thread nD τ).loc main_arg8)
def A9 : IVec S1000000 32 := m ((c : Thread nD τ).loc main_arg9)
def T1 : FVec Ideal S2000000x64 .f32 := Cert.Stage.gE (A1 m c) (A6 m c)
def RL : FVec Ideal S2000000x64 .f32 := Cert.Stage.gW (A2 m c) (A7 m c)
def N1 : FVec Ideal S2000000x64 .f32 := Cert.KernelIdeal.Reg0.G (T1 m c) (RL m c)
def E1 : FVec Ideal S150000x64 .f32 := Cert.Stage.aggE (N1 m c) (A5 m c)
def IK1 : FVec Ideal S50000x64 .f32 := Cert.Stage.top (E1 m c)
def AT1 : FVec Ideal S100000x64 .f32 := Cert.Stage.bot (E1 m c)
def II1 : FVec Ideal S50000x64 .f32 := Cert.Stage.aggI (A0 m c) (A8 m c) (A9 m c)
def F1 : FVec Ideal S50000x64 .f32 := Cert.Spec.gate (IK1 m c) (II1 m c) (A3 m c) (A4 m c)
def UA1 : FVec Ideal S200000x64 .f32 := Cert.Stage.aggU (F1 m c) (A8 m c) (A9 m c)
def TA : FVec Ideal S50000x64 .f32 := Cert.Stage.top (A1 m c)
def BA : FVec Ideal S100000x64 .f32 := Cert.Stage.bot (A1 m c)
def FN1 : FVec Ideal S50000x64 .f32 := Cert.Spec.normed (F1 m c)
def FR1 : FVec Ideal S50000x64 .f32 := Cert.Spec.resAdd (F1 m c) (TA m c)
def AN1 : FVec Ideal S100000x64 .f32 := Cert.Spec.normed (AT1 m c)
def AR1 : FVec Ideal S100000x64 .f32 := Cert.Spec.resAdd (AT1 m c) (BA m c)
def ER1 : FVec Ideal S150000x64 .f32 := Cert.Stage.cat (FR1 m c) (AR1 m c)
def UE1 : FVec Ideal S200000x64 .f32 := Cert.Spec.normed (UA1 m c)
def UR1 : FVec Ideal S200000x64 .f32 := Cert.Spec.resAdd (UA1 m c) (A0 m c)
def KR1 : FVec Ideal S50000x64 .f32 := Cert.Spec.resAdd (IK1 m c) Cert.Stage.zeros50
def IR1 : FVec Ideal S50000x64 .f32 := Cert.Spec.resAdd (II1 m c) Cert.Stage.zeros50
def EM1 : FVec Ideal S150000x64 .f32 := Cert.Stage.cat (FN1 m c) (AN1 m c)
def T2 : FVec Ideal S2000000x64 .f32 := Cert.Stage.gE (EM1 m c) (A6 m c)
def N2 : FVec Ideal S2000000x64 .f32 := Cert.KernelIdeal.Reg7.G (T2 m c) (RL m c)
def E2 : FVec Ideal S150000x64 .f32 := Cert.Stage.aggE (N2 m c) (A5 m c)
def IK2 : FVec Ideal S50000x64 .f32 := Cert.Stage.top (E2 m c)
def AT2 : FVec Ideal S100000x64 .f32 := Cert.Stage.bot (E2 m c)
def II2 : FVec Ideal S50000x64 .f32 := Cert.Stage.aggI (UE1 m c) (A8 m c) (A9 m c)
def F2 : FVec Ideal S50000x64 .f32 := Cert.Spec.gate (IK2 m c) (II2 m c) (A3 m c) (A4 m c)
def UA2 : FVec Ideal S200000x64 .f32 := Cert.Stage.aggU (F2 m c) (A8 m c) (A9 m c)
def TE : FVec Ideal S50000x64 .f32 := Cert.Stage.top (ER1 m c)
def BE : FVec Ideal S100000x64 .f32 := Cert.Stage.bot (ER1 m c)
def FR2 : FVec Ideal S50000x64 .f32 := Cert.Spec.resAdd (F2 m c) (TE m c)
def AR2 : FVec Ideal S100000x64 .f32 := Cert.Spec.resAdd (AT2 m c) (BE m c)
def ER2 : FVec Ideal S150000x64 .f32 := Cert.Stage.cat (FR2 m c) (AR2 m c)
def UR2 : FVec Ideal S200000x64 .f32 := Cert.Spec.resAdd (UA2 m c) (UR1 m c)
def KR2 : FVec Ideal S50000x64 .f32 := Cert.Spec.resAdd (IK2 m c) (KR1 m c)
def IR2 : FVec Ideal S50000x64 .f32 := Cert.Spec.resAdd (II2 m c) (IR1 m c)

end Cert.KernelIdeal.Chain

end
-- ==== Proof.ChainKeep.lean ====
/-
  What a segment of the kernel program leaves alone.

  A stretch of host operations writes only its own result buffers, and a region writes only its output arrays; every other
  buffer holds after the segment what it held before. For each stretch the list of buffers it writes is read off its
  operations, and for each of the 25 boundaries of the program the fact is stated once: a buffer the segment before the
  boundary does not write has, at the boundary, its contents at the boundary before.
-/
import proofs.«124958_j46205258170764_2_alg».proof.Proof.Gen.KernelIdeal.Frame
import Idealize.ShloMosaic.Lib.StableHlo.Run
import Idealize.ShloMosaic.PureOps.Ideal

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

/-- The buffers the operations of stretch 0 write. -/
abbrev written0 : List (Ref sig .tc) := [main_cst, main_v0, main_cst_0, main_v1, main_c, main_v2, main_v3, main_c_1, main_v4, main_v5, main_v6, main_v7, main_v8, main_c_2, main_v9, main_v10, main_c_3, main_v11, main_v12, main_v13, main_v14, main_v15]

theorem writes0 : (hostOps0 : List (HloOp τ sig (Elt Ideal))).Forall fun op => op.writes ⊆ ((written0).map (Proc.devRef (τ := τ) .tc)).toFinset := by
  simp only [hostOps0, List.Forall]
  repeat' apply And.intro
  all_goals (simp only [nullary_writes, unary_writes, binary_writes, ternary_writes, quaternary_writes, Finset.singleton_subset_iff, List.mem_toFinset]; exact List.mem_map_of_mem (by decide))

/-- A buffer stretch 0 does not write keeps its contents through it. -/
theorem keep0 (W : Valuation τ sig (Elt Ideal)) (r : Ref sig .tc) (h : r ∉ written0) :
    after hostOps0 W (Proc.devRef .tc r) = W (Proc.devRef .tc r) :=
  after_of_writes_sub hostOps0 _ writes0 h

/-- The buffers the operations of stretch 1 write. -/
abbrev written1 : List (Ref sig .tc) := [main_cst_4, main_v17, main_v18, main_v19, main_cst_5, main_v20, main_cst_6, main_v21, main_v22, main_v23, main_cst_7, main_v24, main_v25, main_v26, main_v27, main_v28, main_v29, main_v30, main_c_8, main_v31, main_v32, main_c_9, main_v33, main_v34, main_v35, main_v36, main_v37, main_cst_10, main_v38, main_v39, main_v40, main_cst_11, main_v41, main_cst_12, main_v42, main_v43, main_v44, main_cst_13, main_v45, main_v46, main_v47, main_v48, main_v49]

theorem writes1 : (hostOps1 : List (HloOp τ sig (Elt Ideal))).Forall fun op => op.writes ⊆ ((written1).map (Proc.devRef (τ := τ) .tc)).toFinset := by
  simp only [hostOps1, List.Forall]
  repeat' apply And.intro
  all_goals (simp only [nullary_writes, unary_writes, binary_writes, ternary_writes, quaternary_writes, Finset.singleton_subset_iff, List.mem_toFinset]; exact List.mem_map_of_mem (by decide))

/-- A buffer stretch 1 does not write keeps its contents through it. -/
theorem keep1 (W : Valuation τ sig (Elt Ideal)) (r : Ref sig .tc) (h : r ∉ written1) :
    after hostOps1 W (Proc.devRef .tc r) = W (Proc.devRef .tc r) :=
  after_of_writes_sub hostOps1 _ writes1 h

/-- The buffers the operations of stretch 2 write. -/
abbrev written2 : List (Ref sig .tc) := [main_c_14, main_v51, main_v52, main_c_15, main_v53, main_v54, main_v55, main_v56, main_v57, main_cst_16, main_v58, main_v59, main_v60, main_v61]

theorem writes2 : (hostOps2 : List (HloOp τ sig (Elt Ideal))).Forall fun op => op.writes ⊆ ((written2).map (Proc.devRef (τ := τ) .tc)).toFinset := by
  simp only [hostOps2, List.Forall]
  repeat' apply And.intro
  all_goals (simp only [nullary_writes, unary_writes, binary_writes, ternary_writes, quaternary_writes, Finset.singleton_subset_iff, List.mem_toFinset]; exact List.mem_map_of_mem (by decide))

/-- A buffer stretch 2 does not write keeps its contents through it. -/
theorem keep2 (W : Valuation τ sig (Elt Ideal)) (r : Ref sig .tc) (h : r ∉ written2) :
    after hostOps2 W (Proc.devRef .tc r) = W (Proc.devRef .tc r) :=
  after_of_writes_sub hostOps2 _ writes2 h

/-- The buffers the operations of stretch 3 write. -/
abbrev written3 : List (Ref sig .tc) := [main_v63]

theorem writes3 : (hostOps3 : List (HloOp τ sig (Elt Ideal))).Forall fun op => op.writes ⊆ ((written3).map (Proc.devRef (τ := τ) .tc)).toFinset := by
  simp only [hostOps3, List.Forall]
  repeat' apply And.intro
  all_goals (simp only [nullary_writes, unary_writes, binary_writes, ternary_writes, quaternary_writes, Finset.singleton_subset_iff, List.mem_toFinset]; exact List.mem_map_of_mem (by decide))

/-- A buffer stretch 3 does not write keeps its contents through it. -/
theorem keep3 (W : Valuation τ sig (Elt Ideal)) (r : Ref sig .tc) (h : r ∉ written3) :
    after hostOps3 W (Proc.devRef .tc r) = W (Proc.devRef .tc r) :=
  after_of_writes_sub hostOps3 _ writes3 h

/-- The buffers the operations of stretch 4 write. -/
abbrev written4 : List (Ref sig .tc) := [main_v65]

theorem writes4 : (hostOps4 : List (HloOp τ sig (Elt Ideal))).Forall fun op => op.writes ⊆ ((written4).map (Proc.devRef (τ := τ) .tc)).toFinset := by
  simp only [hostOps4, List.Forall]
  repeat' apply And.intro
  all_goals (simp only [nullary_writes, unary_writes, binary_writes, ternary_writes, quaternary_writes, Finset.singleton_subset_iff, List.mem_toFinset]; exact List.mem_map_of_mem (by decide))

/-- A buffer stretch 4 does not write keeps its contents through it. -/
theorem keep4 (W : Valuation τ sig (Elt Ideal)) (r : Ref sig .tc) (h : r ∉ written4) :
    after hostOps4 W (Proc.devRef .tc r) = W (Proc.devRef .tc r) :=
  after_of_writes_sub hostOps4 _ writes4 h

/-- The buffers the operations of stretch 7 write. -/
abbrev written7 : List (Ref sig .tc) := [main_v69, main_c_17, main_v70, main_v71, main_c_18, main_v72, main_v73, main_v74, main_v75, main_v76, main_c_19, main_v77, main_v78, main_c_20, main_v79, main_v80, main_v81, main_v82, main_v83]

theorem writes7 : (hostOps7 : List (HloOp τ sig (Elt Ideal))).Forall fun op => op.writes ⊆ ((written7).map (Proc.devRef (τ := τ) .tc)).toFinset := by
  simp only [hostOps7, List.Forall]
  repeat' apply And.intro
  all_goals (simp only [nullary_writes, unary_writes, binary_writes, ternary_writes, quaternary_writes, Finset.singleton_subset_iff, List.mem_toFinset]; exact List.mem_map_of_mem (by decide))

/-- A buffer stretch 7 does not write keeps its contents through it. -/
theorem keep7 (W : Valuation τ sig (Elt Ideal)) (r : Ref sig .tc) (h : r ∉ written7) :
    after hostOps7 W (Proc.devRef .tc r) = W (Proc.devRef .tc r) :=
  after_of_writes_sub hostOps7 _ writes7 h

/-- The buffers the operations of stretch 8 write. -/
abbrev written8 : List (Ref sig .tc) := [main_cst_21, main_v85, main_v86, main_v87, main_cst_22, main_v88, main_cst_23, main_v89, main_v90, main_v91, main_cst_24, main_v92, main_v93, main_v94, main_v95, main_v96, main_v97, main_v98, main_c_25, main_v99, main_v100, main_c_26, main_v101, main_v102, main_v103, main_v104, main_v105, main_cst_27, main_v106, main_v107, main_v108, main_cst_28, main_v109, main_cst_29, main_v110, main_v111, main_v112, main_cst_30, main_v113, main_v114, main_v115, main_v116, main_v117]

theorem writes8 : (hostOps8 : List (HloOp τ sig (Elt Ideal))).Forall fun op => op.writes ⊆ ((written8).map (Proc.devRef (τ := τ) .tc)).toFinset := by
  simp only [hostOps8, List.Forall]
  repeat' apply And.intro
  all_goals (simp only [nullary_writes, unary_writes, binary_writes, ternary_writes, quaternary_writes, Finset.singleton_subset_iff, List.mem_toFinset]; exact List.mem_map_of_mem (by decide))

/-- A buffer stretch 8 does not write keeps its contents through it. -/
theorem keep8 (W : Valuation τ sig (Elt Ideal)) (r : Ref sig .tc) (h : r ∉ written8) :
    after hostOps8 W (Proc.devRef .tc r) = W (Proc.devRef .tc r) :=
  after_of_writes_sub hostOps8 _ writes8 h

/-- The buffers the operations of stretch 9 write. -/
abbrev written9 : List (Ref sig .tc) := [main_c_31, main_v119, main_v120, main_c_32, main_v121, main_v122, main_v123, main_v124, main_v125, main_cst_33, main_v126, main_v127, main_v128, main_v129]

theorem writes9 : (hostOps9 : List (HloOp τ sig (Elt Ideal))).Forall fun op => op.writes ⊆ ((written9).map (Proc.devRef (τ := τ) .tc)).toFinset := by
  simp only [hostOps9, List.Forall]
  repeat' apply And.intro
  all_goals (simp only [nullary_writes, unary_writes, binary_writes, ternary_writes, quaternary_writes, Finset.singleton_subset_iff, List.mem_toFinset]; exact List.mem_map_of_mem (by decide))

/-- A buffer stretch 9 does not write keeps its contents through it. -/
theorem keep9 (W : Valuation τ sig (Elt Ideal)) (r : Ref sig .tc) (h : r ∉ written9) :
    after hostOps9 W (Proc.devRef .tc r) = W (Proc.devRef .tc r) :=
  after_of_writes_sub hostOps9 _ writes9 h

/-- The buffers the operations of stretch 10 write. -/
abbrev written10 : List (Ref sig .tc) := [main_v131]

theorem writes10 : (hostOps10 : List (HloOp τ sig (Elt Ideal))).Forall fun op => op.writes ⊆ ((written10).map (Proc.devRef (τ := τ) .tc)).toFinset := by
  simp only [hostOps10, List.Forall]
  repeat' apply And.intro
  all_goals (simp only [nullary_writes, unary_writes, binary_writes, ternary_writes, quaternary_writes, Finset.singleton_subset_iff, List.mem_toFinset]; exact List.mem_map_of_mem (by decide))

/-- A buffer stretch 10 does not write keeps its contents through it. -/
theorem keep10 (W : Valuation τ sig (Elt Ideal)) (r : Ref sig .tc) (h : r ∉ written10) :
    after hostOps10 W (Proc.devRef .tc r) = W (Proc.devRef .tc r) :=
  after_of_writes_sub hostOps10 _ writes10 h

/-- The buffers the operations of stretch 11 write. -/
abbrev written11 : List (Ref sig .tc) := [main_v133]

theorem writes11 : (hostOps11 : List (HloOp τ sig (Elt Ideal))).Forall fun op => op.writes ⊆ ((written11).map (Proc.devRef (τ := τ) .tc)).toFinset := by
  simp only [hostOps11, List.Forall]
  repeat' apply And.intro
  all_goals (simp only [nullary_writes, unary_writes, binary_writes, ternary_writes, quaternary_writes, Finset.singleton_subset_iff, List.mem_toFinset]; exact List.mem_map_of_mem (by decide))

/-- A buffer stretch 11 does not write keeps its contents through it. -/
theorem keep11 (W : Valuation τ sig (Elt Ideal)) (r : Ref sig .tc) (h : r ∉ written11) :
    after hostOps11 W (Proc.devRef .tc r) = W (Proc.devRef .tc r) :=
  after_of_writes_sub hostOps11 _ writes11 h

/-- The buffers the operations of stretch 14 write. -/
abbrev written14 : List (Ref sig .tc) := [main_v137]

theorem writes14 : (hostOps14 : List (HloOp τ sig (Elt Ideal))).Forall fun op => op.writes ⊆ ((written14).map (Proc.devRef (τ := τ) .tc)).toFinset := by
  simp only [hostOps14, List.Forall]
  repeat' apply And.intro
  all_goals (simp only [nullary_writes, unary_writes, binary_writes, ternary_writes, quaternary_writes, Finset.singleton_subset_iff, List.mem_toFinset]; exact List.mem_map_of_mem (by decide))

/-- A buffer stretch 14 does not write keeps its contents through it. -/
theorem keep14 (W : Valuation τ sig (Elt Ideal)) (r : Ref sig .tc) (h : r ∉ written14) :
    after hostOps14 W (Proc.devRef .tc r) = W (Proc.devRef .tc r) :=
  after_of_writes_sub hostOps14 _ writes14 h

variable (m : (ℓ : Loc nD τ sig) → Buf (Elt Ideal) ℓ) (ρ : Dev nD → PrngReg) (c : Dev nD)

theorem k1 (r : Ref sig .tc) (h : r ∉ written0) : W1 m ρ c (Proc.devRef .tc r) = W0 m ρ c (Proc.devRef .tc r) := keep0 _ r h
theorem k2 (r : Ref sig .tc) (h : ∀ w, Pipeline.arrRef spec0 w ≠ r) : W2 m ρ c (Proc.devRef .tc r) = W1 m ρ c (Proc.devRef .tc r) := W2_of_ne m ρ c r h
theorem k3 (r : Ref sig .tc) (h : r ∉ written1) : W3 m ρ c (Proc.devRef .tc r) = W2 m ρ c (Proc.devRef .tc r) := keep1 _ r h
theorem k4 (r : Ref sig .tc) (h : ∀ w, Pipeline.arrRef spec1 w ≠ r) : W4 m ρ c (Proc.devRef .tc r) = W3 m ρ c (Proc.devRef .tc r) := W4_of_ne m ρ c r h
theorem k5 (r : Ref sig .tc) (h : r ∉ written2) : W5 m ρ c (Proc.devRef .tc r) = W4 m ρ c (Proc.devRef .tc r) := keep2 _ r h
theorem k6 (r : Ref sig .tc) (h : ∀ w, Pipeline.arrRef spec2 w ≠ r) : W6 m ρ c (Proc.devRef .tc r) = W5 m ρ c (Proc.devRef .tc r) := W6_of_ne m ρ c r h
theorem k7 (r : Ref sig .tc) (h : r ∉ written3) : W7 m ρ c (Proc.devRef .tc r) = W6 m ρ c (Proc.devRef .tc r) := keep3 _ r h
theorem k8 (r : Ref sig .tc) (h : ∀ w, Pipeline.arrRef spec3 w ≠ r) : W8 m ρ c (Proc.devRef .tc r) = W7 m ρ c (Proc.devRef .tc r) := W8_of_ne m ρ c r h
theorem k9 (r : Ref sig .tc) (h : r ∉ written4) : W9 m ρ c (Proc.devRef .tc r) = W8 m ρ c (Proc.devRef .tc r) := keep4 _ r h
theorem k10 (r : Ref sig .tc) (h : ∀ w, Pipeline.arrRef spec4 w ≠ r) : W10 m ρ c (Proc.devRef .tc r) = W9 m ρ c (Proc.devRef .tc r) := W10_of_ne m ρ c r h
theorem k11 (r : Ref sig .tc) (h : ∀ w, Pipeline.arrRef spec5 w ≠ r) : W11 m ρ c (Proc.devRef .tc r) = W10 m ρ c (Proc.devRef .tc r) := W11_of_ne m ρ c r h
theorem k12 (r : Ref sig .tc) (h : ∀ w, Pipeline.arrRef spec6 w ≠ r) : W12 m ρ c (Proc.devRef .tc r) = W11 m ρ c (Proc.devRef .tc r) := W12_of_ne m ρ c r h
theorem k13 (r : Ref sig .tc) (h : r ∉ written7) : W13 m ρ c (Proc.devRef .tc r) = W12 m ρ c (Proc.devRef .tc r) := keep7 _ r h
theorem k14 (r : Ref sig .tc) (h : ∀ w, Pipeline.arrRef spec7 w ≠ r) : W14 m ρ c (Proc.devRef .tc r) = W13 m ρ c (Proc.devRef .tc r) := W14_of_ne m ρ c r h
theorem k15 (r : Ref sig .tc) (h : r ∉ written8) : W15 m ρ c (Proc.devRef .tc r) = W14 m ρ c (Proc.devRef .tc r) := keep8 _ r h
theorem k16 (r : Ref sig .tc) (h : ∀ w, Pipeline.arrRef spec8 w ≠ r) : W16 m ρ c (Proc.devRef .tc r) = W15 m ρ c (Proc.devRef .tc r) := W16_of_ne m ρ c r h
theorem k17 (r : Ref sig .tc) (h : r ∉ written9) : W17 m ρ c (Proc.devRef .tc r) = W16 m ρ c (Proc.devRef .tc r) := keep9 _ r h
theorem k18 (r : Ref sig .tc) (h : ∀ w, Pipeline.arrRef spec9 w ≠ r) : W18 m ρ c (Proc.devRef .tc r) = W17 m ρ c (Proc.devRef .tc r) := W18_of_ne m ρ c r h
theorem k19 (r : Ref sig .tc) (h : r ∉ written10) : W19 m ρ c (Proc.devRef .tc r) = W18 m ρ c (Proc.devRef .tc r) := keep10 _ r h
theorem k20 (r : Ref sig .tc) (h : ∀ w, Pipeline.arrRef spec10 w ≠ r) : W20 m ρ c (Proc.devRef .tc r) = W19 m ρ c (Proc.devRef .tc r) := W20_of_ne m ρ c r h
theorem k21 (r : Ref sig .tc) (h : r ∉ written11) : W21 m ρ c (Proc.devRef .tc r) = W20 m ρ c (Proc.devRef .tc r) := keep11 _ r h
theorem k22 (r : Ref sig .tc) (h : ∀ w, Pipeline.arrRef spec11 w ≠ r) : W22 m ρ c (Proc.devRef .tc r) = W21 m ρ c (Proc.devRef .tc r) := W22_of_ne m ρ c r h
theorem k23 (r : Ref sig .tc) (h : ∀ w, Pipeline.arrRef spec12 w ≠ r) : W23 m ρ c (Proc.devRef .tc r) = W22 m ρ c (Proc.devRef .tc r) := W23_of_ne m ρ c r h
theorem k24 (r : Ref sig .tc) (h : ∀ w, Pipeline.arrRef spec13 w ≠ r) : W24 m ρ c (Proc.devRef .tc r) = W23 m ρ c (Proc.devRef .tc r) := W24_of_ne m ρ c r h
theorem k25 (r : Ref sig .tc) (h : r ∉ written14) : W25 m ρ c (Proc.devRef .tc r) = W24 m ρ c (Proc.devRef .tc r) := keep14 _ r h

end Cert.KernelIdeal.Keep

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.GateRef.lean ====
/-
  The gated fusion, read off the two spellings the programs use.

  A matrix product of an [a, K] block with a [b, K] weight that contracts the two LAST axes is, at (p, q), the sum over
  k < K of lhs (p, k) * rhs (q, k): the product against the transposed weight, with no transpose written. The first part
  proves this for the accumulate-into-zero matrix product, for operands of any float formats (on the extended reals a
  change of format is the identity), from the coordinate facts of the dimension record.

  The second part reads the host spelling of the gate: the weights are transposed first and multiplied in by a plain
  contraction (axis 1 against axis 0), the logistic function is written out as 1 / (1 + exp (- s)), and the blend is
  sigma * kg + (1 - sigma) * intg with the constant 1 broadcast from a scalar. Entry by entry this is the
  specification's gate: the transposed weight at (k, q) is the weight at (q, k), so the contraction is the
  specification's row-against-row sum; the written-out logistic is the logistic function by definition; and the f32
  word of 1 is the extended real 1.
-/
import Idealize.ShloMosaic.PureOps.Ideal.Laws
import Idealize.ShloMosaic.Lib.ValueIdx
import Idealize.ShloMosaic.Lib.ValueLayout
import Idealize.ShloMosaic.Lib.IdealHost
import proofs.«124958_j46205258170764_2_alg».proof.Proof.Spec
import proofs.«124958_j46205258170764_2_alg».proof.Proof.LibPlainDot

noncomputable section

namespace Cert.GateRef

open Idealize.ShloMosaic Idealize.ShloMosaic.ValueIdx

/-! ## A product against the rows of the right operand -/

section RowsAgainstRows

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices, when the record contracts axis 1 of both operands: at the result index
    (p, q) and the contraction index k the operand indices are (p, k) and (q, k). -/
theorem sum_contr_rows (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, contracting axis 1 of both operands, at (p, q): the sum over
    k < K of lhs (p, k) * rhs (q, k), for operands of any float formats. -/
theorem matmul_rows_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (F := Ideal) (⟨2, ![a, b]⟩ : Shape) .f32 0x00000000#32) (ix2 p q)
      = ∑ k : Fin K, lhs (ix2 p k) * rhs (ix2 q k) :=
  (Ideal.matmul_constant_zero_apply D prec lhs rhs (ix2 p q)).trans
    (sum_contr_rows D hr hs hl0 hl1 hr0 hr1 (fun i => lhs i) (fun i => rhs i) p q)

end RowsAgainstRows

/-! ## The host spelling of the gate -/

/-- The host's contraction of x with the transposed weight g is, at (p, q), row p of x against row q of g. -/
theorem dot_transposed_apply {n : ℕ}
    (D : DotDims (⟨2, ![n, 64]⟩ : Shape) (⟨2, ![64, 64]⟩ : Shape) (⟨2, ![n, 64]⟩ : Shape))
    (hr : D.contr.rank = 1) (hs : D.contr.size ⟨0, by omega⟩ = 64)
    (hl0 : ∀ (i : (⟨2, ![n, 64]⟩ : Shape).Idx) (q : D.contr.Idx), (D.lhsIdx i q 0).val = (i 0).val)
    (hl1 : ∀ (i : (⟨2, ![n, 64]⟩ : Shape).Idx) (q : D.contr.Idx), (D.lhsIdx i q 1).val = (q ⟨0, by omega⟩).val)
    (hr0 : ∀ (i : (⟨2, ![n, 64]⟩ : Shape).Idx) (q : D.contr.Idx), (D.rhsIdx i q 0).val = (q ⟨0, by omega⟩).val)
    (hr1 : ∀ (i : (⟨2, ![n, 64]⟩ : Shape).Idx) (q : D.contr.Idx), (D.rhsIdx i q 1).val = (i 1).val)
    (ht : (⟨2, ![64, 64]⟩ : Shape).Transposes [1, 0] (⟨2, ![64, 64]⟩ : Shape))
    (x : FVec Ideal (⟨2, ![n, 64]⟩ : Shape) .f32) (g : FVec Ideal (⟨2, ![64, 64]⟩ : Shape) .f32) (p : Fin n) (q : Fin 64) :
    Host.dotGeneral (F := Ideal) D none x (transpose (⟨2, ![64, 64]⟩ : Shape) [1, 0] g ht) (ix2 p q) = Cert.Spec.rowDot x g p q := by
  rw [Cert.Lib.PlainDot.dotGeneral_apply D hr hs hl0 hl1 hr0 hr1]
  exact Finset.sum_congr rfl fun k _ => by rw [transpose_ix2_apply]

/-- The blend with the logistic function written out as 1 / (1 + exp (- s)) and every 1 the f32 word of 1. -/
theorem blend_spelled (s x y : EReal) :
    Ideal.div (Ideal.ofBits .f32 0x3F800000#32) (Ideal.ofBits .f32 0x3F800000#32 + Ideal.exp (-s)) * x
        + (Ideal.ofBits .f32 0x3F800000#32 - Ideal.div (Ideal.ofBits .f32 0x3F800000#32) (Ideal.ofBits .f32 0x3F800000#32 + Ideal.exp (-s))) * y
      = Cert.Spec.blend s x y := by
  unfold Cert.Spec.blend Cert.Spec.one Ideal.logistic
  rw [Ideal.ofBits_one_f32]

/-- The host spelling of the gated fusion is the specification's gate. -/
theorem gateRef_eq {n : ℕ}
    (D : DotDims (⟨2, ![n, 64]⟩ : Shape) (⟨2, ![64, 64]⟩ : Shape) (⟨2, ![n, 64]⟩ : Shape))
    (hr : D.contr.rank = 1) (hs : D.contr.size ⟨0, by omega⟩ = 64)
    (hl0 : ∀ (i : (⟨2, ![n, 64]⟩ : Shape).Idx) (q : D.contr.Idx), (D.lhsIdx i q 0).val = (i 0).val)
    (hl1 : ∀ (i : (⟨2, ![n, 64]⟩ : Shape).Idx) (q : D.contr.Idx), (D.lhsIdx i q 1).val = (q ⟨0, by omega⟩).val)
    (hr0 : ∀ (i : (⟨2, ![n, 64]⟩ : Shape).Idx) (q : D.contr.Idx), (D.rhsIdx i q 0).val = (q ⟨0, by omega⟩).val)
    (hr1 : ∀ (i : (⟨2, ![n, 64]⟩ : Shape).Idx) (q : D.contr.Idx), (D.rhsIdx i q 1).val = (i 1).val)
    (hb : (⟨0, ![]⟩ : Shape).BroadcastsInDim (⟨2, ![n, 64]⟩ : Shape) (![] : Fin 0 → Fin 2))
    (ht : (⟨2, ![64, 64]⟩ : Shape).Transposes [1, 0] (⟨2, ![64, 64]⟩ : Shape))
    (kg intg : FVec Ideal (⟨2, ![n, 64]⟩ : Shape) .f32) (g1 g2 : FVec Ideal (⟨2, ![64, 64]⟩ : Shape) .f32) :
    addf
        (mulf
          (Host.divf (F := Ideal) (broadcastInDim (⟨2, ![n, 64]⟩ : Shape) ![] hb (constant (F := Ideal) (⟨0, ![]⟩ : Shape) .f32 0x3F800000#32))
            (addf (broadcastInDim (⟨2, ![n, 64]⟩ : Shape) ![] hb (constant (F := Ideal) (⟨0, ![]⟩ : Shape) .f32 0x3F800000#32))
              (Host.exp (F := Ideal) (Host.negf (F := Ideal)
                (addf (Host.dotGeneral (F := Ideal) D none kg (transpose (⟨2, ![64, 64]⟩ : Shape) [1, 0] g1 ht))
                  (Host.dotGeneral (F := Ideal) D none intg (transpose (⟨2, ![64, 64]⟩ : Shape) [1, 0] g2 ht)))))))
          kg)
        (mulf
          (subf (broadcastInDim (⟨2, ![n, 64]⟩ : Shape) ![] hb (constant (F := Ideal) (⟨0, ![]⟩ : Shape) .f32 0x3F800000#32))
            (Host.divf (F := Ideal) (broadcastInDim (⟨2, ![n, 64]⟩ : Shape) ![] hb (constant (F := Ideal) (⟨0, ![]⟩ : Shape) .f32 0x3F800000#32))
              (addf (broadcastInDim (⟨2, ![n, 64]⟩ : Shape) ![] hb (constant (F := Ideal) (⟨0, ![]⟩ : Shape) .f32 0x3F800000#32))
                (Host.exp (F := Ideal) (Host.negf (F := Ideal)
                  (addf (Host.dotGeneral (F := Ideal) D none kg (transpose (⟨2, ![64, 64]⟩ : Shape) [1, 0] g1 ht))
                    (Host.dotGeneral (F := Ideal) D none intg (transpose (⟨2, ![64, 64]⟩ : Shape) [1, 0] g2 ht))))))))
          intg)
      = Cert.Spec.gate kg intg g1 g2 := by
  funext j
  obtain ⟨p, q, rfl⟩ : ∃ (p : Fin n) (q : Fin 64), j = ix2 p q := ⟨j 0, j 1, eq_ix2 j⟩
  have e1 := dot_transposed_apply D hr hs hl0 hl1 hr0 hr1 ht kg g1 p q
  have e2 := dot_transposed_apply D hr hs hl0 hl1 hr0 hr1 ht intg g2 p q
  rw [Cert.Spec.gate_ix2]
  unfold Cert.Spec.gateAt
  rw [← e1, ← e2]
  exact blend_spelled _ _ _

end Cert.GateRef

end
-- ==== Proof.LibMatmulAt.lean ====
/-
  A plain matrix product accumulated into the zero splat, read at an index, for operands of any float formats; and the zero
  offsets of a rank-2 rectangle as a constant function.

  For a rank-2 contraction [a, K] · [K, b] → [a, b] (the left operand's axis 1 against the right operand's axis 0, no batch
  axis), the accumulate-into-zero matrix product is, at the result index (p, q), the sum over k < K of
  lhs (p, k) · rhs (k, q). At the ideal instance a float of every format is an extended real, so the statement does not
  depend on the operands' formats: it is the f32 statement with the two formats left as parameters. The four coordinate
  facts about a given dimension record (hl0, hl1, hr0, hr1) are taken as hypotheses: for a literal record each is a
  computation.
-/
import proofs.«124958_j46205258170764_2_alg».proof.Proof.LibPlainDot

noncomputable section

namespace Cert.Lib.MatmulAt

open Idealize.ShloMosaic Idealize.ShloMosaic.ValueIdx

/-- The offset vector (0, 0) of a rank-2 rectangle is the constant function 0: the form in which the lemmas about a
    load or a store through a whole buffer at zero offsets take the offsets. -/
theorem hz : (![0, 0] : Fin 2 → Nat) = fun _ => 0 := funext fun a => by fin_cases a <;> rfl

/-- The matrix product of an [a, K] operand of format φ₁ with a [K, b] operand of format φ₂, accumulated into the zero
    splat, is at (p, q) the sum over k < K of lhs (p, k) · rhs (k, q) — for any dimension record D that contracts the
    left operand's axis 1 against the right operand's axis 0 (hr, hs: one contracted axis, of extent K; hl0 … hr1: at
    the result index i and the contraction index k the record names the operand indices (i 0, k) and (k, i 1)). -/
theorem matmul_zero_apply {a K b : Nat} {φ₁ φ₂ : FTy}
    (D : DotDims (⟨2, ![a, K]⟩ : Shape) (⟨2, ![K, b]⟩ : Shape) (⟨2, ![a, b]⟩ : Shape))
    (hr : D.contr.rank = 1) (hs : D.contr.size ⟨0, by omega⟩ = K)
    (hl0 : ∀ (i : (⟨2, ![a, b]⟩ : Shape).Idx) (q : D.contr.Idx), (D.lhsIdx i q 0).val = (i 0).val)
    (hl1 : ∀ (i : (⟨2, ![a, b]⟩ : Shape).Idx) (q : D.contr.Idx), (D.lhsIdx i q 1).val = (q ⟨0, by omega⟩).val)
    (hr0 : ∀ (i : (⟨2, ![a, b]⟩ : Shape).Idx) (q : D.contr.Idx), (D.rhsIdx i q 0).val = (q ⟨0, by omega⟩).val)
    (hr1 : ∀ (i : (⟨2, ![a, b]⟩ : Shape).Idx) (q : D.contr.Idx), (D.rhsIdx i q 1).val = (i 1).val)
    (prec : Option ContractPrecision) (lhs : FVec Ideal (⟨2, ![a, K]⟩ : Shape) φ₁) (rhs : FVec Ideal (⟨2, ![K, b]⟩ : Shape) φ₂)
    (p : Fin a) (q : Fin b) :
    matmul D prec lhs rhs (constant (F := Ideal) (⟨2, ![a, b]⟩ : Shape) .f32 0x00000000#32) (ix2 p q)
      = ∑ k : Fin K, lhs (ix2 p k) * rhs (ix2 k q) :=
  (Ideal.matmul_constant_zero_apply D prec lhs rhs (ix2 p q)).trans
    (Cert.Lib.PlainDot.sum_contr D hr hs hl0 hl1 hr0 hr1 lhs rhs p q)

end Cert.Lib.MatmulAt

end
-- ==== Proof.GateBlock.lean ====
/-
  The gate kernel's body on one block of rows.

  The body loads a block of 5000 rows of kg and of intg and the two 64 x 64 weights, rounds all four to bf16 (the
  identity on extended reals), forms the two matrix products that contract the LAST axis of the block against the LAST
  axis of the weight (so the entry at (p, q) is row p of the block against row q of the weight), adds them, applies the
  logistic function, and stores sigma * kg + (1 - sigma) * intg. Entry by entry this is the specification's gate of
  the two loaded blocks and the two weights. The same body runs in both hops of the convolution.
-/
import proofs.«124958_j46205258170764_2_alg».proof.Proof.Gen.KernelIdeal.Frame
import Idealize.ShloMosaic.Lib.Pipeline.Value
import Idealize.ShloMosaic.Lib.ValueIdx
import proofs.«124958_j46205258170764_2_alg».proof.Proof.Spec
import proofs.«124958_j46205258170764_2_alg».proof.Proof.GateRef
import proofs.«124958_j46205258170764_2_alg».proof.Proof.LibMatmulAt

noncomputable section

namespace Cert.KernelIdeal.GateBlock

open Cert.KernelIdeal Idealize.ShloMosaic Idealize.ShloMosaic.ValueIdx

/-- The body's product of a block with a weight, at (p, q): row p of the block against row q of the weight. The
    kernel's dimension record contracts axis 1 of both operands; the casts between equal shapes and the roundings to
    bf16 are the identity. -/
theorem dot_apply (hc : S5000x64.ShapeCasts S5000x64) (hb : FTy.bits .bf16 < FTy.bits .f32)
    (x : FVec Ideal S5000x64 .f32) (g : FVec Ideal S64x64 .f32) (p : Fin 5000) (q : Fin 64) :
    matmul dot_S5000x64_S64x64_S5000x64_1_1_0_0_n_n none (truncf .bf16 (shapeCast S5000x64 x hc) hb) (truncf .bf16 g hb)
        (constant (F := Ideal) S5000x64 .f32 0x00000000#32) (ix2 p q)
      = Cert.Spec.rowDot x g p q := by
  rw [shapeCast_self]
  exact Cert.GateRef.matmul_rows_zero_apply dot_S5000x64_S64x64_S5000x64_1_1_0_0_n_n rfl rfl
    (fun _ _ => rfl)
    (fun i k => DotDims.lhsIdx_val_of_single _ rfl i k)
    (fun _ _ => rfl)
    (fun i k => DotDims.rhsIdx_val_of_single _ rfl i k)
    none (truncf .bf16 x hb) (truncf .bf16 g hb) p q

/-- The body's stored value at (p, q), as a term of its four loaded values: the specification's gate there. -/
theorem term_apply (hc : S5000x64.ShapeCasts S5000x64) (hb : FTy.bits .bf16 < FTy.bits .f32)
    (x0 x1 : FVec Ideal S5000x64 .f32) (x2 x3 : FVec Ideal S64x64 .f32) (p : Fin 5000) (q : Fin 64) :
    addf
        (mulf
          (logistic
            (addf
              (matmul dot_S5000x64_S64x64_S5000x64_1_1_0_0_n_n none (truncf .bf16 (shapeCast S5000x64 x0 hc) hb) (truncf .bf16 x2 hb)
                (constant (F := Ideal) S5000x64 .f32 0x00000000#32))
              (matmul dot_S5000x64_S64x64_S5000x64_1_1_0_0_n_n none (truncf .bf16 (shapeCast S5000x64 x1 hc) hb) (truncf .bf16 x3 hb)
                (constant (F := Ideal) S5000x64 .f32 0x00000000#32))))
          (shapeCast S5000x64 x0 hc))
        (mulf
          (subf (broadcast S5000x64 (Scalar.ofBits (F := Ideal) .f32 0x3F800000#32))
            (logistic
              (addf
                (matmul dot_S5000x64_S64x64_S5000x64_1_1_0_0_n_n none (truncf .bf16 (shapeCast S5000x64 x0 hc) hb) (truncf .bf16 x2 hb)
                  (constant (F := Ideal) S5000x64 .f32 0x00000000#32))
                (matmul dot_S5000x64_S64x64_S5000x64_1_1_0_0_n_n none (truncf .bf16 (shapeCast S5000x64 x1 hc) hb) (truncf .bf16 x3 hb)
                  (constant (F := Ideal) S5000x64 .f32 0x00000000#32)))))
          (shapeCast S5000x64 x1 hc))
        (ix2 p q)
      = Cert.Spec.gateAt x0 x1 x2 x3 p q := by
  have m1 := dot_apply hc hb x0 x2 p q
  have m2 := dot_apply hc hb x1 x3 p q
  unfold Cert.Spec.gateAt Cert.Spec.blend Cert.Spec.one
  rw [← m1, ← m2, ← congrFun (shapeCast_self x0 hc) (ix2 p q), ← congrFun (shapeCast_self x1 hc) (ix2 p q)]
  rfl

/-- The stored value of region 1's body at (p, q). -/
theorem pay1_apply (x0 x1 : Vec Ideal S5000x64 .f32) (x2 x3 : Vec Ideal S64x64 .f32) (p : Fin 5000) (q : Fin 64) :
    Gen.k1_pay1 (F := Ideal) x0 x1 x2 x3 (ix2 p q) = Cert.Spec.gateAt x0 x1 x2 x3 p q :=
  term_apply _ _ x0 x1 x2 x3 p q

/-- The stored value of region 8's body at (p, q). -/
theorem pay8_apply (x0 x1 : Vec Ideal S5000x64 .f32) (x2 x3 : Vec Ideal S64x64 .f32) (p : Fin 5000) (q : Fin 64) :
    Gen.k8_pay1 (F := Ideal) x0 x1 x2 x3 (ix2 p q) = Cert.Spec.gateAt x0 x1 x2 x3 p q :=
  term_apply _ _ x0 x1 x2 x3 p q

/-- What region 1's body leaves in its output block: the gate of its two loaded blocks under the two weights. -/
theorem out1_4_eq (x0 x1 : Vec Ideal S5000x64 .f32) (x2 x3 : Vec Ideal S64x64 .f32) :
    Gen.out1_4 (F := Ideal) x0 x1 x2 x3 = Cert.Spec.gate x0 x1 x2 x3 := by
  unfold Gen.out1_4
  rw [View.canon_unit_zero Cert.Lib.MatmulAt.hz]
  simp only [View.ld_unit_zero (S := S5000x64) Cert.Lib.MatmulAt.hz, View.ld_unit_zero (S := S64x64) Cert.Lib.MatmulAt.hz]
  funext j
  obtain ⟨p, q, rfl⟩ : ∃ (p : Fin 5000) (q : Fin 64), j = ix2 p q := ⟨j 0, j 1, eq_ix2 j⟩
  exact pay1_apply x0 x1 x2 x3 p q

/-- What region 8's body leaves in its output block: the gate of its two loaded blocks under the two weights. -/
theorem out8_4_eq (x0 x1 : Vec Ideal S5000x64 .f32) (x2 x3 : Vec Ideal S64x64 .f32) :
    Gen.out8_4 (F := Ideal) x0 x1 x2 x3 = Cert.Spec.gate x0 x1 x2 x3 := by
  unfold Gen.out8_4
  rw [View.canon_unit_zero Cert.Lib.MatmulAt.hz]
  simp only [View.ld_unit_zero (S := S5000x64) Cert.Lib.MatmulAt.hz, View.ld_unit_zero (S := S64x64) Cert.Lib.MatmulAt.hz]
  funext j
  obtain ⟨p, q, rfl⟩ : ∃ (p : Fin 5000) (q : Fin 64), j = ix2 p q := ⟨j 0, j 1, eq_ix2 j⟩
  exact pay8_apply x0 x1 x2 x3 p q

end Cert.KernelIdeal.GateBlock

end
-- ==== Proof.Reg1.lean ====
/-
  The gated fusion, block of rows by block of rows.

  The region computes the gate of two matrices of 50,000 rows and 64 columns under two 64 x 64 weights, 5000 rows at a
  grid point: point t reads rows 5000 t ... 5000 t + 4999 of both matrices and the whole of both weights (their windows
  stay at block (0, 0)), and writes the same rows of the result. The gate's entry at (p, q) depends only on row p of the
  two matrices and on the weights, so the gate of the two blocks at (p, q) is the gate of the whole matrices at
  (5000 t + p, q). The 10 blocks tile the result; so after the region the result array is the gate of the two arrays and
  the two weights as the region found them.
-/
import proofs.«124958_j46205258170764_2_alg».proof.Proof.Gen.KernelIdeal.Frame
import Idealize.ShloMosaic.Lib.Pipeline.Value
import Idealize.ShloMosaic.Lib.ValueIdx
import proofs.«124958_j46205258170764_2_alg».proof.Proof.Spec
import proofs.«124958_j46205258170764_2_alg».proof.Proof.GateBlock

noncomputable section

namespace Cert.KernelIdeal.Reg1

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The gate of two arrays of 50,000 rows under two weights. -/
abbrev G (a0 a1 : S50000x64.Idx → EReal) (g1 g2 : S64x64.Idx → EReal) : S50000x64.Idx → EReal := Cert.Spec.gate a0 a1 g1 g2

/-- The two row-blocked operands and the result move together, at block index (t, 0); the weights stay at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the gate of the two arrays and the two weights as the region finds them. -/
theorem flushed_eq (c : Dev nD) (t : Fin cfg1.N) :
    (dat1 V c).flushed 4 t = ((cfg1.win 4).blk t).view.read (Elt Ideal)
      (G (V c main_v29) (V c main_v49) (V c main_arg3) (V c main_arg4)) := by
  show (cfg1.win 4).cut (grid1.coords t) ((dat1 V c).after 4 t) = _
  rw [after1_4, Cert.KernelIdeal.GateBlock.out1_4_eq]
  obtain ⟨e00, e01, e10, e11, e20, e21, e30, e31, e40, e41⟩ := idx_facts t
  -- the weights' blocks are the whole weights
  have hw1 : (iblk1 V c 2 t : S64x64.Idx → EReal) = V c main_arg3 := by
    funext y
    show V c main_arg3 (((cfg1.win 2).blk t).view.emb y) = V c main_arg3 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have hw2 : (iblk1 V c 3 t : S64x64.Idx → EReal) = V c main_arg4 := by
    funext y
    show V c main_arg4 (((cfg1.win 3).blk t).view.emb y) = V c main_arg4 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  rw [hw1, hw2]
  funext j
  obtain ⟨p, q, rfl⟩ : ∃ (p : Fin 5000) (q : Fin 64), j = ix2 p q := ⟨j 0, j 1, eq_ix2 j⟩
  have hq : (((cfg1.win 4).blk t).view.emb (ix2 p q)) (1 : Fin 2) = q :=
    Fin.ext (by show win1_4.index t (1 : Fin 2) * 64 + 1 * q.val = q.val; omega)
  show Cert.Spec.gateAt (iblk1 V c 0 t) (iblk1 V c 1 t) (V c main_arg3) (V c main_arg4) p q
    = Cert.Spec.gateAt (V c main_v29) (V c main_v49) (V c main_arg3) (V c main_arg4)
        ((((cfg1.win 4).blk t).view.emb (ix2 p q)) (0 : Fin 2)) ((((cfg1.win 4).blk t).view.emb (ix2 p q)) (1 : Fin 2))
  rw [hq]
  refine Cert.Spec.gateAt_congr (V c main_v29) (V c main_v49) (iblk1 V c 0 t) (iblk1 V c 1 t) (V c main_arg3) (V c main_arg4)
    ((((cfg1.win 4).blk t).view.emb (ix2 p q)) (0 : Fin 2)) p q (fun k => ?_) (fun k => ?_)
  · show V c main_v29 (((cfg1.win 0).blk t).view.emb (ix2 p k)) = V c main_v29 (ix2 ((((cfg1.win 4).blk t).view.emb (ix2 p q)) (0 : Fin 2)) k)
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  · show V c main_v49 (((cfg1.win 1).blk t).view.emb (ix2 p k)) = V c main_v49 (ix2 ((((cfg1.win 4).blk t).view.emb (ix2 p q)) (0 : Fin 2)) k)
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * k.val = k.val; omega

/-- An index of the result array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v50).slice (win1_4.rect t)).set ↔ _
  rw [View.set_slice_whole, Rect.mem_set_unit]
  exact Iff.rfl

/-- Every index of the result array is in some point's block: row r is in the block of point r / 5000. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hlt : (i 0).val / 5000 < 10 := by omega
  obtain ⟨-, -, -, -, -, -, -, -, e40, e41⟩ := idx_facts (⟨(i 0).val / 5000, hlt⟩ : Fin cfg1.N)
  have e40' : win1_4.index (⟨(i 0).val / 5000, hlt⟩ : Fin cfg1.N) (0 : Fin 2) = (i 0).val / 5000 := e40
  refine ⟨⟨(i 0).val / 5000, hlt⟩, flush1_4 _, ?_⟩
  rw [mem_blk]
  intro a
  match a with
  | ⟨0, _⟩ =>
    show win1_4.index (⟨(i 0).val / 5000, hlt⟩ : Fin cfg1.N) (0 : Fin 2) * 5000 ≤ (i 0).val
      ∧ (i 0).val < win1_4.index (⟨(i 0).val / 5000, hlt⟩ : Fin cfg1.N) (0 : Fin 2) * 5000 + 5000
    rw [e40']; omega
  | ⟨1, _⟩ =>
    show win1_4.index (⟨(i 0).val / 5000, hlt⟩ : Fin cfg1.N) (1 : Fin 2) * 64 ≤ (i 1).val
      ∧ (i 1).val < win1_4.index (⟨(i 0).val / 5000, hlt⟩ : Fin cfg1.N) (1 : Fin 2) * 64 + 64
    rw [e41]; omega

/-- After the region the result array is the gate of the two operand arrays under the two weights as the region found
    them. -/
theorem arr_4 (c : Dev nD) : (dat1 V c).arrAt 4 cfg1.N
    = G (V c main_v29) (V c main_v49) (V c main_arg3) (V c main_arg4) :=
  (dat1 V c).arrAt_eq_of_cover 4 _ (fun t _ => flushed_eq V c t) (cover)

end Cert.KernelIdeal.Reg1

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«124958_j46205258170764_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.NormBlock.lean ====
/-
  One block of the row normalisation with residual, as the kernel's body computes it on 5000 rows of 64 lanes.

  For a block x and a block res of the same rows the body squares x entrywise, sums each row's 64 squares, takes the
  square root of that column of sums, floors it at eps, spreads the column back along the lanes and divides x by it:
  at (p, q) this is x (p, q) / max (sqrt (sum_k x (p, k)^2), eps), the normalised entry of the specification. Its
  second result adds res entrywise. The ten regions of this kind run this one body (in one of them without the
  shape change of res that changes nothing), so the two facts are proved once over a block and read off per region.
-/
import proofs.«124958_j46205258170764_2_alg».proof.Proof.Gen.KernelIdeal.Frame
import proofs.«124958_j46205258170764_2_alg».proof.Proof.Spec
import proofs.«124958_j46205258170764_2_alg».proof.Proof.LibRowRead
import Idealize.ShloMosaic.Lib.Pipeline.Value

noncomputable section

namespace Cert.KernelIdeal.NormBlock

open Idealize.ShloMosaic Idealize.ShloMosaic.ValueIdx Cert.KernelIdeal

/-- The zero offsets of a store of the whole block. -/
theorem hz : (![0, 0] : Fin 2 → Nat) = fun _ => 0 := funext fun a => by fin_cases a <;> rfl

/-- The normalisation's term over a block x, read at (p, q): x (p, q) over the floored norm of row p. -/
theorem normTerm_apply (x : FVec Ideal S5000x64 .f32) (hc : S5000x64.ShapeCasts S5000x64) (hr : S5000x64.Reduces [1] S5000)
    (hφ : FKind.Formats .f32) (hacc : (0x00000000#32 : BitVec 32) = FKind.add.neutral .f32 hφ)
    (hc1 : S5000.ShapeCasts S5000x1) (hb : S5000x1.Broadcasts S5000x64) (p : Fin 5000) (q : Fin 64) :
    divf (shapeCast S5000x64 x hc)
        (broadcastTo S5000x64
          (maximumf
            (sqrt (shapeCast S5000x1
              (multiReduction (F := Ideal) .add [1] S5000 (mulf (shapeCast S5000x64 x hc) (shapeCast S5000x64 x hc)) 0x00000000#32 hr hφ hacc) hc1))
            (broadcast S5000x1 (Scalar.ofBits (F := Ideal) .f32 0x2B8CBCCC#32))) hb) (ix2 p q)
      = Cert.Spec.normedAt x p q := by
  rw [shapeCast_self]
  rw [divf_apply, Cert.Lib.RowRead.broadcastTo_a1_ab_apply, maximumf_apply, broadcast_apply]
  show Ideal.div (x (ix2 p q)) (max (Ideal.sqrt (shapeCast S5000x1 _ hc1 (ix2 p (0 : Fin 1)))) _) = _
  rw [Cert.Lib.RowRead.shapeCast_a_a1_apply, Cert.Lib.RowRead.rowSum_apply]
  rfl

/-- The same over the whole block: the term is the row-normalised block. -/
theorem normTerm_eq (x : FVec Ideal S5000x64 .f32) (hc : S5000x64.ShapeCasts S5000x64) (hr : S5000x64.Reduces [1] S5000)
    (hφ : FKind.Formats .f32) (hacc : (0x00000000#32 : BitVec 32) = FKind.add.neutral .f32 hφ)
    (hc1 : S5000.ShapeCasts S5000x1) (hb : S5000x1.Broadcasts S5000x64) :
    divf (shapeCast S5000x64 x hc)
        (broadcastTo S5000x64
          (maximumf
            (sqrt (shapeCast S5000x1
              (multiReduction (F := Ideal) .add [1] S5000 (mulf (shapeCast S5000x64 x hc) (shapeCast S5000x64 x hc)) 0x00000000#32 hr hφ hacc) hc1))
            (broadcast S5000x1 (Scalar.ofBits (F := Ideal) .f32 0x2B8CBCCC#32))) hb)
      = Cert.Spec.normed x := by
  funext j
  obtain ⟨p, q, rfl⟩ : ∃ (p : Fin 5000) (q : Fin 64), j = ix2 p q := ⟨j 0, j 1, eq_ix2 j⟩
  exact normTerm_apply x hc hr hφ hacc hc1 hb p q

/-- The residual's term: res added entrywise to the normalisation's term is res plus the row-normalised block. -/
theorem resTerm_eq (x res : FVec Ideal S5000x64 .f32) (hc : S5000x64.ShapeCasts S5000x64) (hr : S5000x64.Reduces [1] S5000)
    (hφ : FKind.Formats .f32) (hacc : (0x00000000#32 : BitVec 32) = FKind.add.neutral .f32 hφ)
    (hc1 : S5000.ShapeCasts S5000x1) (hb : S5000x1.Broadcasts S5000x64) :
    addf res
        (divf (shapeCast S5000x64 x hc)
          (broadcastTo S5000x64
            (maximumf
              (sqrt (shapeCast S5000x1
                (multiReduction (F := Ideal) .add [1] S5000 (mulf (shapeCast S5000x64 x hc) (shapeCast S5000x64 x hc)) 0x00000000#32 hr hφ hacc) hc1))
              (broadcast S5000x1 (Scalar.ofBits (F := Ideal) .f32 0x2B8CBCCC#32))) hb))
      = Cert.Spec.resAdd x res := by
  rw [normTerm_eq x hc hr hφ hacc hc1 hb]
  funext j
  obtain ⟨p, q, rfl⟩ : ∃ (p : Fin 5000) (q : Fin 64), j = ix2 p q := ⟨j 0, j 1, eq_ix2 j⟩
  rfl

/-- The same with res passed through the shape change that changes nothing. -/
theorem resTermCast_eq (x res : FVec Ideal S5000x64 .f32) (hc : S5000x64.ShapeCasts S5000x64) (hr : S5000x64.Reduces [1] S5000)
    (hφ : FKind.Formats .f32) (hacc : (0x00000000#32 : BitVec 32) = FKind.add.neutral .f32 hφ)
    (hc1 : S5000.ShapeCasts S5000x1) (hb : S5000x1.Broadcasts S5000x64) :
    addf (shapeCast S5000x64 res hc)
        (divf (shapeCast S5000x64 x hc)
          (broadcastTo S5000x64
            (maximumf
              (sqrt (shapeCast S5000x1
                (multiReduction (F := Ideal) .add [1] S5000 (mulf (shapeCast S5000x64 x hc) (shapeCast S5000x64 x hc)) 0x00000000#32 hr hφ hacc) hc1))
              (broadcast S5000x1 (Scalar.ofBits (F := Ideal) .f32 0x2B8CBCCC#32))) hb))
      = Cert.Spec.resAdd x res := by
  rw [shapeCast_self res hc]
  exact resTerm_eq x res hc hr hφ hacc hc1 hb

/-- Region 2, the normalised block: the body's one store to the first output leaves the row-normalised x block. -/
theorem out2_2_eq (x0 x1 : Vec Ideal S5000x64 .f32) : Gen.out2_2 (F := Ideal) x0 x1 = Cert.Spec.normed x0 := by
  unfold Gen.out2_2
  rw [View.canon_unit_zero hz]
  simp only [View.ld_unit_zero (S := S5000x64) hz]
  unfold Gen.k2_pay1
  exact normTerm_eq x0 _ _ _ _ _ _

/-- Region 2, the residual block: the body's one store to the second output leaves res plus the row-normalised x block. -/
theorem out2_3_eq (x0 x1 : Vec Ideal S5000x64 .f32) : Gen.out2_3 (F := Ideal) x0 x1 = Cert.Spec.resAdd x0 x1 := by
  unfold Gen.out2_3
  rw [View.canon_unit_zero hz]
  simp only [View.ld_unit_zero (S := S5000x64) hz]
  unfold Gen.k2_pay2 Gen.k2_pay1
  exact resTermCast_eq x0 x1 _ _ _ _ _ _

/-- Region 3, the normalised block: the body's one store to the first output leaves the row-normalised x block. -/
theorem out3_2_eq (x0 x1 : Vec Ideal S5000x64 .f32) : Gen.out3_2 (F := Ideal) x0 x1 = Cert.Spec.normed x0 := by
  unfold Gen.out3_2
  rw [View.canon_unit_zero hz]
  simp only [View.ld_unit_zero (S := S5000x64) hz]
  unfold Gen.k3_pay1
  exact normTerm_eq x0 _ _ _ _ _ _

/-- Region 3, the residual block: the body's one store to the second output leaves res plus the row-normalised x block. -/
theorem out3_3_eq (x0 x1 : Vec Ideal S5000x64 .f32) : Gen.out3_3 (F := Ideal) x0 x1 = Cert.Spec.resAdd x0 x1 := by
  unfold Gen.out3_3
  rw [View.canon_unit_zero hz]
  simp only [View.ld_unit_zero (S := S5000x64) hz]
  unfold Gen.k3_pay2 Gen.k3_pay1
  exact resTermCast_eq x0 x1 _ _ _ _ _ _

/-- Region 4, the normalised block: the body's one store to the first output leaves the row-normalised x block. -/
theorem out4_2_eq (x0 x1 : Vec Ideal S5000x64 .f32) : Gen.out4_2 (F := Ideal) x0 x1 = Cert.Spec.normed x0 := by
  unfold Gen.out4_2
  rw [View.canon_unit_zero hz]
  simp only [View.ld_unit_zero (S := S5000x64) hz]
  unfold Gen.k4_pay1
  exact normTerm_eq x0 _ _ _ _ _ _

/-- Region 4, the residual block: the body's one store to the second output leaves res plus the row-normalised x block. -/
theorem out4_3_eq (x0 x1 : Vec Ideal S5000x64 .f32) : Gen.out4_3 (F := Ideal) x0 x1 = Cert.Spec.resAdd x0 x1 := by
  unfold Gen.out4_3
  rw [View.canon_unit_zero hz]
  simp only [View.ld_unit_zero (S := S5000x64) hz]
  unfold Gen.k4_pay2 Gen.k4_pay1
  exact resTerm_eq x0 x1 _ _ _ _ _ _

/-- Region 5, the normalised block: the body's one store to the first output leaves the row-normalised x block. -/
theorem out5_2_eq (x0 x1 : Vec Ideal S5000x64 .f32) : Gen.out5_2 (F := Ideal) x0 x1 = Cert.Spec.normed x0 := by
  unfold Gen.out5_2
  rw [View.canon_unit_zero hz]
  simp only [View.ld_unit_zero (S := S5000x64) hz]
  unfold Gen.k5_pay1
  exact normTerm_eq x0 _ _ _ _ _ _

/-- Region 5, the residual block: the body's one store to the second output leaves res plus the row-normalised x block. -/
theorem out5_3_eq (x0 x1 : Vec Ideal S5000x64 .f32) : Gen.out5_3 (F := Ideal) x0 x1 = Cert.Spec.resAdd x0 x1 := by
  unfold Gen.out5_3
  rw [View.canon_unit_zero hz]
  simp only [View.ld_unit_zero (S := S5000x64) hz]
  unfold Gen.k5_pay2 Gen.k5_pay1
  exact resTermCast_eq x0 x1 _ _ _ _ _ _

/-- Region 6, the normalised block: the body's one store to the first output leaves the row-normalised x block. -/
theorem out6_2_eq (x0 x1 : Vec Ideal S5000x64 .f32) : Gen.out6_2 (F := Ideal) x0 x1 = Cert.Spec.normed x0 := by
  unfold Gen.out6_2
  rw [View.canon_unit_zero hz]
  simp only [View.ld_unit_zero (S := S5000x64) hz]
  unfold Gen.k6_pay1
  exact normTerm_eq x0 _ _ _ _ _ _

/-- Region 6, the residual block: the body's one store to the second output leaves res plus the row-normalised x block. -/
theorem out6_3_eq (x0 x1 : Vec Ideal S5000x64 .f32) : Gen.out6_3 (F := Ideal) x0 x1 = Cert.Spec.resAdd x0 x1 := by
  unfold Gen.out6_3
  rw [View.canon_unit_zero hz]
  simp only [View.ld_unit_zero (S := S5000x64) hz]
  unfold Gen.k6_pay2 Gen.k6_pay1
  exact resTermCast_eq x0 x1 _ _ _ _ _ _

/-- Region 9, the normalised block: the body's one store to the first output leaves the row-normalised x block. -/
theorem out9_2_eq (x0 x1 : Vec Ideal S5000x64 .f32) : Gen.out9_2 (F := Ideal) x0 x1 = Cert.Spec.normed x0 := by
  unfold Gen.out9_2
  rw [View.canon_unit_zero hz]
  simp only [View.ld_unit_zero (S := S5000x64) hz]
  unfold Gen.k9_pay1
  exact normTerm_eq x0 _ _ _ _ _ _

/-- Region 9, the residual block: the body's one store to the second output leaves res plus the row-normalised x block. -/
theorem out9_3_eq (x0 x1 : Vec Ideal S5000x64 .f32) : Gen.out9_3 (F := Ideal) x0 x1 = Cert.Spec.resAdd x0 x1 := by
  unfold Gen.out9_3
  rw [View.canon_unit_zero hz]
  simp only [View.ld_unit_zero (S := S5000x64) hz]
  unfold Gen.k9_pay2 Gen.k9_pay1
  exact resTermCast_eq x0 x1 _ _ _ _ _ _

/-- Region 10, the normalised block: the body's one store to the first output leaves the row-normalised x block. -/
theorem out10_2_eq (x0 x1 : Vec Ideal S5000x64 .f32) : Gen.out10_2 (F := Ideal) x0 x1 = Cert.Spec.normed x0 := by
  unfold Gen.out10_2
  rw [View.canon_unit_zero hz]
  simp only [View.ld_unit_zero (S := S5000x64) hz]
  unfold Gen.k10_pay1
  exact normTerm_eq x0 _ _ _ _ _ _

/-- Region 10, the residual block: the body's one store to the second output leaves res plus the row-normalised x block. -/
theorem out10_3_eq (x0 x1 : Vec Ideal S5000x64 .f32) : Gen.out10_3 (F := Ideal) x0 x1 = Cert.Spec.resAdd x0 x1 := by
  unfold Gen.out10_3
  rw [View.canon_unit_zero hz]
  simp only [View.ld_unit_zero (S := S5000x64) hz]
  unfold Gen.k10_pay2 Gen.k10_pay1
  exact resTermCast_eq x0 x1 _ _ _ _ _ _

/-- Region 11, the normalised block: the body's one store to the first output leaves the row-normalised x block. -/
theorem out11_2_eq (x0 x1 : Vec Ideal S5000x64 .f32) : Gen.out11_2 (F := Ideal) x0 x1 = Cert.Spec.normed x0 := by
  unfold Gen.out11_2
  rw [View.canon_unit_zero hz]
  simp only [View.ld_unit_zero (S := S5000x64) hz]
  unfold Gen.k11_pay1
  exact normTerm_eq x0 _ _ _ _ _ _

/-- Region 11, the residual block: the body's one store to the second output leaves res plus the row-normalised x block. -/
theorem out11_3_eq (x0 x1 : Vec Ideal S5000x64 .f32) : Gen.out11_3 (F := Ideal) x0 x1 = Cert.Spec.resAdd x0 x1 := by
  unfold Gen.out11_3
  rw [View.canon_unit_zero hz]
  simp only [View.ld_unit_zero (S := S5000x64) hz]
  unfold Gen.k11_pay2 Gen.k11_pay1
  exact resTermCast_eq x0 x1 _ _ _ _ _ _

/-- Region 12, the normalised block: the body's one store to the first output leaves the row-normalised x block. -/
theorem out12_2_eq (x0 x1 : Vec Ideal S5000x64 .f32) : Gen.out12_2 (F := Ideal) x0 x1 = Cert.Spec.normed x0 := by
  unfold Gen.out12_2
  rw [View.canon_unit_zero hz]
  simp only [View.ld_unit_zero (S := S5000x64) hz]
  unfold Gen.k12_pay1
  exact normTerm_eq x0 _ _ _ _ _ _

/-- Region 12, the residual block: the body's one store to the second output leaves res plus the row-normalised x block. -/
theorem out12_3_eq (x0 x1 : Vec Ideal S5000x64 .f32) : Gen.out12_3 (F := Ideal) x0 x1 = Cert.Spec.resAdd x0 x1 := by
  unfold Gen.out12_3
  rw [View.canon_unit_zero hz]
  simp only [View.ld_unit_zero (S := S5000x64) hz]
  unfold Gen.k12_pay2 Gen.k12_pay1
  exact resTermCast_eq x0 x1 _ _ _ _ _ _

/-- Region 13, the normalised block: the body's one store to the first output leaves the row-normalised x block. -/
theorem out13_2_eq (x0 x1 : Vec Ideal S5000x64 .f32) : Gen.out13_2 (F := Ideal) x0 x1 = Cert.Spec.normed x0 := by
  unfold Gen.out13_2
  rw [View.canon_unit_zero hz]
  simp only [View.ld_unit_zero (S := S5000x64) hz]
  unfold Gen.k13_pay1
  exact normTerm_eq x0 _ _ _ _ _ _

/-- Region 13, the residual block: the body's one store to the second output leaves res plus the row-normalised x block. -/
theorem out13_3_eq (x0 x1 : Vec Ideal S5000x64 .f32) : Gen.out13_3 (F := Ideal) x0 x1 = Cert.Spec.resAdd x0 x1 := by
  unfold Gen.out13_3
  rw [View.canon_unit_zero hz]
  simp only [View.ld_unit_zero (S := S5000x64) hz]
  unfold Gen.k13_pay2 Gen.k13_pay1
  exact resTermCast_eq x0 x1 _ _ _ _ _ _

end Cert.KernelIdeal.NormBlock

end
-- ==== Proof.NormRows.lean ====
/-
  The row normalisation and its residual taken through a block of rows.

  Both act row by row: the entry at (p, q) of the normalised matrix depends on row p only. So if a block b of 5000
  rows holds, in its row p', the row p of a matrix a (and a block s holds there the row of a matrix r), the
  normalised block at (p', q) is the normalised matrix at (p, q), and likewise with the residual added. Stated with
  the two indices as they come from a block read: the lanes agree as numbers, the rows through the hypothesis.
-/
import proofs.«124958_j46205258170764_2_alg».proof.Proof.Spec

noncomputable section

namespace Cert.Spec

open Idealize.ShloMosaic Idealize.ShloMosaic.ValueIdx

/-- An entry of the normalised block is the normalised matrix's entry in the row the block's row comes from. -/
theorem normed_of_rows {n : ℕ} (a : Mat n 64) (b : Mat 5000 64) (i : (⟨2, ![n, 64]⟩ : Shape).Idx)
    (j : (⟨2, ![5000, 64]⟩ : Shape).Idx) (hq : (i 1).val = (j 1).val)
    (hrow : ∀ k : Fin 64, b (ix2 (j 0) k) = a (ix2 (i 0) k)) : normed b j = normed a i := by
  obtain ⟨p, q, rfl⟩ : ∃ (p : Fin n) (q : Fin 64), i = ix2 p q := ⟨i 0, i 1, eq_ix2 i⟩
  obtain ⟨p', q', rfl⟩ : ∃ (p' : Fin 5000) (q' : Fin 64), j = ix2 p' q' := ⟨j 0, j 1, eq_ix2 j⟩
  have hqq : q = q' := Fin.ext hq
  subst hqq
  rw [normed_ix2, normed_ix2]
  exact normedAt_congr a b p p' q hrow

/-- The same with the residual: the block s holds at j what the matrix r holds at i. -/
theorem resAdd_of_rows {n : ℕ} (a r : Mat n 64) (b s : Mat 5000 64) (i : (⟨2, ![n, 64]⟩ : Shape).Idx)
    (j : (⟨2, ![5000, 64]⟩ : Shape).Idx) (hq : (i 1).val = (j 1).val)
    (hrow : ∀ k : Fin 64, b (ix2 (j 0) k) = a (ix2 (i 0) k)) (hres : s j = r i) : resAdd b s j = resAdd a r i := by
  have h := normed_of_rows a b i j hq hrow
  show s j + normed b j = r i + normed a i
  rw [h, hres]

end Cert.Spec

end
-- ==== Proof.Reg2.lean ====
/-
  Region 2: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg2

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of the x block at point t is row 5000 t + p of the x array. -/
theorem xblk_row (c : Dev nD) (t : Fin cfg2.N) (p : Fin 5000) (k : Fin 64) (P : Fin 50000)
    (hP : P.val = t.val * 5000 + p.val) :
    (Gen.iblk2 V c 0 t : Cert.Spec.Mat 5000 64) (ix2 p k) = (V c main_v50 : Cert.Spec.Mat 50000 64) (ix2 P k) := by
  obtain ⟨e0, e1, -⟩ := idx_facts t
  show V c main_v50 (((cfg2.win 0).blk t).view.emb (ix2 p k)) = V c main_v50 (ix2 P k)
  refine congrArg (V c main_v50) (funext fun a => Fin.ext ?_)
  match a with
  | ⟨0, _⟩ => show win2_0.index t (0 : Fin 2) * 5000 + 1 * p.val = P.val; omega
  | ⟨1, _⟩ => show win2_0.index t (1 : Fin 2) * 64 + 1 * k.val = k.val; omega

/-- What point t writes back to the first result is block t of the normalised x array. -/
theorem flushed_2 (c : Dev nD) (t : Fin cfg2.N) :
    (Gen.dat2 (F := Ideal) V c).flushed 2 t
      = ((cfg2.win 2).blk t).view.read (Elt Ideal) (Cert.Spec.normed (V c main_v50 : Cert.Spec.Mat 50000 64)) := by
  show (cfg2.win 2).cut (grid2.coords t) ((Gen.dat2 (F := Ideal) V c).after 2 t) = _
  rw [Gen.after2_2, NormBlock.out2_2_eq (Gen.iblk2 V c 0 t) (Gen.iblk2 V c 1 t)]
  obtain ⟨-, -, -, -, e4, e5, -⟩ := idx_facts t
  funext j
  show Cert.Spec.normed (Gen.iblk2 V c 0 t : Cert.Spec.Mat 5000 64) j
    = Cert.Spec.normed (V c main_v50 : Cert.Spec.Mat 50000 64) (((cfg2.win 2).blk t).view.emb j)
  refine Cert.Spec.normed_of_rows (V c main_v50 : Cert.Spec.Mat 50000 64) (Gen.iblk2 V c 0 t : Cert.Spec.Mat 5000 64)
    (((cfg2.win 2).blk t).view.emb j) j ?_ fun k => ?_
  · show win2_2.index t (1 : Fin 2) * 64 + 1 * (j 1).val = (j 1).val; omega
  · refine xblk_row V c t (j 0) k _ ?_
    show win2_2.index t (0 : Fin 2) * 5000 + 1 * (j 0).val = t.val * 5000 + (j 0).val; omega

/-- What point t writes back to the second result is block t of res plus the normalised x. -/
theorem flushed_3 (c : Dev nD) (t : Fin cfg2.N) :
    (Gen.dat2 (F := Ideal) V c).flushed 3 t
      = ((cfg2.win 3).blk t).view.read (Elt Ideal)
          (Cert.Spec.resAdd (V c main_v50 : Cert.Spec.Mat 50000 64) (V c main_v61 : Cert.Spec.Mat 50000 64)) := by
  show (cfg2.win 3).cut (grid2.coords t) ((Gen.dat2 (F := Ideal) V c).after 3 t) = _
  rw [Gen.after2_3, NormBlock.out2_3_eq (Gen.iblk2 V c 0 t) (Gen.iblk2 V c 1 t)]
  obtain ⟨-, -, e2, e3, -, -, e6, e7⟩ := idx_facts t
  funext j
  show Cert.Spec.resAdd (Gen.iblk2 V c 0 t : Cert.Spec.Mat 5000 64) (Gen.iblk2 V c 1 t : Cert.Spec.Mat 5000 64) j
    = Cert.Spec.resAdd (V c main_v50 : Cert.Spec.Mat 50000 64) (V c main_v61 : Cert.Spec.Mat 50000 64) (((cfg2.win 3).blk t).view.emb j)
  refine Cert.Spec.resAdd_of_rows (V c main_v50 : Cert.Spec.Mat 50000 64) (V c main_v61 : Cert.Spec.Mat 50000 64)
    (Gen.iblk2 V c 0 t : Cert.Spec.Mat 5000 64) (Gen.iblk2 V c 1 t : Cert.Spec.Mat 5000 64)
    (((cfg2.win 3).blk t).view.emb j) j ?_ (fun k => ?_) ?_
  · show win2_3.index t (1 : Fin 2) * 64 + 1 * (j 1).val = (j 1).val; omega
  · refine xblk_row V c t (j 0) k _ ?_
    show win2_3.index t (0 : Fin 2) * 5000 + 1 * (j 0).val = t.val * 5000 + (j 0).val; omega
  · show V c main_v61 (((cfg2.win 1).blk t).view.emb j) = V c main_v61 (((cfg2.win 3).blk t).view.emb j)
    refine congrArg (V c main_v61) (funext fun a => Fin.ext ?_)
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega

/-- An index of the first result's array is in point t's block iff each coordinate is in the block's range. -/
theorem mem_blk_2 (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v62_0).slice (win2_2.rect t)).set ↔ _
  rw [View.set_slice_whole, Rect.mem_set_unit]
  exact Iff.rfl

/-- The same for the second result's array. -/
theorem mem_blk_3 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v62_1).slice (win2_3.rect t)).set ↔ _
  rw [View.set_slice_whole, Rect.mem_set_unit]
  exact Iff.rfl

/-- The point that covers row r is r / 5000. -/
theorem point_of_row (r : Nat) (hr : r < 50000) : ∃ t : Fin cfg2.N, t.val * 5000 ≤ r ∧ r < t.val * 5000 + 5000 := by
  have hN : grid2.N = 10 := Gen.N_2
  refine ⟨⟨r / 5000, ?_⟩, ?_, ?_⟩
  · show r / 5000 < grid2.N
    rw [hN]; omega
  · show r / 5000 * 5000 ≤ r; omega
  · show r < r / 5000 * 5000 + 5000; omega

/-- Every index of the first result's array is in some point's block. -/
theorem cover_2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush2_2 t, ?_⟩
  rw [mem_blk_2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- Every index of the second result's array is in some point's block. -/
theorem cover_3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush2_3 t, ?_⟩
  rw [mem_blk_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region the first result array is the row-normalised x array. -/
theorem arr_2 (c : Dev nD) :
    (Gen.dat2 (F := Ideal) V c).arrAt 2 cfg2.N = Cert.Spec.normed (V c main_v50 : Cert.Spec.Mat 50000 64) :=
  (Gen.dat2 (F := Ideal) V c).arrAt_eq_of_cover 2 (Cert.Spec.normed (V c main_v50 : Cert.Spec.Mat 50000 64))
    (fun t _ => flushed_2 V c t) cover_2

/-- After the region the second result array is res plus the row-normalised x array. -/
theorem arr_3 (c : Dev nD) :
    (Gen.dat2 (F := Ideal) V c).arrAt 3 cfg2.N
      = Cert.Spec.resAdd (V c main_v50 : Cert.Spec.Mat 50000 64) (V c main_v61 : Cert.Spec.Mat 50000 64) :=
  (Gen.dat2 (F := Ideal) V c).arrAt_eq_of_cover 3
    (Cert.Spec.resAdd (V c main_v50 : Cert.Spec.Mat 50000 64) (V c main_v61 : Cert.Spec.Mat 50000 64))
    (fun t _ => flushed_3 V c t) cover_3

end Cert.KernelIdeal.Reg2

end
-- ==== Proof.Reg3.lean ====
/-
  Region 3: the row normalisation with residual over a matrix of 100000 rows, from blocks to arrays.

  The grid has 20 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg3

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of the x block at point t is row 5000 t + p of the x array. -/
theorem xblk_row (c : Dev nD) (t : Fin cfg3.N) (p : Fin 5000) (k : Fin 64) (P : Fin 100000)
    (hP : P.val = t.val * 5000 + p.val) :
    (Gen.iblk3 V c 0 t : Cert.Spec.Mat 5000 64) (ix2 p k) = (V c main_v30 : Cert.Spec.Mat 100000 64) (ix2 P k) := by
  obtain ⟨e0, e1, -⟩ := idx_facts t
  show V c main_v30 (((cfg3.win 0).blk t).view.emb (ix2 p k)) = V c main_v30 (ix2 P k)
  refine congrArg (V c main_v30) (funext fun a => Fin.ext ?_)
  match a with
  | ⟨0, _⟩ => show win3_0.index t (0 : Fin 2) * 5000 + 1 * p.val = P.val; omega
  | ⟨1, _⟩ => show win3_0.index t (1 : Fin 2) * 64 + 1 * k.val = k.val; omega

/-- What point t writes back to the first result is block t of the normalised x array. -/
theorem flushed_2 (c : Dev nD) (t : Fin cfg3.N) :
    (Gen.dat3 (F := Ideal) V c).flushed 2 t
      = ((cfg3.win 2).blk t).view.read (Elt Ideal) (Cert.Spec.normed (V c main_v30 : Cert.Spec.Mat 100000 64)) := by
  show (cfg3.win 2).cut (grid3.coords t) ((Gen.dat3 (F := Ideal) V c).after 2 t) = _
  rw [Gen.after3_2, NormBlock.out3_2_eq (Gen.iblk3 V c 0 t) (Gen.iblk3 V c 1 t)]
  obtain ⟨-, -, -, -, e4, e5, -⟩ := idx_facts t
  funext j
  show Cert.Spec.normed (Gen.iblk3 V c 0 t : Cert.Spec.Mat 5000 64) j
    = Cert.Spec.normed (V c main_v30 : Cert.Spec.Mat 100000 64) (((cfg3.win 2).blk t).view.emb j)
  refine Cert.Spec.normed_of_rows (V c main_v30 : Cert.Spec.Mat 100000 64) (Gen.iblk3 V c 0 t : Cert.Spec.Mat 5000 64)
    (((cfg3.win 2).blk t).view.emb j) j ?_ fun k => ?_
  · show win3_2.index t (1 : Fin 2) * 64 + 1 * (j 1).val = (j 1).val; omega
  · refine xblk_row V c t (j 0) k _ ?_
    show win3_2.index t (0 : Fin 2) * 5000 + 1 * (j 0).val = t.val * 5000 + (j 0).val; omega

/-- What point t writes back to the second result is block t of res plus the normalised x. -/
theorem flushed_3 (c : Dev nD) (t : Fin cfg3.N) :
    (Gen.dat3 (F := Ideal) V c).flushed 3 t
      = ((cfg3.win 3).blk t).view.read (Elt Ideal)
          (Cert.Spec.resAdd (V c main_v30 : Cert.Spec.Mat 100000 64) (V c main_v63 : Cert.Spec.Mat 100000 64)) := by
  show (cfg3.win 3).cut (grid3.coords t) ((Gen.dat3 (F := Ideal) V c).after 3 t) = _
  rw [Gen.after3_3, NormBlock.out3_3_eq (Gen.iblk3 V c 0 t) (Gen.iblk3 V c 1 t)]
  obtain ⟨-, -, e2, e3, -, -, e6, e7⟩ := idx_facts t
  funext j
  show Cert.Spec.resAdd (Gen.iblk3 V c 0 t : Cert.Spec.Mat 5000 64) (Gen.iblk3 V c 1 t : Cert.Spec.Mat 5000 64) j
    = Cert.Spec.resAdd (V c main_v30 : Cert.Spec.Mat 100000 64) (V c main_v63 : Cert.Spec.Mat 100000 64) (((cfg3.win 3).blk t).view.emb j)
  refine Cert.Spec.resAdd_of_rows (V c main_v30 : Cert.Spec.Mat 100000 64) (V c main_v63 : Cert.Spec.Mat 100000 64)
    (Gen.iblk3 V c 0 t : Cert.Spec.Mat 5000 64) (Gen.iblk3 V c 1 t : Cert.Spec.Mat 5000 64)
    (((cfg3.win 3).blk t).view.emb j) j ?_ (fun k => ?_) ?_
  · show win3_3.index t (1 : Fin 2) * 64 + 1 * (j 1).val = (j 1).val; omega
  · refine xblk_row V c t (j 0) k _ ?_
    show win3_3.index t (0 : Fin 2) * 5000 + 1 * (j 0).val = t.val * 5000 + (j 0).val; omega
  · show V c main_v63 (((cfg3.win 1).blk t).view.emb j) = V c main_v63 (((cfg3.win 3).blk t).view.emb j)
    refine congrArg (V c main_v63) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega

/-- An index of the first result's array is in point t's block iff each coordinate is in the block's range. -/
theorem mem_blk_2 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v64_0).slice (win3_2.rect t)).set ↔ _
  rw [View.set_slice_whole, Rect.mem_set_unit]
  exact Iff.rfl

/-- The same for the second result's array. -/
theorem mem_blk_3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v64_1).slice (win3_3.rect t)).set ↔ _
  rw [View.set_slice_whole, Rect.mem_set_unit]
  exact Iff.rfl

/-- The point that covers row r is r / 5000. -/
theorem point_of_row (r : Nat) (hr : r < 100000) : ∃ t : Fin cfg3.N, t.val * 5000 ≤ r ∧ r < t.val * 5000 + 5000 := by
  have hN : grid3.N = 20 := Gen.N_3
  refine ⟨⟨r / 5000, ?_⟩, ?_, ?_⟩
  · show r / 5000 < grid3.N
    rw [hN]; omega
  · show r / 5000 * 5000 ≤ r; omega
  · show r < r / 5000 * 5000 + 5000; omega

/-- Every index of the first result's array is in some point's block. -/
theorem cover_2 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, h0, h1⟩ := point_of_row (i 0).val hi0
  obtain ⟨-, -, -, -, e4, e5, -⟩ := idx_facts t
  refine ⟨t, Gen.flush3_2 t, ?_⟩
  rw [mem_blk_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- Every index of the second result's array is in some point's block. -/
theorem cover_3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush3_3 t, ?_⟩
  rw [mem_blk_3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region the first result array is the row-normalised x array. -/
theorem arr_2 (c : Dev nD) :
    (Gen.dat3 (F := Ideal) V c).arrAt 2 cfg3.N = Cert.Spec.normed (V c main_v30 : Cert.Spec.Mat 100000 64) :=
  (Gen.dat3 (F := Ideal) V c).arrAt_eq_of_cover 2 (Cert.Spec.normed (V c main_v30 : Cert.Spec.Mat 100000 64))
    (fun t _ => flushed_2 V c t) cover_2

/-- After the region the second result array is res plus the row-normalised x array. -/
theorem arr_3 (c : Dev nD) :
    (Gen.dat3 (F := Ideal) V c).arrAt 3 cfg3.N
      = Cert.Spec.resAdd (V c main_v30 : Cert.Spec.Mat 100000 64) (V c main_v63 : Cert.Spec.Mat 100000 64) :=
  (Gen.dat3 (F := Ideal) V c).arrAt_eq_of_cover 3
    (Cert.Spec.resAdd (V c main_v30 : Cert.Spec.Mat 100000 64) (V c main_v63 : Cert.Spec.Mat 100000 64))
    (fun t _ => flushed_3 V c t) cover_3

end Cert.KernelIdeal.Reg3

end
-- ==== Proof.Reg4.lean ====
/-
  Region 4: the row normalisation with residual over a matrix of 200000 rows, from blocks to arrays.

  The grid has 40 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg4

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row p of the x block at point t is row 5000 t + p of the x array. -/
theorem xblk_row (c : Dev nD) (t : Fin cfg4.N) (p : Fin 5000) (k : Fin 64) (P : Fin 200000)
    (hP : P.val = t.val * 5000 + p.val) :
    (Gen.iblk4 V c 0 t : Cert.Spec.Mat 5000 64) (ix2 p k) = (V c main_v60 : Cert.Spec.Mat 200000 64) (ix2 P k) := by
  obtain ⟨e0, e1, -⟩ := idx_facts t
  show V c main_v60 (((cfg4.win 0).blk t).view.emb (ix2 p k)) = V c main_v60 (ix2 P k)
  refine congrArg (V c main_v60) (funext fun a => Fin.ext ?_)
  match a with
  | ⟨0, _⟩ => show win4_0.index t (0 : Fin 2) * 5000 + 1 * p.val = P.val; omega
  | ⟨1, _⟩ => show win4_0.index t (1 : Fin 2) * 64 + 1 * k.val = k.val; omega

/-- What point t writes back to the first result is block t of the normalised x array. -/
theorem flushed_2 (c : Dev nD) (t : Fin cfg4.N) :
    (Gen.dat4 (F := Ideal) V c).flushed 2 t
      = ((cfg4.win 2).blk t).view.read (Elt Ideal) (Cert.Spec.normed (V c main_v60 : Cert.Spec.Mat 200000 64)) := by
  show (cfg4.win 2).cut (grid4.coords t) ((Gen.dat4 (F := Ideal) V c).after 2 t) = _
  rw [Gen.after4_2, NormBlock.out4_2_eq (Gen.iblk4 V c 0 t) (Gen.iblk4 V c 1 t)]
  obtain ⟨-, -, -, -, e4, e5, -⟩ := idx_facts t
  funext j
  show Cert.Spec.normed (Gen.iblk4 V c 0 t : Cert.Spec.Mat 5000 64) j
    = Cert.Spec.normed (V c main_v60 : Cert.Spec.Mat 200000 64) (((cfg4.win 2).blk t).view.emb j)
  refine Cert.Spec.normed_of_rows (V c main_v60 : Cert.Spec.Mat 200000 64) (Gen.iblk4 V c 0 t : Cert.Spec.Mat 5000 64)
    (((cfg4.win 2).blk t).view.emb j) j ?_ fun k => ?_
  · show win4_2.index t (1 : Fin 2) * 64 + 1 * (j 1).val = (j 1).val; omega
  · refine xblk_row V c t (j 0) k _ ?_
    show win4_2.index t (0 : Fin 2) * 5000 + 1 * (j 0).val = t.val * 5000 + (j 0).val; omega

/-- What point t writes back to the second result is block t of res plus the normalised x. -/
theorem flushed_3 (c : Dev nD) (t : Fin cfg4.N) :
    (Gen.dat4 (F := Ideal) V c).flushed 3 t
      = ((cfg4.win 3).blk t).view.read (Elt Ideal)
          (Cert.Spec.resAdd (V c main_v60 : Cert.Spec.Mat 200000 64) (V c main_arg0 : Cert.Spec.Mat 200000 64)) := by
  show (cfg4.win 3).cut (grid4.coords t) ((Gen.dat4 (F := Ideal) V c).after 3 t) = _
  rw [Gen.after4_3, NormBlock.out4_3_eq (Gen.iblk4 V c 0 t) (Gen.iblk4 V c 1 t)]
  obtain ⟨-, -, e2, e3, -, -, e6, e7⟩ := idx_facts t
  funext j
  show Cert.Spec.resAdd (Gen.iblk4 V c 0 t : Cert.Spec.Mat 5000 64) (Gen.iblk4 V c 1 t : Cert.Spec.Mat 5000 64) j
    = Cert.Spec.resAdd (V c main_v60 : Cert.Spec.Mat 200000 64) (V c main_arg0 : Cert.Spec.Mat 200000 64) (((cfg4.win 3).blk t).view.emb j)
  refine Cert.Spec.resAdd_of_rows (V c main_v60 : Cert.Spec.Mat 200000 64) (V c main_arg0 : Cert.Spec.Mat 200000 64)
    (Gen.iblk4 V c 0 t : Cert.Spec.Mat 5000 64) (Gen.iblk4 V c 1 t : Cert.Spec.Mat 5000 64)
    (((cfg4.win 3).blk t).view.emb j) j ?_ (fun k => ?_) ?_
  · show win4_3.index t (1 : Fin 2) * 64 + 1 * (j 1).val = (j 1).val; omega
  · refine xblk_row V c t (j 0) k _ ?_
    show win4_3.index t (0 : Fin 2) * 5000 + 1 * (j 0).val = t.val * 5000 + (j 0).val; omega
  · show V c main_arg0 (((cfg4.win 1).blk t).view.emb j) = V c main_arg0 (((cfg4.win 3).blk t).view.emb j)
    refine congrArg (V c main_arg0) (funext fun a => Fin.ext ?_)
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 64 + 1 * (j 1).val = win4_3.index t (1 : Fin 2) * 64 + 1 * (j 1).val; omega

/-- An index of the first result's array is in point t's block iff each coordinate is in the block's range. -/
theorem mem_blk_2 (t : Fin cfg4.N) (i : S200000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v66_0).slice (win4_2.rect t)).set ↔ _
  rw [View.set_slice_whole, Rect.mem_set_unit]
  exact Iff.rfl

/-- The same for the second result's array. -/
theorem mem_blk_3 (t : Fin cfg4.N) (i : S200000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v66_1).slice (win4_3.rect t)).set ↔ _
  rw [View.set_slice_whole, Rect.mem_set_unit]
  exact Iff.rfl

/-- The point that covers row r is r / 5000. -/
theorem point_of_row (r : Nat) (hr : r < 200000) : ∃ t : Fin cfg4.N, t.val * 5000 ≤ r ∧ r < t.val * 5000 + 5000 := by
  have hN : grid4.N = 40 := Gen.N_4
  refine ⟨⟨r / 5000, ?_⟩, ?_, ?_⟩
  · show r / 5000 < grid4.N
    rw [hN]; omega
  · show r / 5000 * 5000 ≤ r; omega
  · show r < r / 5000 * 5000 + 5000; omega

/-- Every index of the first result's array is in some point's block. -/
theorem cover_2 (i : S200000x64.Idx) : ∃ t : Fin cfg4.N, (cfg4.win 2).flush t = true ∧ i ∈ ((cfg4.win 2).blk t).view.set := by
  have hi0 : (i 0).val < 200000 := (i 0).isLt
  have hi1 : (i 1).val < 64 := (i 1).isLt
  obtain ⟨t, h0, h1⟩ := point_of_row (i 0).val hi0
  obtain ⟨-, -, -, -, e4, e5, -⟩ := idx_facts t
  refine ⟨t, Gen.flush4_2 t, ?_⟩
  rw [mem_blk_2]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- Every index of the second result's array is in some point's block. -/
theorem cover_3 (i : S200000x64.Idx) : ∃ t : Fin cfg4.N, (cfg4.win 3).flush t = true ∧ i ∈ ((cfg4.win 3).blk t).view.set := by
  have hi0 : (i 0).val < 200000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush4_3 t, ?_⟩
  rw [mem_blk_3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- After the region the first result array is the row-normalised x array. -/
theorem arr_2 (c : Dev nD) :
    (Gen.dat4 (F := Ideal) V c).arrAt 2 cfg4.N = Cert.Spec.normed (V c main_v60 : Cert.Spec.Mat 200000 64) :=
  (Gen.dat4 (F := Ideal) V c).arrAt_eq_of_cover 2 (Cert.Spec.normed (V c main_v60 : Cert.Spec.Mat 200000 64))
    (fun t _ => flushed_2 V c t) cover_2

/-- After the region the second result array is res plus the row-normalised x array. -/
theorem arr_3 (c : Dev nD) :
    (Gen.dat4 (F := Ideal) V c).arrAt 3 cfg4.N
      = Cert.Spec.resAdd (V c main_v60 : Cert.Spec.Mat 200000 64) (V c main_arg0 : Cert.Spec.Mat 200000 64) :=
  (Gen.dat4 (F := Ideal) V c).arrAt_eq_of_cover 3
    (Cert.Spec.resAdd (V c main_v60 : Cert.Spec.Mat 200000 64) (V c main_arg0 : Cert.Spec.Mat 200000 64))
    (fun t _ => flushed_3 V c t) cover_3

end Cert.KernelIdeal.Reg4

end
-- ==== Proof.Reg5.lean ====
/-
  Region 5: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg5

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Row p of the x block at point t is row 5000 t + p of the x array. -/
theorem xblk_row (c : Dev nD) (t : Fin cfg5.N) (p : Fin 5000) (k : Fin 64) (P : Fin 50000)
    (hP : P.val = t.val * 5000 + p.val) :
    (Gen.iblk5 V c 0 t : Cert.Spec.Mat 5000 64) (ix2 p k) = (V c main_v29 : Cert.Spec.Mat 50000 64) (ix2 P k) := by
  obtain ⟨e0, e1, -⟩ := idx_facts t
  show V c main_v29 (((cfg5.win 0).blk t).view.emb (ix2 p k)) = V c main_v29 (ix2 P k)
  refine congrArg (V c main_v29) (funext fun a => Fin.ext ?_)
  match a with
  | ⟨0, _⟩ => show win5_0.index t (0 : Fin 2) * 5000 + 1 * p.val = P.val; omega
  | ⟨1, _⟩ => show win5_0.index t (1 : Fin 2) * 64 + 1 * k.val = k.val; omega

/-- What point t writes back to the first result is block t of the normalised x array. -/
theorem flushed_2 (c : Dev nD) (t : Fin cfg5.N) :
    (Gen.dat5 (F := Ideal) V c).flushed 2 t
      = ((cfg5.win 2).blk t).view.read (Elt Ideal) (Cert.Spec.normed (V c main_v29 : Cert.Spec.Mat 50000 64)) := by
  show (cfg5.win 2).cut (grid5.coords t) ((Gen.dat5 (F := Ideal) V c).after 2 t) = _
  rw [Gen.after5_2, NormBlock.out5_2_eq (Gen.iblk5 V c 0 t) (Gen.iblk5 V c 1 t)]
  obtain ⟨-, -, -, -, e4, e5, -⟩ := idx_facts t
  funext j
  show Cert.Spec.normed (Gen.iblk5 V c 0 t : Cert.Spec.Mat 5000 64) j
    = Cert.Spec.normed (V c main_v29 : Cert.Spec.Mat 50000 64) (((cfg5.win 2).blk t).view.emb j)
  refine Cert.Spec.normed_of_rows (V c main_v29 : Cert.Spec.Mat 50000 64) (Gen.iblk5 V c 0 t : Cert.Spec.Mat 5000 64)
    (((cfg5.win 2).blk t).view.emb j) j ?_ fun k => ?_
  · show win5_2.index t (1 : Fin 2) * 64 + 1 * (j 1).val = (j 1).val; omega
  · refine xblk_row V c t (j 0) k _ ?_
    show win5_2.index t (0 : Fin 2) * 5000 + 1 * (j 0).val = t.val * 5000 + (j 0).val; omega

/-- What point t writes back to the second result is block t of res plus the normalised x. -/
theorem flushed_3 (c : Dev nD) (t : Fin cfg5.N) :
    (Gen.dat5 (F := Ideal) V c).flushed 3 t
      = ((cfg5.win 3).blk t).view.read (Elt Ideal)
          (Cert.Spec.resAdd (V c main_v29 : Cert.Spec.Mat 50000 64) (V c main_v0 : Cert.Spec.Mat 50000 64)) := by
  show (cfg5.win 3).cut (grid5.coords t) ((Gen.dat5 (F := Ideal) V c).after 3 t) = _
  rw [Gen.after5_3, NormBlock.out5_3_eq (Gen.iblk5 V c 0 t) (Gen.iblk5 V c 1 t)]
  obtain ⟨-, -, e2, e3, -, -, e6, e7⟩ := idx_facts t
  funext j
  show Cert.Spec.resAdd (Gen.iblk5 V c 0 t : Cert.Spec.Mat 5000 64) (Gen.iblk5 V c 1 t : Cert.Spec.Mat 5000 64) j
    = Cert.Spec.resAdd (V c main_v29 : Cert.Spec.Mat 50000 64) (V c main_v0 : Cert.Spec.Mat 50000 64) (((cfg5.win 3).blk t).view.emb j)
  refine Cert.Spec.resAdd_of_rows (V c main_v29 : Cert.Spec.Mat 50000 64) (V c main_v0 : Cert.Spec.Mat 50000 64)
    (Gen.iblk5 V c 0 t : Cert.Spec.Mat 5000 64) (Gen.iblk5 V c 1 t : Cert.Spec.Mat 5000 64)
    (((cfg5.win 3).blk t).view.emb j) j ?_ (fun k => ?_) ?_
  · show win5_3.index t (1 : Fin 2) * 64 + 1 * (j 1).val = (j 1).val; omega
  · refine xblk_row V c t (j 0) k _ ?_
    show win5_3.index t (0 : Fin 2) * 5000 + 1 * (j 0).val = t.val * 5000 + (j 0).val; omega
  · show V c main_v0 (((cfg5.win 1).blk t).view.emb j) = V c main_v0 (((cfg5.win 3).blk t).view.emb j)
    refine congrArg (V c main_v0) (funext fun a => Fin.ext ?_)
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 64 + 1 * (j 1).val = win5_3.index t (1 : Fin 2) * 64 + 1 * (j 1).val; omega

/-- An index of the first result's array is in point t's block iff each coordinate is in the block's range. -/
theorem mem_blk_2 (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v67_0).slice (win5_2.rect t)).set ↔ _
  rw [View.set_slice_whole, Rect.mem_set_unit]
  exact Iff.rfl

/-- The same for the second result's array. -/
theorem mem_blk_3 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v67_1).slice (win5_3.rect t)).set ↔ _
  rw [View.set_slice_whole, Rect.mem_set_unit]
  exact Iff.rfl

/-- The point that covers row r is r / 5000. -/
theorem point_of_row (r : Nat) (hr : r < 50000) : ∃ t : Fin cfg5.N, t.val * 5000 ≤ r ∧ r < t.val * 5000 + 5000 := by
  have hN : grid5.N = 10 := Gen.N_5
  refine ⟨⟨r / 5000, ?_⟩, ?_, ?_⟩
  · show r / 5000 < grid5.N
    rw [hN]; omega
  · show r / 5000 * 5000 ≤ r; omega
  · show r < r / 5000 * 5000 + 5000; omega

/-- Every index of the first result's array is in some point's block. -/
theorem cover_2 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush5_2 t, ?_⟩
  rw [mem_blk_2]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- Every index of the second result's array is in some point's block. -/
theorem cover_3 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush5_3 t, ?_⟩
  rw [mem_blk_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- After the region the first result array is the row-normalised x array. -/
theorem arr_2 (c : Dev nD) :
    (Gen.dat5 (F := Ideal) V c).arrAt 2 cfg5.N = Cert.Spec.normed (V c main_v29 : Cert.Spec.Mat 50000 64) :=
  (Gen.dat5 (F := Ideal) V c).arrAt_eq_of_cover 2 (Cert.Spec.normed (V c main_v29 : Cert.Spec.Mat 50000 64))
    (fun t _ => flushed_2 V c t) cover_2

/-- After the region the second result array is res plus the row-normalised x array. -/
theorem arr_3 (c : Dev nD) :
    (Gen.dat5 (F := Ideal) V c).arrAt 3 cfg5.N
      = Cert.Spec.resAdd (V c main_v29 : Cert.Spec.Mat 50000 64) (V c main_v0 : Cert.Spec.Mat 50000 64) :=
  (Gen.dat5 (F := Ideal) V c).arrAt_eq_of_cover 3
    (Cert.Spec.resAdd (V c main_v29 : Cert.Spec.Mat 50000 64) (V c main_v0 : Cert.Spec.Mat 50000 64))
    (fun t _ => flushed_3 V c t) cover_3

end Cert.KernelIdeal.Reg5

end
-- ==== Proof.Reg6.lean ====
/-
  Region 6: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg6

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Row p of the x block at point t is row 5000 t + p of the x array. -/
theorem xblk_row (c : Dev nD) (t : Fin cfg6.N) (p : Fin 5000) (k : Fin 64) (P : Fin 50000)
    (hP : P.val = t.val * 5000 + p.val) :
    (Gen.iblk6 V c 0 t : Cert.Spec.Mat 5000 64) (ix2 p k) = (V c main_v49 : Cert.Spec.Mat 50000 64) (ix2 P k) := by
  obtain ⟨e0, e1, -⟩ := idx_facts t
  show V c main_v49 (((cfg6.win 0).blk t).view.emb (ix2 p k)) = V c main_v49 (ix2 P k)
  refine congrArg (V c main_v49) (funext fun a => Fin.ext ?_)
  match a with
  | ⟨0, _⟩ => show win6_0.index t (0 : Fin 2) * 5000 + 1 * p.val = P.val; omega
  | ⟨1, _⟩ => show win6_0.index t (1 : Fin 2) * 64 + 1 * k.val = k.val; omega

/-- What point t writes back to the first result is block t of the normalised x array. -/
theorem flushed_2 (c : Dev nD) (t : Fin cfg6.N) :
    (Gen.dat6 (F := Ideal) V c).flushed 2 t
      = ((cfg6.win 2).blk t).view.read (Elt Ideal) (Cert.Spec.normed (V c main_v49 : Cert.Spec.Mat 50000 64)) := by
  show (cfg6.win 2).cut (grid6.coords t) ((Gen.dat6 (F := Ideal) V c).after 2 t) = _
  rw [Gen.after6_2, NormBlock.out6_2_eq (Gen.iblk6 V c 0 t) (Gen.iblk6 V c 1 t)]
  obtain ⟨-, -, -, -, e4, e5, -⟩ := idx_facts t
  funext j
  show Cert.Spec.normed (Gen.iblk6 V c 0 t : Cert.Spec.Mat 5000 64) j
    = Cert.Spec.normed (V c main_v49 : Cert.Spec.Mat 50000 64) (((cfg6.win 2).blk t).view.emb j)
  refine Cert.Spec.normed_of_rows (V c main_v49 : Cert.Spec.Mat 50000 64) (Gen.iblk6 V c 0 t : Cert.Spec.Mat 5000 64)
    (((cfg6.win 2).blk t).view.emb j) j ?_ fun k => ?_
  · show win6_2.index t (1 : Fin 2) * 64 + 1 * (j 1).val = (j 1).val; omega
  · refine xblk_row V c t (j 0) k _ ?_
    show win6_2.index t (0 : Fin 2) * 5000 + 1 * (j 0).val = t.val * 5000 + (j 0).val; omega

/-- What point t writes back to the second result is block t of res plus the normalised x. -/
theorem flushed_3 (c : Dev nD) (t : Fin cfg6.N) :
    (Gen.dat6 (F := Ideal) V c).flushed 3 t
      = ((cfg6.win 3).blk t).view.read (Elt Ideal)
          (Cert.Spec.resAdd (V c main_v49 : Cert.Spec.Mat 50000 64) (V c main_v1 : Cert.Spec.Mat 50000 64)) := by
  show (cfg6.win 3).cut (grid6.coords t) ((Gen.dat6 (F := Ideal) V c).after 3 t) = _
  rw [Gen.after6_3, NormBlock.out6_3_eq (Gen.iblk6 V c 0 t) (Gen.iblk6 V c 1 t)]
  obtain ⟨-, -, e2, e3, -, -, e6, e7⟩ := idx_facts t
  funext j
  show Cert.Spec.resAdd (Gen.iblk6 V c 0 t : Cert.Spec.Mat 5000 64) (Gen.iblk6 V c 1 t : Cert.Spec.Mat 5000 64) j
    = Cert.Spec.resAdd (V c main_v49 : Cert.Spec.Mat 50000 64) (V c main_v1 : Cert.Spec.Mat 50000 64) (((cfg6.win 3).blk t).view.emb j)
  refine Cert.Spec.resAdd_of_rows (V c main_v49 : Cert.Spec.Mat 50000 64) (V c main_v1 : Cert.Spec.Mat 50000 64)
    (Gen.iblk6 V c 0 t : Cert.Spec.Mat 5000 64) (Gen.iblk6 V c 1 t : Cert.Spec.Mat 5000 64)
    (((cfg6.win 3).blk t).view.emb j) j ?_ (fun k => ?_) ?_
  · show win6_3.index t (1 : Fin 2) * 64 + 1 * (j 1).val = (j 1).val; omega
  · refine xblk_row V c t (j 0) k _ ?_
    show win6_3.index t (0 : Fin 2) * 5000 + 1 * (j 0).val = t.val * 5000 + (j 0).val; omega
  · show V c main_v1 (((cfg6.win 1).blk t).view.emb j) = V c main_v1 (((cfg6.win 3).blk t).view.emb j)
    refine congrArg (V c main_v1) (funext fun a => Fin.ext ?_)
    match a with
    | ⟨0, _⟩ => show win6_1.index t (0 : Fin 2) * 5000 + 1 * (j 0).val = win6_3.index t (0 : Fin 2) * 5000 + 1 * (j 0).val; omega
    | ⟨1, _⟩ => show win6_1.index t (1 : Fin 2) * 64 + 1 * (j 1).val = win6_3.index t (1 : Fin 2) * 64 + 1 * (j 1).val; omega

/-- An index of the first result's array is in point t's block iff each coordinate is in the block's range. -/
theorem mem_blk_2 (t : Fin cfg6.N) (i : S50000x64.Idx) :
    i ∈ ((cfg6.win 2).blk t).view.set ↔ ∀ a : Fin 2, win6_2.index t a * S5000x64.size a ≤ (i a).val
      ∧ (i a).val < win6_2.index t a * S5000x64.size a + S5000x64.size a := by
  show i ∈ ((View.whole main_v68_0).slice (win6_2.rect t)).set ↔ _
  rw [View.set_slice_whole, Rect.mem_set_unit]
  exact Iff.rfl

/-- The same for the second result's array. -/
theorem mem_blk_3 (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v68_1).slice (win6_3.rect t)).set ↔ _
  rw [View.set_slice_whole, Rect.mem_set_unit]
  exact Iff.rfl

/-- The point that covers row r is r / 5000. -/
theorem point_of_row (r : Nat) (hr : r < 50000) : ∃ t : Fin cfg6.N, t.val * 5000 ≤ r ∧ r < t.val * 5000 + 5000 := by
  have hN : grid6.N = 10 := Gen.N_6
  refine ⟨⟨r / 5000, ?_⟩, ?_, ?_⟩
  · show r / 5000 < grid6.N
    rw [hN]; omega
  · show r / 5000 * 5000 ≤ r; omega
  · show r < r / 5000 * 5000 + 5000; omega

/-- Every index of the first result's array is in some point's block. -/
theorem cover_2 (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush6_2 t, ?_⟩
  rw [mem_blk_2]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- Every index of the second result's array is in some point's block. -/
theorem cover_3 (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush6_3 t, ?_⟩
  rw [mem_blk_3]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- After the region the first result array is the row-normalised x array. -/
theorem arr_2 (c : Dev nD) :
    (Gen.dat6 (F := Ideal) V c).arrAt 2 cfg6.N = Cert.Spec.normed (V c main_v49 : Cert.Spec.Mat 50000 64) :=
  (Gen.dat6 (F := Ideal) V c).arrAt_eq_of_cover 2 (Cert.Spec.normed (V c main_v49 : Cert.Spec.Mat 50000 64))
    (fun t _ => flushed_2 V c t) cover_2

/-- After the region the second result array is res plus the row-normalised x array. -/
theorem arr_3 (c : Dev nD) :
    (Gen.dat6 (F := Ideal) V c).arrAt 3 cfg6.N
      = Cert.Spec.resAdd (V c main_v49 : Cert.Spec.Mat 50000 64) (V c main_v1 : Cert.Spec.Mat 50000 64) :=
  (Gen.dat6 (F := Ideal) V c).arrAt_eq_of_cover 3
    (Cert.Spec.resAdd (V c main_v49 : Cert.Spec.Mat 50000 64) (V c main_v1 : Cert.Spec.Mat 50000 64))
    (fun t _ => flushed_3 V c t) cover_3

end Cert.KernelIdeal.Reg6

end
-- ==== Proof.ChainA.lean ====
/-
  The kernel program's buffers, boundary by boundary: the first hop.

  Every value the program computes is named as a function of the argument arrays (the launch memory m on core c): the
  gathered tail and relation rows and their product, the scatter-mean over entities and its item and attribute slices,
  the scatter-mean of user rows over items, the gated fusion, the scatter-sum over users, and the normalised rows with
  their residuals. Then, for each of the boundaries between the program's segments, the buffers the later segments read
  are shown to hold those values: a stretch of host operations computes its results from what the boundary before holds, a
  region leaves the specification of its kernel applied to its operand arrays, and a buffer a segment does not write is
  carried over unchanged.
-/
import proofs.«124958_j46205258170764_2_alg».proof.Proof.Vals
import proofs.«124958_j46205258170764_2_alg».proof.Proof.ChainKeep
import proofs.«124958_j46205258170764_2_alg».proof.Proof.Reg0
import proofs.«124958_j46205258170764_2_alg».proof.Proof.Reg1
import proofs.«124958_j46205258170764_2_alg».proof.Proof.Reg2
import proofs.«124958_j46205258170764_2_alg».proof.Proof.Reg3
import proofs.«124958_j46205258170764_2_alg».proof.Proof.Reg4
import proofs.«124958_j46205258170764_2_alg».proof.Proof.Reg5
import proofs.«124958_j46205258170764_2_alg».proof.Proof.Reg6
import Idealize.ShloMosaic.Lib.StableHlo.Run

set_option maxRecDepth 16384

noncomputable section

namespace Cert.KernelIdeal.Chain

open Cert.KernelIdeal Cert.KernelIdeal.Gen Cert.KernelIdeal.Keep Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem r0_arg1 : W0 m ρ c (Proc.devRef .tc main_arg1) = A1 m c := rfl

theorem r0_arg6 : W0 m ρ c (Proc.devRef .tc main_arg6) = A6 m c := rfl

theorem r0_arg2 : W0 m ρ c (Proc.devRef .tc main_arg2) = A2 m c := rfl

theorem r0_arg7 : W0 m ρ c (Proc.devRef .tc main_arg7) = A7 m c := rfl

set_option maxHeartbeats 2000000 in
theorem r1_v0 : W1 m ρ c (Proc.devRef .tc main_v0) = Cert.Stage.zeros50 := by
  show after hostOps0 (W0 m ρ c) (Proc.devRef .tc main_v0) = _
  simp only [hostOps0]
  after_results_simp
  rfl

set_option maxHeartbeats 2000000 in
theorem r1_v1 : W1 m ρ c (Proc.devRef .tc main_v1) = Cert.Stage.zeros50 := by
  show after hostOps0 (W0 m ρ c) (Proc.devRef .tc main_v1) = _
  simp only [hostOps0]
  after_results_simp
  rfl

set_option maxHeartbeats 2000000 in
theorem r1_v8 : W1 m ρ c (Proc.devRef .tc main_v8) = T1 m c := by
  show after hostOps0 (W0 m ρ c) (Proc.devRef .tc main_v8) = _
  simp only [hostOps0]
  after_results_simp
  simp only [r0_arg1 m ρ c, r0_arg6 m ρ c, r0_arg2 m ρ c, r0_arg7 m ρ c] <;> rfl

set_option maxHeartbeats 2000000 in
theorem r1_v15 : W1 m ρ c (Proc.devRef .tc main_v15) = RL m c := by
  show after hostOps0 (W0 m ρ c) (Proc.devRef .tc main_v15) = _
  simp only [hostOps0]
  after_results_simp
  simp only [r0_arg1 m ρ c, r0_arg6 m ρ c, r0_arg2 m ρ c, r0_arg7 m ρ c] <;> rfl

theorem r2_v16 : W2 m ρ c (Proc.devRef .tc main_v16) = N1 m c := by
  refine (W2_arr m ρ c 2).trans ((Cert.KernelIdeal.Reg0.arr_2 (V1 m ρ) c).trans ?_)
  rw [show V1 m ρ c main_v8 = T1 m c from r1_v8 m ρ c, show V1 m ρ c main_v15 = RL m c from r1_v15 m ρ c]
  rfl

theorem r0_arg5 : W0 m ρ c (Proc.devRef .tc main_arg5) = A5 m c := rfl

theorem r1_arg5 : W1 m ρ c (Proc.devRef .tc main_arg5) = A5 m c := (k1 m ρ c main_arg5 (by decide)).trans (r0_arg5 m ρ c)

theorem r2_arg5 : W2 m ρ c (Proc.devRef .tc main_arg5) = A5 m c := (k2 m ρ c main_arg5 (by decide)).trans (r1_arg5 m ρ c)

theorem r0_arg0 : W0 m ρ c (Proc.devRef .tc main_arg0) = A0 m c := rfl

theorem r1_arg0 : W1 m ρ c (Proc.devRef .tc main_arg0) = A0 m c := (k1 m ρ c main_arg0 (by decide)).trans (r0_arg0 m ρ c)

theorem r2_arg0 : W2 m ρ c (Proc.devRef .tc main_arg0) = A0 m c := (k2 m ρ c main_arg0 (by decide)).trans (r1_arg0 m ρ c)

theorem r0_arg8 : W0 m ρ c (Proc.devRef .tc main_arg8) = A8 m c := rfl

theorem r1_arg8 : W1 m ρ c (Proc.devRef .tc main_arg8) = A8 m c := (k1 m ρ c main_arg8 (by decide)).trans (r0_arg8 m ρ c)

theorem r2_arg8 : W2 m ρ c (Proc.devRef .tc main_arg8) = A8 m c := (k2 m ρ c main_arg8 (by decide)).trans (r1_arg8 m ρ c)

theorem r0_arg9 : W0 m ρ c (Proc.devRef .tc main_arg9) = A9 m c := rfl

theorem r1_arg9 : W1 m ρ c (Proc.devRef .tc main_arg9) = A9 m c := (k1 m ρ c main_arg9 (by decide)).trans (r0_arg9 m ρ c)

theorem r2_arg9 : W2 m ρ c (Proc.devRef .tc main_arg9) = A9 m c := (k2 m ρ c main_arg9 (by decide)).trans (r1_arg9 m ρ c)

set_option maxHeartbeats 2000000 in
theorem r3_v29 : W3 m ρ c (Proc.devRef .tc main_v29) = IK1 m c := by
  show after hostOps1 (W2 m ρ c) (Proc.devRef .tc main_v29) = _
  simp only [hostOps1]
  after_results_simp
  simp only [r2_v16 m ρ c, r2_arg5 m ρ c, r2_arg0 m ρ c, r2_arg8 m ρ c, r2_arg9 m ρ c] <;> rfl

set_option maxHeartbeats 2000000 in
theorem r3_v30 : W3 m ρ c (Proc.devRef .tc main_v30) = AT1 m c := by
  show after hostOps1 (W2 m ρ c) (Proc.devRef .tc main_v30) = _
  simp only [hostOps1]
  after_results_simp
  simp only [r2_v16 m ρ c, r2_arg5 m ρ c, r2_arg0 m ρ c, r2_arg8 m ρ c, r2_arg9 m ρ c] <;> rfl

set_option maxHeartbeats 2000000 in
theorem r3_v49 : W3 m ρ c (Proc.devRef .tc main_v49) = II1 m c := by
  show after hostOps1 (W2 m ρ c) (Proc.devRef .tc main_v49) = _
  simp only [hostOps1]
  after_results_simp
  simp only [r2_v16 m ρ c, r2_arg5 m ρ c, r2_arg0 m ρ c, r2_arg8 m ρ c, r2_arg9 m ρ c] <;> rfl

theorem r0_arg3 : W0 m ρ c (Proc.devRef .tc main_arg3) = A3 m c := rfl

theorem r1_arg3 : W1 m ρ c (Proc.devRef .tc main_arg3) = A3 m c := (k1 m ρ c main_arg3 (by decide)).trans (r0_arg3 m ρ c)

theorem r2_arg3 : W2 m ρ c (Proc.devRef .tc main_arg3) = A3 m c := (k2 m ρ c main_arg3 (by decide)).trans (r1_arg3 m ρ c)

theorem r3_arg3 : W3 m ρ c (Proc.devRef .tc main_arg3) = A3 m c := (k3 m ρ c main_arg3 (by decide)).trans (r2_arg3 m ρ c)

theorem r0_arg4 : W0 m ρ c (Proc.devRef .tc main_arg4) = A4 m c := rfl

theorem r1_arg4 : W1 m ρ c (Proc.devRef .tc main_arg4) = A4 m c := (k1 m ρ c main_arg4 (by decide)).trans (r0_arg4 m ρ c)

theorem r2_arg4 : W2 m ρ c (Proc.devRef .tc main_arg4) = A4 m c := (k2 m ρ c main_arg4 (by decide)).trans (r1_arg4 m ρ c)

theorem r3_arg4 : W3 m ρ c (Proc.devRef .tc main_arg4) = A4 m c := (k3 m ρ c main_arg4 (by decide)).trans (r2_arg4 m ρ c)

theorem r4_v50 : W4 m ρ c (Proc.devRef .tc main_v50) = F1 m c := by
  refine (W4_arr m ρ c 4).trans ((Cert.KernelIdeal.Reg1.arr_4 (V3 m ρ) c).trans ?_)
  rw [show V3 m ρ c main_v29 = IK1 m c from r3_v29 m ρ c, show V3 m ρ c main_v49 = II1 m c from r3_v49 m ρ c, show V3 m ρ c main_arg3 = A3 m c from r3_arg3 m ρ c, show V3 m ρ c main_arg4 = A4 m c from r3_arg4 m ρ c]
  rfl

theorem r3_arg9 : W3 m ρ c (Proc.devRef .tc main_arg9) = A9 m c := (k3 m ρ c main_arg9 (by decide)).trans (r2_arg9 m ρ c)

theorem r4_arg9 : W4 m ρ c (Proc.devRef .tc main_arg9) = A9 m c := (k4 m ρ c main_arg9 (by decide)).trans (r3_arg9 m ρ c)

theorem r3_arg8 : W3 m ρ c (Proc.devRef .tc main_arg8) = A8 m c := (k3 m ρ c main_arg8 (by decide)).trans (r2_arg8 m ρ c)

theorem r4_arg8 : W4 m ρ c (Proc.devRef .tc main_arg8) = A8 m c := (k4 m ρ c main_arg8 (by decide)).trans (r3_arg8 m ρ c)

theorem r1_arg1 : W1 m ρ c (Proc.devRef .tc main_arg1) = A1 m c := (k1 m ρ c main_arg1 (by decide)).trans (r0_arg1 m ρ c)

theorem r2_arg1 : W2 m ρ c (Proc.devRef .tc main_arg1) = A1 m c := (k2 m ρ c main_arg1 (by decide)).trans (r1_arg1 m ρ c)

theorem r3_arg1 : W3 m ρ c (Proc.devRef .tc main_arg1) = A1 m c := (k3 m ρ c main_arg1 (by decide)).trans (r2_arg1 m ρ c)

theorem r4_arg1 : W4 m ρ c (Proc.devRef .tc main_arg1) = A1 m c := (k4 m ρ c main_arg1 (by decide)).trans (r3_arg1 m ρ c)

set_option maxHeartbeats 2000000 in
theorem r5_v60 : W5 m ρ c (Proc.devRef .tc main_v60) = UA1 m c := by
  show after hostOps2 (W4 m ρ c) (Proc.devRef .tc main_v60) = _
  simp only [hostOps2]
  after_results_simp
  simp only [r4_v50 m ρ c, r4_arg9 m ρ c, r4_arg8 m ρ c, r4_arg1 m ρ c] <;> rfl

set_option maxHeartbeats 2000000 in
theorem r5_v61 : W5 m ρ c (Proc.devRef .tc main_v61) = TA m c := by
  show after hostOps2 (W4 m ρ c) (Proc.devRef .tc main_v61) = _
  simp only [hostOps2]
  after_results_simp
  simp only [r4_v50 m ρ c, r4_arg9 m ρ c, r4_arg8 m ρ c, r4_arg1 m ρ c] <;> rfl

theorem r5_v50 : W5 m ρ c (Proc.devRef .tc main_v50) = F1 m c := (k5 m ρ c main_v50 (by decide)).trans (r4_v50 m ρ c)

theorem r6_v62_0 : W6 m ρ c (Proc.devRef .tc main_v62_0) = FN1 m c := by
  refine (W6_arr m ρ c 2).trans ((Cert.KernelIdeal.Reg2.arr_2 (V5 m ρ) c).trans ?_)
  rw [show V5 m ρ c main_v50 = F1 m c from r5_v50 m ρ c]
  rfl

theorem r6_v62_1 : W6 m ρ c (Proc.devRef .tc main_v62_1) = FR1 m c := by
  refine (W6_arr m ρ c 3).trans ((Cert.KernelIdeal.Reg2.arr_3 (V5 m ρ) c).trans ?_)
  rw [show V5 m ρ c main_v50 = F1 m c from r5_v50 m ρ c, show V5 m ρ c main_v61 = TA m c from r5_v61 m ρ c]
  rfl

theorem r5_arg1 : W5 m ρ c (Proc.devRef .tc main_arg1) = A1 m c := (k5 m ρ c main_arg1 (by decide)).trans (r4_arg1 m ρ c)

theorem r6_arg1 : W6 m ρ c (Proc.devRef .tc main_arg1) = A1 m c := (k6 m ρ c main_arg1 (by decide)).trans (r5_arg1 m ρ c)

set_option maxHeartbeats 2000000 in
theorem r7_v63 : W7 m ρ c (Proc.devRef .tc main_v63) = BA m c := by
  show after hostOps3 (W6 m ρ c) (Proc.devRef .tc main_v63) = _
  simp only [hostOps3]
  after_results_simp
  simp only [r6_arg1 m ρ c] <;> rfl

theorem r4_v30 : W4 m ρ c (Proc.devRef .tc main_v30) = AT1 m c := (k4 m ρ c main_v30 (by decide)).trans (r3_v30 m ρ c)

theorem r5_v30 : W5 m ρ c (Proc.devRef .tc main_v30) = AT1 m c := (k5 m ρ c main_v30 (by decide)).trans (r4_v30 m ρ c)

theorem r6_v30 : W6 m ρ c (Proc.devRef .tc main_v30) = AT1 m c := (k6 m ρ c main_v30 (by decide)).trans (r5_v30 m ρ c)

theorem r7_v30 : W7 m ρ c (Proc.devRef .tc main_v30) = AT1 m c := (k7 m ρ c main_v30 (by decide)).trans (r6_v30 m ρ c)

theorem r8_v64_0 : W8 m ρ c (Proc.devRef .tc main_v64_0) = AN1 m c := by
  refine (W8_arr m ρ c 2).trans ((Cert.KernelIdeal.Reg3.arr_2 (V7 m ρ) c).trans ?_)
  rw [show V7 m ρ c main_v30 = AT1 m c from r7_v30 m ρ c]
  rfl

theorem r8_v64_1 : W8 m ρ c (Proc.devRef .tc main_v64_1) = AR1 m c := by
  refine (W8_arr m ρ c 3).trans ((Cert.KernelIdeal.Reg3.arr_3 (V7 m ρ) c).trans ?_)
  rw [show V7 m ρ c main_v30 = AT1 m c from r7_v30 m ρ c, show V7 m ρ c main_v63 = BA m c from r7_v63 m ρ c]
  rfl

theorem r7_v62_1 : W7 m ρ c (Proc.devRef .tc main_v62_1) = FR1 m c := (k7 m ρ c main_v62_1 (by decide)).trans (r6_v62_1 m ρ c)

theorem r8_v62_1 : W8 m ρ c (Proc.devRef .tc main_v62_1) = FR1 m c := (k8 m ρ c main_v62_1 (by decide)).trans (r7_v62_1 m ρ c)

set_option maxHeartbeats 2000000 in
theorem r9_v65 : W9 m ρ c (Proc.devRef .tc main_v65) = ER1 m c := by
  show after hostOps4 (W8 m ρ c) (Proc.devRef .tc main_v65) = _
  simp only [hostOps4]
  after_results_simp
  show _ = Cert.Stage.cat (FR1 m c) (AR1 m c)
  rw [← r8_v62_1 m ρ c, ← r8_v64_1 m ρ c]
  rfl

theorem r6_v60 : W6 m ρ c (Proc.devRef .tc main_v60) = UA1 m c := (k6 m ρ c main_v60 (by decide)).trans (r5_v60 m ρ c)

theorem r7_v60 : W7 m ρ c (Proc.devRef .tc main_v60) = UA1 m c := (k7 m ρ c main_v60 (by decide)).trans (r6_v60 m ρ c)

theorem r8_v60 : W8 m ρ c (Proc.devRef .tc main_v60) = UA1 m c := (k8 m ρ c main_v60 (by decide)).trans (r7_v60 m ρ c)

theorem r9_v60 : W9 m ρ c (Proc.devRef .tc main_v60) = UA1 m c := (k9 m ρ c main_v60 (by decide)).trans (r8_v60 m ρ c)

theorem r3_arg0 : W3 m ρ c (Proc.devRef .tc main_arg0) = A0 m c := (k3 m ρ c main_arg0 (by decide)).trans (r2_arg0 m ρ c)

theorem r4_arg0 : W4 m ρ c (Proc.devRef .tc main_arg0) = A0 m c := (k4 m ρ c main_arg0 (by decide)).trans (r3_arg0 m ρ c)

theorem r5_arg0 : W5 m ρ c (Proc.devRef .tc main_arg0) = A0 m c := (k5 m ρ c main_arg0 (by decide)).trans (r4_arg0 m ρ c)

theorem r6_arg0 : W6 m ρ c (Proc.devRef .tc main_arg0) = A0 m c := (k6 m ρ c main_arg0 (by decide)).trans (r5_arg0 m ρ c)

theorem r7_arg0 : W7 m ρ c (Proc.devRef .tc main_arg0) = A0 m c := (k7 m ρ c main_arg0 (by decide)).trans (r6_arg0 m ρ c)

theorem r8_arg0 : W8 m ρ c (Proc.devRef .tc main_arg0) = A0 m c := (k8 m ρ c main_arg0 (by decide)).trans (r7_arg0 m ρ c)

theorem r9_arg0 : W9 m ρ c (Proc.devRef .tc main_arg0) = A0 m c := (k9 m ρ c main_arg0 (by decide)).trans (r8_arg0 m ρ c)

theorem r10_v66_0 : W10 m ρ c (Proc.devRef .tc main_v66_0) = UE1 m c := by
  refine (W10_arr m ρ c 2).trans ((Cert.KernelIdeal.Reg4.arr_2 (V9 m ρ) c).trans ?_)
  rw [show V9 m ρ c main_v60 = UA1 m c from r9_v60 m ρ c]
  rfl

theorem r10_v66_1 : W10 m ρ c (Proc.devRef .tc main_v66_1) = UR1 m c := by
  refine (W10_arr m ρ c 3).trans ((Cert.KernelIdeal.Reg4.arr_3 (V9 m ρ) c).trans ?_)
  rw [show V9 m ρ c main_v60 = UA1 m c from r9_v60 m ρ c, show V9 m ρ c main_arg0 = A0 m c from r9_arg0 m ρ c]
  rfl

theorem r4_v29 : W4 m ρ c (Proc.devRef .tc main_v29) = IK1 m c := ((W4_arr m ρ c 0).trans (((dat1 (V3 m ρ) c).arrAt_in 0 rfl _).trans (A_eq1 (V3 m ρ) c 0))).trans (r3_v29 m ρ c)

theorem r5_v29 : W5 m ρ c (Proc.devRef .tc main_v29) = IK1 m c := (k5 m ρ c main_v29 (by decide)).trans (r4_v29 m ρ c)

theorem r6_v29 : W6 m ρ c (Proc.devRef .tc main_v29) = IK1 m c := (k6 m ρ c main_v29 (by decide)).trans (r5_v29 m ρ c)

theorem r7_v29 : W7 m ρ c (Proc.devRef .tc main_v29) = IK1 m c := (k7 m ρ c main_v29 (by decide)).trans (r6_v29 m ρ c)

theorem r8_v29 : W8 m ρ c (Proc.devRef .tc main_v29) = IK1 m c := (k8 m ρ c main_v29 (by decide)).trans (r7_v29 m ρ c)

theorem r9_v29 : W9 m ρ c (Proc.devRef .tc main_v29) = IK1 m c := (k9 m ρ c main_v29 (by decide)).trans (r8_v29 m ρ c)

theorem r10_v29 : W10 m ρ c (Proc.devRef .tc main_v29) = IK1 m c := (k10 m ρ c main_v29 (by decide)).trans (r9_v29 m ρ c)

theorem r2_v0 : W2 m ρ c (Proc.devRef .tc main_v0) = Cert.Stage.zeros50 := (k2 m ρ c main_v0 (by decide)).trans (r1_v0 m ρ c)

theorem r3_v0 : W3 m ρ c (Proc.devRef .tc main_v0) = Cert.Stage.zeros50 := (k3 m ρ c main_v0 (by decide)).trans (r2_v0 m ρ c)

theorem r4_v0 : W4 m ρ c (Proc.devRef .tc main_v0) = Cert.Stage.zeros50 := (k4 m ρ c main_v0 (by decide)).trans (r3_v0 m ρ c)

theorem r5_v0 : W5 m ρ c (Proc.devRef .tc main_v0) = Cert.Stage.zeros50 := (k5 m ρ c main_v0 (by decide)).trans (r4_v0 m ρ c)

theorem r6_v0 : W6 m ρ c (Proc.devRef .tc main_v0) = Cert.Stage.zeros50 := (k6 m ρ c main_v0 (by decide)).trans (r5_v0 m ρ c)

theorem r7_v0 : W7 m ρ c (Proc.devRef .tc main_v0) = Cert.Stage.zeros50 := (k7 m ρ c main_v0 (by decide)).trans (r6_v0 m ρ c)

theorem r8_v0 : W8 m ρ c (Proc.devRef .tc main_v0) = Cert.Stage.zeros50 := (k8 m ρ c main_v0 (by decide)).trans (r7_v0 m ρ c)

theorem r9_v0 : W9 m ρ c (Proc.devRef .tc main_v0) = Cert.Stage.zeros50 := (k9 m ρ c main_v0 (by decide)).trans (r8_v0 m ρ c)

theorem r10_v0 : W10 m ρ c (Proc.devRef .tc main_v0) = Cert.Stage.zeros50 := (k10 m ρ c main_v0 (by decide)).trans (r9_v0 m ρ c)

theorem r11_v67_1 : W11 m ρ c (Proc.devRef .tc main_v67_1) = KR1 m c := by
  refine (W11_arr m ρ c 3).trans ((Cert.KernelIdeal.Reg5.arr_3 (V10 m ρ) c).trans ?_)
  rw [show V10 m ρ c main_v29 = IK1 m c from r10_v29 m ρ c, show V10 m ρ c main_v0 = Cert.Stage.zeros50 from r10_v0 m ρ c]
  rfl

theorem r4_v49 : W4 m ρ c (Proc.devRef .tc main_v49) = II1 m c := ((W4_arr m ρ c 1).trans (((dat1 (V3 m ρ) c).arrAt_in 1 rfl _).trans (A_eq1 (V3 m ρ) c 1))).trans (r3_v49 m ρ c)

theorem r5_v49 : W5 m ρ c (Proc.devRef .tc main_v49) = II1 m c := (k5 m ρ c main_v49 (by decide)).trans (r4_v49 m ρ c)

theorem r6_v49 : W6 m ρ c (Proc.devRef .tc main_v49) = II1 m c := (k6 m ρ c main_v49 (by decide)).trans (r5_v49 m ρ c)

theorem r7_v49 : W7 m ρ c (Proc.devRef .tc main_v49) = II1 m c := (k7 m ρ c main_v49 (by decide)).trans (r6_v49 m ρ c)

theorem r8_v49 : W8 m ρ c (Proc.devRef .tc main_v49) = II1 m c := (k8 m ρ c main_v49 (by decide)).trans (r7_v49 m ρ c)

theorem r9_v49 : W9 m ρ c (Proc.devRef .tc main_v49) = II1 m c := (k9 m ρ c main_v49 (by decide)).trans (r8_v49 m ρ c)

theorem r10_v49 : W10 m ρ c (Proc.devRef .tc main_v49) = II1 m c := (k10 m ρ c main_v49 (by decide)).trans (r9_v49 m ρ c)

theorem r11_v49 : W11 m ρ c (Proc.devRef .tc main_v49) = II1 m c := (k11 m ρ c main_v49 (by decide)).trans (r10_v49 m ρ c)

theorem r2_v1 : W2 m ρ c (Proc.devRef .tc main_v1) = Cert.Stage.zeros50 := (k2 m ρ c main_v1 (by decide)).trans (r1_v1 m ρ c)

theorem r3_v1 : W3 m ρ c (Proc.devRef .tc main_v1) = Cert.Stage.zeros50 := (k3 m ρ c main_v1 (by decide)).trans (r2_v1 m ρ c)

theorem r4_v1 : W4 m ρ c (Proc.devRef .tc main_v1) = Cert.Stage.zeros50 := (k4 m ρ c main_v1 (by decide)).trans (r3_v1 m ρ c)

theorem r5_v1 : W5 m ρ c (Proc.devRef .tc main_v1) = Cert.Stage.zeros50 := (k5 m ρ c main_v1 (by decide)).trans (r4_v1 m ρ c)

theorem r6_v1 : W6 m ρ c (Proc.devRef .tc main_v1) = Cert.Stage.zeros50 := (k6 m ρ c main_v1 (by decide)).trans (r5_v1 m ρ c)

theorem r7_v1 : W7 m ρ c (Proc.devRef .tc main_v1) = Cert.Stage.zeros50 := (k7 m ρ c main_v1 (by decide)).trans (r6_v1 m ρ c)

theorem r8_v1 : W8 m ρ c (Proc.devRef .tc main_v1) = Cert.Stage.zeros50 := (k8 m ρ c main_v1 (by decide)).trans (r7_v1 m ρ c)

theorem r9_v1 : W9 m ρ c (Proc.devRef .tc main_v1) = Cert.Stage.zeros50 := (k9 m ρ c main_v1 (by decide)).trans (r8_v1 m ρ c)

theorem r10_v1 : W10 m ρ c (Proc.devRef .tc main_v1) = Cert.Stage.zeros50 := (k10 m ρ c main_v1 (by decide)).trans (r9_v1 m ρ c)

theorem r11_v1 : W11 m ρ c (Proc.devRef .tc main_v1) = Cert.Stage.zeros50 := (k11 m ρ c main_v1 (by decide)).trans (r10_v1 m ρ c)

theorem r12_v68_1 : W12 m ρ c (Proc.devRef .tc main_v68_1) = IR1 m c := by
  refine (W12_arr m ρ c 3).trans ((Cert.KernelIdeal.Reg6.arr_3 (V11 m ρ) c).trans ?_)
  rw [show V11 m ρ c main_v49 = II1 m c from r11_v49 m ρ c, show V11 m ρ c main_v1 = Cert.Stage.zeros50 from r11_v1 m ρ c]
  rfl

end Cert.KernelIdeal.Chain

end
-- ==== Proof.Reg8.lean ====
/-
  The gated fusion, block of rows by block of rows.

  The region computes the gate of two matrices of 50,000 rows and 64 columns under two 64 x 64 weights, 5000 rows at a
  grid point: point t reads rows 5000 t ... 5000 t + 4999 of both matrices and the whole of both weights (their windows
  stay at block (0, 0)), and writes the same rows of the result. The gate's entry at (p, q) depends only on row p of the
  two matrices and on the weights, so the gate of the two blocks at (p, q) is the gate of the whole matrices at
  (5000 t + p, q). The 10 blocks tile the result; so after the region the result array is the gate of the two arrays and
  the two weights as the region found them.
-/
import proofs.«124958_j46205258170764_2_alg».proof.Proof.Gen.KernelIdeal.Frame
import Idealize.ShloMosaic.Lib.Pipeline.Value
import Idealize.ShloMosaic.Lib.ValueIdx
import proofs.«124958_j46205258170764_2_alg».proof.Proof.Spec
import proofs.«124958_j46205258170764_2_alg».proof.Proof.GateBlock

noncomputable section

namespace Cert.KernelIdeal.Reg8

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The gate of two arrays of 50,000 rows under two weights. -/
abbrev G (a0 a1 : S50000x64.Idx → EReal) (g1 g2 : S64x64.Idx → EReal) : S50000x64.Idx → EReal := Cert.Spec.gate a0 a1 g1 g2

/-- The two row-blocked operands and the result move together, at block index (t, 0); the weights stay at (0, 0). -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- What point t writes back is block t of the gate of the two arrays and the two weights as the region finds them. -/
theorem flushed_eq (c : Dev nD) (t : Fin cfg8.N) :
    (dat8 V c).flushed 4 t = ((cfg8.win 4).blk t).view.read (Elt Ideal)
      (G (V c main_v97) (V c main_v117) (V c main_arg3) (V c main_arg4)) := by
  show (cfg8.win 4).cut (grid8.coords t) ((dat8 V c).after 4 t) = _
  rw [after8_4, Cert.KernelIdeal.GateBlock.out8_4_eq]
  obtain ⟨e00, e01, e10, e11, e20, e21, e30, e31, e40, e41⟩ := idx_facts t
  -- the weights' blocks are the whole weights
  have hw1 : (iblk8 V c 2 t : S64x64.Idx → EReal) = V c main_arg3 := by
    funext y
    show V c main_arg3 (((cfg8.win 2).blk t).view.emb y) = V c main_arg3 y
    refine congrArg _ (funext fun a => Fin.ext ?_)
    match a with
    | ⟨0, _⟩ => show win8_2.index t (0 : Fin 2) * 64 + 1 * (y 0).val = (y 0).val; omega
    | ⟨1, _⟩ => show win8_2.index t (1 : Fin 2) * 64 + 1 * (y 1).val = (y 1).val; omega
  have hw2 : (iblk8 V c 3 t : S64x64.Idx → EReal) = V c main_arg4 := by
    funext y
    show V c main_arg4 (((cfg8.win 3).blk t).view.emb y) = V c main_arg4 y
    refine congrArg _ (funext fun a => Fin.ext ?_)
    match a with
    | ⟨0, _⟩ => show win8_3.index t (0 : Fin 2) * 64 + 1 * (y 0).val = (y 0).val; omega
    | ⟨1, _⟩ => show win8_3.index t (1 : Fin 2) * 64 + 1 * (y 1).val = (y 1).val; omega
  rw [hw1, hw2]
  funext j
  obtain ⟨p, q, rfl⟩ : ∃ (p : Fin 5000) (q : Fin 64), j = ix2 p q := ⟨j 0, j 1, eq_ix2 j⟩
  have hq : (((cfg8.win 4).blk t).view.emb (ix2 p q)) (1 : Fin 2) = q :=
    Fin.ext (by show win8_4.index t (1 : Fin 2) * 64 + 1 * q.val = q.val; omega)
  show Cert.Spec.gateAt (iblk8 V c 0 t) (iblk8 V c 1 t) (V c main_arg3) (V c main_arg4) p q
    = Cert.Spec.gateAt (V c main_v97) (V c main_v117) (V c main_arg3) (V c main_arg4)
        ((((cfg8.win 4).blk t).view.emb (ix2 p q)) (0 : Fin 2)) ((((cfg8.win 4).blk t).view.emb (ix2 p q)) (1 : Fin 2))
  rw [hq]
  refine Cert.Spec.gateAt_congr (V c main_v97) (V c main_v117) (iblk8 V c 0 t) (iblk8 V c 1 t) (V c main_arg3) (V c main_arg4)
    ((((cfg8.win 4).blk t).view.emb (ix2 p q)) (0 : Fin 2)) p q (fun k => ?_) (fun k => ?_)
  · show V c main_v97 (((cfg8.win 0).blk t).view.emb (ix2 p k)) = V c main_v97 (ix2 ((((cfg8.win 4).blk t).view.emb (ix2 p q)) (0 : Fin 2)) k)
    refine congrArg _ (funext fun a => Fin.ext ?_)
    match a with
    | ⟨0, _⟩ => show win8_0.index t (0 : Fin 2) * 5000 + 1 * p.val = win8_4.index t (0 : Fin 2) * 5000 + 1 * p.val; omega
    | ⟨1, _⟩ => show win8_0.index t (1 : Fin 2) * 64 + 1 * k.val = k.val; omega
  · show V c main_v117 (((cfg8.win 1).blk t).view.emb (ix2 p k)) = V c main_v117 (ix2 ((((cfg8.win 4).blk t).view.emb (ix2 p q)) (0 : Fin 2)) k)
    refine congrArg _ (funext fun a => Fin.ext ?_)
    match a with
    | ⟨0, _⟩ => show win8_1.index t (0 : Fin 2) * 5000 + 1 * p.val = win8_4.index t (0 : Fin 2) * 5000 + 1 * p.val; omega
    | ⟨1, _⟩ => show win8_1.index t (1 : Fin 2) * 64 + 1 * k.val = k.val; omega

/-- An index of the result array is in point t's block iff each coordinate is in the block's range on its axis. -/
theorem mem_blk (t : Fin cfg8.N) (i : S50000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v118).slice (win8_4.rect t)).set ↔ _
  rw [View.set_slice_whole, Rect.mem_set_unit]
  exact Iff.rfl

/-- Every index of the result array is in some point's block: row r is in the block of point r / 5000. -/
theorem cover (i : S50000x64.Idx) :
    ∃ t : Fin cfg8.N, (cfg8.win 4).flush t = true ∧ i ∈ ((cfg8.win 4).blk t).view.set := by
  have hi0 : (i 0).val < 50000 := (i 0).isLt
  have hi1 : (i 1).val < 64 := (i 1).isLt
  have hlt : (i 0).val / 5000 < 10 := by omega
  obtain ⟨-, -, -, -, -, -, -, -, e40, e41⟩ := idx_facts (⟨(i 0).val / 5000, hlt⟩ : Fin cfg8.N)
  have e40' : win8_4.index (⟨(i 0).val / 5000, hlt⟩ : Fin cfg8.N) (0 : Fin 2) = (i 0).val / 5000 := e40
  refine ⟨⟨(i 0).val / 5000, hlt⟩, flush8_4 _, ?_⟩
  rw [mem_blk]
  intro a
  match a with
  | ⟨0, _⟩ =>
    show win8_4.index (⟨(i 0).val / 5000, hlt⟩ : Fin cfg8.N) (0 : Fin 2) * 5000 ≤ (i 0).val
      ∧ (i 0).val < win8_4.index (⟨(i 0).val / 5000, hlt⟩ : Fin cfg8.N) (0 : Fin 2) * 5000 + 5000
    rw [e40']; omega
  | ⟨1, _⟩ =>
    show win8_4.index (⟨(i 0).val / 5000, hlt⟩ : Fin cfg8.N) (1 : Fin 2) * 64 ≤ (i 1).val
      ∧ (i 1).val < win8_4.index (⟨(i 0).val / 5000, hlt⟩ : Fin cfg8.N) (1 : Fin 2) * 64 + 64
    rw [e41]; omega

/-- After the region the result array is the gate of the two operand arrays under the two weights as the region found
    them. -/
theorem arr_4 (c : Dev nD) : (dat8 V c).arrAt 4 cfg8.N
    = G (V c main_v97) (V c main_v117) (V c main_arg3) (V c main_arg4) :=
  (dat8 V c).arrAt_eq_of_cover 4 _ (fun t _ => flushed_eq V c t) (cover)

end Cert.KernelIdeal.Reg8

end
-- ==== Proof.Reg9.lean ====
/-
  Region 9: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg9

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- Row p of the x block at point t is row 5000 t + p of the x array. -/
theorem xblk_row (c : Dev nD) (t : Fin cfg9.N) (p : Fin 5000) (k : Fin 64) (P : Fin 50000)
    (hP : P.val = t.val * 5000 + p.val) :
    (Gen.iblk9 V c 0 t : Cert.Spec.Mat 5000 64) (ix2 p k) = (V c main_v118 : Cert.Spec.Mat 50000 64) (ix2 P k) := by
  obtain ⟨e0, e1, -⟩ := idx_facts t
  show V c main_v118 (((cfg9.win 0).blk t).view.emb (ix2 p k)) = V c main_v118 (ix2 P k)
  refine congrArg (V c main_v118) (funext fun a => Fin.ext ?_)
  match a with
  | ⟨0, _⟩ => show win9_0.index t (0 : Fin 2) * 5000 + 1 * p.val = P.val; omega
  | ⟨1, _⟩ => show win9_0.index t (1 : Fin 2) * 64 + 1 * k.val = k.val; omega

/-- What point t writes back to the first result is block t of the normalised x array. -/
theorem flushed_2 (c : Dev nD) (t : Fin cfg9.N) :
    (Gen.dat9 (F := Ideal) V c).flushed 2 t
      = ((cfg9.win 2).blk t).view.read (Elt Ideal) (Cert.Spec.normed (V c main_v118 : Cert.Spec.Mat 50000 64)) := by
  show (cfg9.win 2).cut (grid9.coords t) ((Gen.dat9 (F := Ideal) V c).after 2 t) = _
  rw [Gen.after9_2, NormBlock.out9_2_eq (Gen.iblk9 V c 0 t) (Gen.iblk9 V c 1 t)]
  obtain ⟨-, -, -, -, e4, e5, -⟩ := idx_facts t
  funext j
  show Cert.Spec.normed (Gen.iblk9 V c 0 t : Cert.Spec.Mat 5000 64) j
    = Cert.Spec.normed (V c main_v118 : Cert.Spec.Mat 50000 64) (((cfg9.win 2).blk t).view.emb j)
  refine Cert.Spec.normed_of_rows (V c main_v118 : Cert.Spec.Mat 50000 64) (Gen.iblk9 V c 0 t : Cert.Spec.Mat 5000 64)
    (((cfg9.win 2).blk t).view.emb j) j ?_ fun k => ?_
  · show win9_2.index t (1 : Fin 2) * 64 + 1 * (j 1).val = (j 1).val; omega
  · refine xblk_row V c t (j 0) k _ ?_
    show win9_2.index t (0 : Fin 2) * 5000 + 1 * (j 0).val = t.val * 5000 + (j 0).val; omega

/-- What point t writes back to the second result is block t of res plus the normalised x. -/
theorem flushed_3 (c : Dev nD) (t : Fin cfg9.N) :
    (Gen.dat9 (F := Ideal) V c).flushed 3 t
      = ((cfg9.win 3).blk t).view.read (Elt Ideal)
          (Cert.Spec.resAdd (V c main_v118 : Cert.Spec.Mat 50000 64) (V c main_v129 : Cert.Spec.Mat 50000 64)) := by
  show (cfg9.win 3).cut (grid9.coords t) ((Gen.dat9 (F := Ideal) V c).after 3 t) = _
  rw [Gen.after9_3, NormBlock.out9_3_eq (Gen.iblk9 V c 0 t) (Gen.iblk9 V c 1 t)]
  obtain ⟨-, -, e2, e3, -, -, e6, e7⟩ := idx_facts t
  funext j
  show Cert.Spec.resAdd (Gen.iblk9 V c 0 t : Cert.Spec.Mat 5000 64) (Gen.iblk9 V c 1 t : Cert.Spec.Mat 5000 64) j
    = Cert.Spec.resAdd (V c main_v118 : Cert.Spec.Mat 50000 64) (V c main_v129 : Cert.Spec.Mat 50000 64) (((cfg9.win 3).blk t).view.emb j)
  refine Cert.Spec.resAdd_of_rows (V c main_v118 : Cert.Spec.Mat 50000 64) (V c main_v129 : Cert.Spec.Mat 50000 64)
    (Gen.iblk9 V c 0 t : Cert.Spec.Mat 5000 64) (Gen.iblk9 V c 1 t : Cert.Spec.Mat 5000 64)
    (((cfg9.win 3).blk t).view.emb j) j ?_ (fun k => ?_) ?_
  · show win9_3.index t (1 : Fin 2) * 64 + 1 * (j 1).val = (j 1).val; omega
  · refine xblk_row V c t (j 0) k _ ?_
    show win9_3.index t (0 : Fin 2) * 5000 + 1 * (j 0).val = t.val * 5000 + (j 0).val; omega
  · show V c main_v129 (((cfg9.win 1).blk t).view.emb j) = V c main_v129 (((cfg9.win 3).blk t).view.emb j)
    refine congrArg (V c main_v129) (funext fun a => Fin.ext ?_)
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 64 + 1 * (j 1).val = win9_3.index t (1 : Fin 2) * 64 + 1 * (j 1).val; omega

/-- An index of the first result's array is in point t's block iff each coordinate is in the block's range. -/
theorem mem_blk_2 (t : Fin cfg9.N) (i : S50000x64.Idx) :
    i ∈ ((cfg9.win 2).blk t).view.set ↔ ∀ a : Fin 2, win9_2.index t a * S5000x64.size a ≤ (i a).val
      ∧ (i a).val < win9_2.index t a * S5000x64.size a + S5000x64.size a := by
  show i ∈ ((View.whole main_v130_0).slice (win9_2.rect t)).set ↔ _
  rw [View.set_slice_whole, Rect.mem_set_unit]
  exact Iff.rfl

/-- The same for the second result's array. -/
theorem mem_blk_3 (t : Fin cfg9.N) (i : S50000x64.Idx) :
    i ∈ ((cfg9.win 3).blk t).view.set ↔ ∀ a : Fin 2, win9_3.index t a * S5000x64.size a ≤ (i a).val
      ∧ (i a).val < win9_3.index t a * S5000x64.size a + S5000x64.size a := by
  show i ∈ ((View.whole main_v130_1).slice (win9_3.rect t)).set ↔ _
  rw [View.set_slice_whole, Rect.mem_set_unit]
  exact Iff.rfl

/-- The point that covers row r is r / 5000. -/
theorem point_of_row (r : Nat) (hr : r < 50000) : ∃ t : Fin cfg9.N, t.val * 5000 ≤ r ∧ r < t.val * 5000 + 5000 := by
  have hN : grid9.N = 10 := Gen.N_9
  refine ⟨⟨r / 5000, ?_⟩, ?_, ?_⟩
  · show r / 5000 < grid9.N
    rw [hN]; omega
  · show r / 5000 * 5000 ≤ r; omega
  · show r < r / 5000 * 5000 + 5000; omega

/-- Every index of the first result's array is in some point's block. -/
theorem cover_2 (i : S50000x64.Idx) : ∃ t : Fin cfg9.N, (cfg9.win 2).flush t = true ∧ i ∈ ((cfg9.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush9_2 t, ?_⟩
  rw [mem_blk_2]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 64 ≤ (i 1).val ∧ (i 1).val < win9_2.index t (1 : Fin 2) * 64 + 64; omega

/-- Every index of the second result's array is in some point's block. -/
theorem cover_3 (i : S50000x64.Idx) : ∃ t : Fin cfg9.N, (cfg9.win 3).flush t = true ∧ i ∈ ((cfg9.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush9_3 t, ?_⟩
  rw [mem_blk_3]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 64 ≤ (i 1).val ∧ (i 1).val < win9_3.index t (1 : Fin 2) * 64 + 64; omega

/-- After the region the first result array is the row-normalised x array. -/
theorem arr_2 (c : Dev nD) :
    (Gen.dat9 (F := Ideal) V c).arrAt 2 cfg9.N = Cert.Spec.normed (V c main_v118 : Cert.Spec.Mat 50000 64) :=
  (Gen.dat9 (F := Ideal) V c).arrAt_eq_of_cover 2 (Cert.Spec.normed (V c main_v118 : Cert.Spec.Mat 50000 64))
    (fun t _ => flushed_2 V c t) cover_2

/-- After the region the second result array is res plus the row-normalised x array. -/
theorem arr_3 (c : Dev nD) :
    (Gen.dat9 (F := Ideal) V c).arrAt 3 cfg9.N
      = Cert.Spec.resAdd (V c main_v118 : Cert.Spec.Mat 50000 64) (V c main_v129 : Cert.Spec.Mat 50000 64) :=
  (Gen.dat9 (F := Ideal) V c).arrAt_eq_of_cover 3
    (Cert.Spec.resAdd (V c main_v118 : Cert.Spec.Mat 50000 64) (V c main_v129 : Cert.Spec.Mat 50000 64))
    (fun t _ => flushed_3 V c t) cover_3

end Cert.KernelIdeal.Reg9

end
-- ==== Proof.Reg10.lean ====
/-
  Region 10: the row normalisation with residual over a matrix of 100000 rows, from blocks to arrays.

  The grid has 20 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg10

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

/-- Row p of the x block at point t is row 5000 t + p of the x array. -/
theorem xblk_row (c : Dev nD) (t : Fin cfg10.N) (p : Fin 5000) (k : Fin 64) (P : Fin 100000)
    (hP : P.val = t.val * 5000 + p.val) :
    (Gen.iblk10 V c 0 t : Cert.Spec.Mat 5000 64) (ix2 p k) = (V c main_v98 : Cert.Spec.Mat 100000 64) (ix2 P k) := by
  obtain ⟨e0, e1, -⟩ := idx_facts t
  show V c main_v98 (((cfg10.win 0).blk t).view.emb (ix2 p k)) = V c main_v98 (ix2 P k)
  refine congrArg (V c main_v98) (funext fun a => Fin.ext ?_)
  match a with
  | ⟨0, _⟩ => show win10_0.index t (0 : Fin 2) * 5000 + 1 * p.val = P.val; omega
  | ⟨1, _⟩ => show win10_0.index t (1 : Fin 2) * 64 + 1 * k.val = k.val; omega

/-- What point t writes back to the first result is block t of the normalised x array. -/
theorem flushed_2 (c : Dev nD) (t : Fin cfg10.N) :
    (Gen.dat10 (F := Ideal) V c).flushed 2 t
      = ((cfg10.win 2).blk t).view.read (Elt Ideal) (Cert.Spec.normed (V c main_v98 : Cert.Spec.Mat 100000 64)) := by
  show (cfg10.win 2).cut (grid10.coords t) ((Gen.dat10 (F := Ideal) V c).after 2 t) = _
  rw [Gen.after10_2, NormBlock.out10_2_eq (Gen.iblk10 V c 0 t) (Gen.iblk10 V c 1 t)]
  obtain ⟨-, -, -, -, e4, e5, -⟩ := idx_facts t
  funext j
  show Cert.Spec.normed (Gen.iblk10 V c 0 t : Cert.Spec.Mat 5000 64) j
    = Cert.Spec.normed (V c main_v98 : Cert.Spec.Mat 100000 64) (((cfg10.win 2).blk t).view.emb j)
  refine Cert.Spec.normed_of_rows (V c main_v98 : Cert.Spec.Mat 100000 64) (Gen.iblk10 V c 0 t : Cert.Spec.Mat 5000 64)
    (((cfg10.win 2).blk t).view.emb j) j ?_ fun k => ?_
  · show win10_2.index t (1 : Fin 2) * 64 + 1 * (j 1).val = (j 1).val; omega
  · refine xblk_row V c t (j 0) k _ ?_
    show win10_2.index t (0 : Fin 2) * 5000 + 1 * (j 0).val = t.val * 5000 + (j 0).val; omega

/-- What point t writes back to the second result is block t of res plus the normalised x. -/
theorem flushed_3 (c : Dev nD) (t : Fin cfg10.N) :
    (Gen.dat10 (F := Ideal) V c).flushed 3 t
      = ((cfg10.win 3).blk t).view.read (Elt Ideal)
          (Cert.Spec.resAdd (V c main_v98 : Cert.Spec.Mat 100000 64) (V c main_v131 : Cert.Spec.Mat 100000 64)) := by
  show (cfg10.win 3).cut (grid10.coords t) ((Gen.dat10 (F := Ideal) V c).after 3 t) = _
  rw [Gen.after10_3, NormBlock.out10_3_eq (Gen.iblk10 V c 0 t) (Gen.iblk10 V c 1 t)]
  obtain ⟨-, -, e2, e3, -, -, e6, e7⟩ := idx_facts t
  funext j
  show Cert.Spec.resAdd (Gen.iblk10 V c 0 t : Cert.Spec.Mat 5000 64) (Gen.iblk10 V c 1 t : Cert.Spec.Mat 5000 64) j
    = Cert.Spec.resAdd (V c main_v98 : Cert.Spec.Mat 100000 64) (V c main_v131 : Cert.Spec.Mat 100000 64) (((cfg10.win 3).blk t).view.emb j)
  refine Cert.Spec.resAdd_of_rows (V c main_v98 : Cert.Spec.Mat 100000 64) (V c main_v131 : Cert.Spec.Mat 100000 64)
    (Gen.iblk10 V c 0 t : Cert.Spec.Mat 5000 64) (Gen.iblk10 V c 1 t : Cert.Spec.Mat 5000 64)
    (((cfg10.win 3).blk t).view.emb j) j ?_ (fun k => ?_) ?_
  · show win10_3.index t (1 : Fin 2) * 64 + 1 * (j 1).val = (j 1).val; omega
  · refine xblk_row V c t (j 0) k _ ?_
    show win10_3.index t (0 : Fin 2) * 5000 + 1 * (j 0).val = t.val * 5000 + (j 0).val; omega
  · show V c main_v131 (((cfg10.win 1).blk t).view.emb j) = V c main_v131 (((cfg10.win 3).blk t).view.emb j)
    refine congrArg (V c main_v131) (funext fun a => Fin.ext ?_)
    match a with
    | ⟨0, _⟩ => show win10_1.index t (0 : Fin 2) * 5000 + 1 * (j 0).val = win10_3.index t (0 : Fin 2) * 5000 + 1 * (j 0).val; omega
    | ⟨1, _⟩ => show win10_1.index t (1 : Fin 2) * 64 + 1 * (j 1).val = win10_3.index t (1 : Fin 2) * 64 + 1 * (j 1).val; omega

/-- An index of the first result's array is in point t's block iff each coordinate is in the block's range. -/
theorem mem_blk_2 (t : Fin cfg10.N) (i : S100000x64.Idx) :
    i ∈ ((cfg10.win 2).blk t).view.set ↔ ∀ a : Fin 2, win10_2.index t a * S5000x64.size a ≤ (i a).val
      ∧ (i a).val < win10_2.index t a * S5000x64.size a + S5000x64.size a := by
  show i ∈ ((View.whole main_v132_0).slice (win10_2.rect t)).set ↔ _
  rw [View.set_slice_whole, Rect.mem_set_unit]
  exact Iff.rfl

/-- The same for the second result's array. -/
theorem mem_blk_3 (t : Fin cfg10.N) (i : S100000x64.Idx) :
    i ∈ ((cfg10.win 3).blk t).view.set ↔ ∀ a : Fin 2, win10_3.index t a * S5000x64.size a ≤ (i a).val
      ∧ (i a).val < win10_3.index t a * S5000x64.size a + S5000x64.size a := by
  show i ∈ ((View.whole main_v132_1).slice (win10_3.rect t)).set ↔ _
  rw [View.set_slice_whole, Rect.mem_set_unit]
  exact Iff.rfl

/-- The point that covers row r is r / 5000. -/
theorem point_of_row (r : Nat) (hr : r < 100000) : ∃ t : Fin cfg10.N, t.val * 5000 ≤ r ∧ r < t.val * 5000 + 5000 := by
  have hN : grid10.N = 20 := Gen.N_10
  refine ⟨⟨r / 5000, ?_⟩, ?_, ?_⟩
  · show r / 5000 < grid10.N
    rw [hN]; omega
  · show r / 5000 * 5000 ≤ r; omega
  · show r < r / 5000 * 5000 + 5000; omega

/-- Every index of the first result's array is in some point's block. -/
theorem cover_2 (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  obtain ⟨t, h0, h1⟩ := point_of_row (i 0).val hi0
  obtain ⟨-, -, -, -, e4, e5, -⟩ := idx_facts t
  refine ⟨t, Gen.flush10_2 t, ?_⟩
  rw [mem_blk_2]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 64 ≤ (i 1).val ∧ (i 1).val < win10_2.index t (1 : Fin 2) * 64 + 64; omega

/-- Every index of the second result's array is in some point's block. -/
theorem cover_3 (i : S100000x64.Idx) : ∃ t : Fin cfg10.N, (cfg10.win 3).flush t = true ∧ i ∈ ((cfg10.win 3).blk t).view.set := by
  have hi0 : (i 0).val < 100000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush10_3 t, ?_⟩
  rw [mem_blk_3]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 64 ≤ (i 1).val ∧ (i 1).val < win10_3.index t (1 : Fin 2) * 64 + 64; omega

/-- After the region the first result array is the row-normalised x array. -/
theorem arr_2 (c : Dev nD) :
    (Gen.dat10 (F := Ideal) V c).arrAt 2 cfg10.N = Cert.Spec.normed (V c main_v98 : Cert.Spec.Mat 100000 64) :=
  (Gen.dat10 (F := Ideal) V c).arrAt_eq_of_cover 2 (Cert.Spec.normed (V c main_v98 : Cert.Spec.Mat 100000 64))
    (fun t _ => flushed_2 V c t) cover_2

/-- After the region the second result array is res plus the row-normalised x array. -/
theorem arr_3 (c : Dev nD) :
    (Gen.dat10 (F := Ideal) V c).arrAt 3 cfg10.N
      = Cert.Spec.resAdd (V c main_v98 : Cert.Spec.Mat 100000 64) (V c main_v131 : Cert.Spec.Mat 100000 64) :=
  (Gen.dat10 (F := Ideal) V c).arrAt_eq_of_cover 3
    (Cert.Spec.resAdd (V c main_v98 : Cert.Spec.Mat 100000 64) (V c main_v131 : Cert.Spec.Mat 100000 64))
    (fun t _ => flushed_3 V c t) cover_3

end Cert.KernelIdeal.Reg10

end
-- ==== Proof.Reg11.lean ====
/-
  Region 11: the row normalisation with residual over a matrix of 200000 rows, from blocks to arrays.

  The grid has 40 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg11

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-- Row p of the x block at point t is row 5000 t + p of the x array. -/
theorem xblk_row (c : Dev nD) (t : Fin cfg11.N) (p : Fin 5000) (k : Fin 64) (P : Fin 200000)
    (hP : P.val = t.val * 5000 + p.val) :
    (Gen.iblk11 V c 0 t : Cert.Spec.Mat 5000 64) (ix2 p k) = (V c main_v128 : Cert.Spec.Mat 200000 64) (ix2 P k) := by
  obtain ⟨e0, e1, -⟩ := idx_facts t
  show V c main_v128 (((cfg11.win 0).blk t).view.emb (ix2 p k)) = V c main_v128 (ix2 P k)
  refine congrArg (V c main_v128) (funext fun a => Fin.ext ?_)
  match a with
  | ⟨0, _⟩ => show win11_0.index t (0 : Fin 2) * 5000 + 1 * p.val = P.val; omega
  | ⟨1, _⟩ => show win11_0.index t (1 : Fin 2) * 64 + 1 * k.val = k.val; omega

/-- What point t writes back to the first result is block t of the normalised x array. -/
theorem flushed_2 (c : Dev nD) (t : Fin cfg11.N) :
    (Gen.dat11 (F := Ideal) V c).flushed 2 t
      = ((cfg11.win 2).blk t).view.read (Elt Ideal) (Cert.Spec.normed (V c main_v128 : Cert.Spec.Mat 200000 64)) := by
  show (cfg11.win 2).cut (grid11.coords t) ((Gen.dat11 (F := Ideal) V c).after 2 t) = _
  rw [Gen.after11_2, NormBlock.out11_2_eq (Gen.iblk11 V c 0 t) (Gen.iblk11 V c 1 t)]
  obtain ⟨-, -, -, -, e4, e5, -⟩ := idx_facts t
  funext j
  show Cert.Spec.normed (Gen.iblk11 V c 0 t : Cert.Spec.Mat 5000 64) j
    = Cert.Spec.normed (V c main_v128 : Cert.Spec.Mat 200000 64) (((cfg11.win 2).blk t).view.emb j)
  refine Cert.Spec.normed_of_rows (V c main_v128 : Cert.Spec.Mat 200000 64) (Gen.iblk11 V c 0 t : Cert.Spec.Mat 5000 64)
    (((cfg11.win 2).blk t).view.emb j) j ?_ fun k => ?_
  · show win11_2.index t (1 : Fin 2) * 64 + 1 * (j 1).val = (j 1).val; omega
  · refine xblk_row V c t (j 0) k _ ?_
    show win11_2.index t (0 : Fin 2) * 5000 + 1 * (j 0).val = t.val * 5000 + (j 0).val; omega

/-- What point t writes back to the second result is block t of res plus the normalised x. -/
theorem flushed_3 (c : Dev nD) (t : Fin cfg11.N) :
    (Gen.dat11 (F := Ideal) V c).flushed 3 t
      = ((cfg11.win 3).blk t).view.read (Elt Ideal)
          (Cert.Spec.resAdd (V c main_v128 : Cert.Spec.Mat 200000 64) (V c main_v66_1 : Cert.Spec.Mat 200000 64)) := by
  show (cfg11.win 3).cut (grid11.coords t) ((Gen.dat11 (F := Ideal) V c).after 3 t) = _
  rw [Gen.after11_3, NormBlock.out11_3_eq (Gen.iblk11 V c 0 t) (Gen.iblk11 V c 1 t)]
  obtain ⟨-, -, e2, e3, -, -, e6, e7⟩ := idx_facts t
  funext j
  show Cert.Spec.resAdd (Gen.iblk11 V c 0 t : Cert.Spec.Mat 5000 64) (Gen.iblk11 V c 1 t : Cert.Spec.Mat 5000 64) j
    = Cert.Spec.resAdd (V c main_v128 : Cert.Spec.Mat 200000 64) (V c main_v66_1 : Cert.Spec.Mat 200000 64) (((cfg11.win 3).blk t).view.emb j)
  refine Cert.Spec.resAdd_of_rows (V c main_v128 : Cert.Spec.Mat 200000 64) (V c main_v66_1 : Cert.Spec.Mat 200000 64)
    (Gen.iblk11 V c 0 t : Cert.Spec.Mat 5000 64) (Gen.iblk11 V c 1 t : Cert.Spec.Mat 5000 64)
    (((cfg11.win 3).blk t).view.emb j) j ?_ (fun k => ?_) ?_
  · show win11_3.index t (1 : Fin 2) * 64 + 1 * (j 1).val = (j 1).val; omega
  · refine xblk_row V c t (j 0) k _ ?_
    show win11_3.index t (0 : Fin 2) * 5000 + 1 * (j 0).val = t.val * 5000 + (j 0).val; omega
  · show V c main_v66_1 (((cfg11.win 1).blk t).view.emb j) = V c main_v66_1 (((cfg11.win 3).blk t).view.emb j)
    refine congrArg (V c main_v66_1) (funext fun a => Fin.ext ?_)
    match a with
    | ⟨0, _⟩ => show win11_1.index t (0 : Fin 2) * 5000 + 1 * (j 0).val = win11_3.index t (0 : Fin 2) * 5000 + 1 * (j 0).val; omega
    | ⟨1, _⟩ => show win11_1.index t (1 : Fin 2) * 64 + 1 * (j 1).val = win11_3.index t (1 : Fin 2) * 64 + 1 * (j 1).val; omega

/-- An index of the first result's array is in point t's block iff each coordinate is in the block's range. -/
theorem mem_blk_2 (t : Fin cfg11.N) (i : S200000x64.Idx) :
    i ∈ ((cfg11.win 2).blk t).view.set ↔ ∀ a : Fin 2, win11_2.index t a * S5000x64.size a ≤ (i a).val
      ∧ (i a).val < win11_2.index t a * S5000x64.size a + S5000x64.size a := by
  show i ∈ ((View.whole main_v134_0).slice (win11_2.rect t)).set ↔ _
  rw [View.set_slice_whole, Rect.mem_set_unit]
  exact Iff.rfl

/-- The same for the second result's array. -/
theorem mem_blk_3 (t : Fin cfg11.N) (i : S200000x64.Idx) :
    i ∈ ((cfg11.win 3).blk t).view.set ↔ ∀ a : Fin 2, win11_3.index t a * S5000x64.size a ≤ (i a).val
      ∧ (i a).val < win11_3.index t a * S5000x64.size a + S5000x64.size a := by
  show i ∈ ((View.whole main_v134_1).slice (win11_3.rect t)).set ↔ _
  rw [View.set_slice_whole, Rect.mem_set_unit]
  exact Iff.rfl

/-- The point that covers row r is r / 5000. -/
theorem point_of_row (r : Nat) (hr : r < 200000) : ∃ t : Fin cfg11.N, t.val * 5000 ≤ r ∧ r < t.val * 5000 + 5000 := by
  have hN : grid11.N = 40 := Gen.N_11
  refine ⟨⟨r / 5000, ?_⟩, ?_, ?_⟩
  · show r / 5000 < grid11.N
    rw [hN]; omega
  · show r / 5000 * 5000 ≤ r; omega
  · show r < r / 5000 * 5000 + 5000; omega

/-- Every index of the first result's array is in some point's block. -/
theorem cover_2 (i : S200000x64.Idx) : ∃ t : Fin cfg11.N, (cfg11.win 2).flush t = true ∧ i ∈ ((cfg11.win 2).blk t).view.set := by
  have hi0 : (i 0).val < 200000 := (i 0).isLt
  have hi1 : (i 1).val < 64 := (i 1).isLt
  obtain ⟨t, h0, h1⟩ := point_of_row (i 0).val hi0
  obtain ⟨-, -, -, -, e4, e5, -⟩ := idx_facts t
  refine ⟨t, Gen.flush11_2 t, ?_⟩
  rw [mem_blk_2]
  intro a
  match a with
  | ⟨0, _⟩ => show win11_2.index t (0 : Fin 2) * 5000 ≤ (i 0).val ∧ (i 0).val < win11_2.index t (0 : Fin 2) * 5000 + 5000; omega
  | ⟨1, _⟩ => show win11_2.index t (1 : Fin 2) * 64 ≤ (i 1).val ∧ (i 1).val < win11_2.index t (1 : Fin 2) * 64 + 64; omega

/-- Every index of the second result's array is in some point's block. -/
theorem cover_3 (i : S200000x64.Idx) : ∃ t : Fin cfg11.N, (cfg11.win 3).flush t = true ∧ i ∈ ((cfg11.win 3).blk t).view.set := by
  have hi0 : (i 0).val < 200000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush11_3 t, ?_⟩
  rw [mem_blk_3]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 64 ≤ (i 1).val ∧ (i 1).val < win11_3.index t (1 : Fin 2) * 64 + 64; omega

/-- After the region the first result array is the row-normalised x array. -/
theorem arr_2 (c : Dev nD) :
    (Gen.dat11 (F := Ideal) V c).arrAt 2 cfg11.N = Cert.Spec.normed (V c main_v128 : Cert.Spec.Mat 200000 64) :=
  (Gen.dat11 (F := Ideal) V c).arrAt_eq_of_cover 2 (Cert.Spec.normed (V c main_v128 : Cert.Spec.Mat 200000 64))
    (fun t _ => flushed_2 V c t) cover_2

/-- After the region the second result array is res plus the row-normalised x array. -/
theorem arr_3 (c : Dev nD) :
    (Gen.dat11 (F := Ideal) V c).arrAt 3 cfg11.N
      = Cert.Spec.resAdd (V c main_v128 : Cert.Spec.Mat 200000 64) (V c main_v66_1 : Cert.Spec.Mat 200000 64) :=
  (Gen.dat11 (F := Ideal) V c).arrAt_eq_of_cover 3
    (Cert.Spec.resAdd (V c main_v128 : Cert.Spec.Mat 200000 64) (V c main_v66_1 : Cert.Spec.Mat 200000 64))
    (fun t _ => flushed_3 V c t) cover_3

end Cert.KernelIdeal.Reg11

end
-- ==== Proof.Reg12.lean ====
/-
  Region 12: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg12

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0 :=
  (by decide +kernel : ∀ t : Fin grid12.N, _)

/-- Row p of the x block at point t is row 5000 t + p of the x array. -/
theorem xblk_row (c : Dev nD) (t : Fin cfg12.N) (p : Fin 5000) (k : Fin 64) (P : Fin 50000)
    (hP : P.val = t.val * 5000 + p.val) :
    (Gen.iblk12 V c 0 t : Cert.Spec.Mat 5000 64) (ix2 p k) = (V c main_v97 : Cert.Spec.Mat 50000 64) (ix2 P k) := by
  obtain ⟨e0, e1, -⟩ := idx_facts t
  show V c main_v97 (((cfg12.win 0).blk t).view.emb (ix2 p k)) = V c main_v97 (ix2 P k)
  refine congrArg (V c main_v97) (funext fun a => Fin.ext ?_)
  match a with
  | ⟨0, _⟩ => show win12_0.index t (0 : Fin 2) * 5000 + 1 * p.val = P.val; omega
  | ⟨1, _⟩ => show win12_0.index t (1 : Fin 2) * 64 + 1 * k.val = k.val; omega

/-- What point t writes back to the first result is block t of the normalised x array. -/
theorem flushed_2 (c : Dev nD) (t : Fin cfg12.N) :
    (Gen.dat12 (F := Ideal) V c).flushed 2 t
      = ((cfg12.win 2).blk t).view.read (Elt Ideal) (Cert.Spec.normed (V c main_v97 : Cert.Spec.Mat 50000 64)) := by
  show (cfg12.win 2).cut (grid12.coords t) ((Gen.dat12 (F := Ideal) V c).after 2 t) = _
  rw [Gen.after12_2, NormBlock.out12_2_eq (Gen.iblk12 V c 0 t) (Gen.iblk12 V c 1 t)]
  obtain ⟨-, -, -, -, e4, e5, -⟩ := idx_facts t
  funext j
  show Cert.Spec.normed (Gen.iblk12 V c 0 t : Cert.Spec.Mat 5000 64) j
    = Cert.Spec.normed (V c main_v97 : Cert.Spec.Mat 50000 64) (((cfg12.win 2).blk t).view.emb j)
  refine Cert.Spec.normed_of_rows (V c main_v97 : Cert.Spec.Mat 50000 64) (Gen.iblk12 V c 0 t : Cert.Spec.Mat 5000 64)
    (((cfg12.win 2).blk t).view.emb j) j ?_ fun k => ?_
  · show win12_2.index t (1 : Fin 2) * 64 + 1 * (j 1).val = (j 1).val; omega
  · refine xblk_row V c t (j 0) k _ ?_
    show win12_2.index t (0 : Fin 2) * 5000 + 1 * (j 0).val = t.val * 5000 + (j 0).val; omega

/-- What point t writes back to the second result is block t of res plus the normalised x. -/
theorem flushed_3 (c : Dev nD) (t : Fin cfg12.N) :
    (Gen.dat12 (F := Ideal) V c).flushed 3 t
      = ((cfg12.win 3).blk t).view.read (Elt Ideal)
          (Cert.Spec.resAdd (V c main_v97 : Cert.Spec.Mat 50000 64) (V c main_v67_1 : Cert.Spec.Mat 50000 64)) := by
  show (cfg12.win 3).cut (grid12.coords t) ((Gen.dat12 (F := Ideal) V c).after 3 t) = _
  rw [Gen.after12_3, NormBlock.out12_3_eq (Gen.iblk12 V c 0 t) (Gen.iblk12 V c 1 t)]
  obtain ⟨-, -, e2, e3, -, -, e6, e7⟩ := idx_facts t
  funext j
  show Cert.Spec.resAdd (Gen.iblk12 V c 0 t : Cert.Spec.Mat 5000 64) (Gen.iblk12 V c 1 t : Cert.Spec.Mat 5000 64) j
    = Cert.Spec.resAdd (V c main_v97 : Cert.Spec.Mat 50000 64) (V c main_v67_1 : Cert.Spec.Mat 50000 64) (((cfg12.win 3).blk t).view.emb j)
  refine Cert.Spec.resAdd_of_rows (V c main_v97 : Cert.Spec.Mat 50000 64) (V c main_v67_1 : Cert.Spec.Mat 50000 64)
    (Gen.iblk12 V c 0 t : Cert.Spec.Mat 5000 64) (Gen.iblk12 V c 1 t : Cert.Spec.Mat 5000 64)
    (((cfg12.win 3).blk t).view.emb j) j ?_ (fun k => ?_) ?_
  · show win12_3.index t (1 : Fin 2) * 64 + 1 * (j 1).val = (j 1).val; omega
  · refine xblk_row V c t (j 0) k _ ?_
    show win12_3.index t (0 : Fin 2) * 5000 + 1 * (j 0).val = t.val * 5000 + (j 0).val; omega
  · show V c main_v67_1 (((cfg12.win 1).blk t).view.emb j) = V c main_v67_1 (((cfg12.win 3).blk t).view.emb j)
    refine congrArg (V c main_v67_1) (funext fun a => Fin.ext ?_)
    match a with
    | ⟨0, _⟩ => show win12_1.index t (0 : Fin 2) * 5000 + 1 * (j 0).val = win12_3.index t (0 : Fin 2) * 5000 + 1 * (j 0).val; omega
    | ⟨1, _⟩ => show win12_1.index t (1 : Fin 2) * 64 + 1 * (j 1).val = win12_3.index t (1 : Fin 2) * 64 + 1 * (j 1).val; omega

/-- An index of the first result's array is in point t's block iff each coordinate is in the block's range. -/
theorem mem_blk_2 (t : Fin cfg12.N) (i : S50000x64.Idx) :
    i ∈ ((cfg12.win 2).blk t).view.set ↔ ∀ a : Fin 2, win12_2.index t a * S5000x64.size a ≤ (i a).val
      ∧ (i a).val < win12_2.index t a * S5000x64.size a + S5000x64.size a := by
  show i ∈ ((View.whole main_v135_0).slice (win12_2.rect t)).set ↔ _
  rw [View.set_slice_whole, Rect.mem_set_unit]
  exact Iff.rfl

/-- The same for the second result's array. -/
theorem mem_blk_3 (t : Fin cfg12.N) (i : S50000x64.Idx) :
    i ∈ ((cfg12.win 3).blk t).view.set ↔ ∀ a : Fin 2, win12_3.index t a * S5000x64.size a ≤ (i a).val
      ∧ (i a).val < win12_3.index t a * S5000x64.size a + S5000x64.size a := by
  show i ∈ ((View.whole main_v135_1).slice (win12_3.rect t)).set ↔ _
  rw [View.set_slice_whole, Rect.mem_set_unit]
  exact Iff.rfl

/-- The point that covers row r is r / 5000. -/
theorem point_of_row (r : Nat) (hr : r < 50000) : ∃ t : Fin cfg12.N, t.val * 5000 ≤ r ∧ r < t.val * 5000 + 5000 := by
  have hN : grid12.N = 10 := Gen.N_12
  refine ⟨⟨r / 5000, ?_⟩, ?_, ?_⟩
  · show r / 5000 < grid12.N
    rw [hN]; omega
  · show r / 5000 * 5000 ≤ r; omega
  · show r < r / 5000 * 5000 + 5000; omega

/-- Every index of the first result's array is in some point's block. -/
theorem cover_2 (i : S50000x64.Idx) : ∃ t : Fin cfg12.N, (cfg12.win 2).flush t = true ∧ i ∈ ((cfg12.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush12_2 t, ?_⟩
  rw [mem_blk_2]
  intro a
  match a with
  | ⟨0, _⟩ => show win12_2.index t (0 : Fin 2) * 5000 ≤ (i 0).val ∧ (i 0).val < win12_2.index t (0 : Fin 2) * 5000 + 5000; omega
  | ⟨1, _⟩ => show win12_2.index t (1 : Fin 2) * 64 ≤ (i 1).val ∧ (i 1).val < win12_2.index t (1 : Fin 2) * 64 + 64; omega

/-- Every index of the second result's array is in some point's block. -/
theorem cover_3 (i : S50000x64.Idx) : ∃ t : Fin cfg12.N, (cfg12.win 3).flush t = true ∧ i ∈ ((cfg12.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush12_3 t, ?_⟩
  rw [mem_blk_3]
  intro a
  match a with
  | ⟨0, _⟩ => show win12_3.index t (0 : Fin 2) * 5000 ≤ (i 0).val ∧ (i 0).val < win12_3.index t (0 : Fin 2) * 5000 + 5000; omega
  | ⟨1, _⟩ => show win12_3.index t (1 : Fin 2) * 64 ≤ (i 1).val ∧ (i 1).val < win12_3.index t (1 : Fin 2) * 64 + 64; omega

/-- After the region the first result array is the row-normalised x array. -/
theorem arr_2 (c : Dev nD) :
    (Gen.dat12 (F := Ideal) V c).arrAt 2 cfg12.N = Cert.Spec.normed (V c main_v97 : Cert.Spec.Mat 50000 64) :=
  (Gen.dat12 (F := Ideal) V c).arrAt_eq_of_cover 2 (Cert.Spec.normed (V c main_v97 : Cert.Spec.Mat 50000 64))
    (fun t _ => flushed_2 V c t) cover_2

/-- After the region the second result array is res plus the row-normalised x array. -/
theorem arr_3 (c : Dev nD) :
    (Gen.dat12 (F := Ideal) V c).arrAt 3 cfg12.N
      = Cert.Spec.resAdd (V c main_v97 : Cert.Spec.Mat 50000 64) (V c main_v67_1 : Cert.Spec.Mat 50000 64) :=
  (Gen.dat12 (F := Ideal) V c).arrAt_eq_of_cover 3
    (Cert.Spec.resAdd (V c main_v97 : Cert.Spec.Mat 50000 64) (V c main_v67_1 : Cert.Spec.Mat 50000 64))
    (fun t _ => flushed_3 V c t) cover_3

end Cert.KernelIdeal.Reg12

end
-- ==== Proof.Reg13.lean ====
/-
  Region 13: the row normalisation with residual over a matrix of 50000 rows, from blocks to arrays.

  The grid has 10 points; point t stages rows 5000 t .. 5000 t + 4999 of x and of res, and writes back the same
  rows of the two results. A block of the results holds, by the block's arithmetic, the normalised block and the
  residual block of the staged rows; as the normalisation of an entry sees only its own row, that is the same rows
  of the normalised matrix and of the residual matrix. Row r is covered by point r / 5000, so after the last
  point the first result array is the normalised x and the second is res plus it.
-/
import proofs.«124958_j46205258170764_2_alg».proof.Proof.NormBlock
import proofs.«124958_j46205258170764_2_alg».proof.Proof.NormRows
import Idealize.ShloMosaic.Lib.Pipeline.Value

noncomputable section

namespace Cert.KernelIdeal.Reg13

open Idealize.ShloMosaic Idealize.ShloMosaic.TcCoe Idealize.ShloMosaic.ValueIdx Cert.KernelIdeal
open Idealize.ShloMosaic.Pipeline (Dat)

variable (V : (c : Dev nD) → (b : Ref sig .tc) → Buf (Elt Ideal) ((c : Thread nD τ).loc b))

/-- The printed index maps over the grid: every window's block index at point t is (t, 0). -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0 :=
  (by decide +kernel : ∀ t : Fin grid13.N, _)

/-- Row p of the x block at point t is row 5000 t + p of the x array. -/
theorem xblk_row (c : Dev nD) (t : Fin cfg13.N) (p : Fin 5000) (k : Fin 64) (P : Fin 50000)
    (hP : P.val = t.val * 5000 + p.val) :
    (Gen.iblk13 V c 0 t : Cert.Spec.Mat 5000 64) (ix2 p k) = (V c main_v117 : Cert.Spec.Mat 50000 64) (ix2 P k) := by
  obtain ⟨e0, e1, -⟩ := idx_facts t
  show V c main_v117 (((cfg13.win 0).blk t).view.emb (ix2 p k)) = V c main_v117 (ix2 P k)
  refine congrArg (V c main_v117) (funext fun a => Fin.ext ?_)
  match a with
  | ⟨0, _⟩ => show win13_0.index t (0 : Fin 2) * 5000 + 1 * p.val = P.val; omega
  | ⟨1, _⟩ => show win13_0.index t (1 : Fin 2) * 64 + 1 * k.val = k.val; omega

/-- What point t writes back to the first result is block t of the normalised x array. -/
theorem flushed_2 (c : Dev nD) (t : Fin cfg13.N) :
    (Gen.dat13 (F := Ideal) V c).flushed 2 t
      = ((cfg13.win 2).blk t).view.read (Elt Ideal) (Cert.Spec.normed (V c main_v117 : Cert.Spec.Mat 50000 64)) := by
  show (cfg13.win 2).cut (grid13.coords t) ((Gen.dat13 (F := Ideal) V c).after 2 t) = _
  rw [Gen.after13_2, NormBlock.out13_2_eq (Gen.iblk13 V c 0 t) (Gen.iblk13 V c 1 t)]
  obtain ⟨-, -, -, -, e4, e5, -⟩ := idx_facts t
  funext j
  show Cert.Spec.normed (Gen.iblk13 V c 0 t : Cert.Spec.Mat 5000 64) j
    = Cert.Spec.normed (V c main_v117 : Cert.Spec.Mat 50000 64) (((cfg13.win 2).blk t).view.emb j)
  refine Cert.Spec.normed_of_rows (V c main_v117 : Cert.Spec.Mat 50000 64) (Gen.iblk13 V c 0 t : Cert.Spec.Mat 5000 64)
    (((cfg13.win 2).blk t).view.emb j) j ?_ fun k => ?_
  · show win13_2.index t (1 : Fin 2) * 64 + 1 * (j 1).val = (j 1).val; omega
  · refine xblk_row V c t (j 0) k _ ?_
    show win13_2.index t (0 : Fin 2) * 5000 + 1 * (j 0).val = t.val * 5000 + (j 0).val; omega

/-- What point t writes back to the second result is block t of res plus the normalised x. -/
theorem flushed_3 (c : Dev nD) (t : Fin cfg13.N) :
    (Gen.dat13 (F := Ideal) V c).flushed 3 t
      = ((cfg13.win 3).blk t).view.read (Elt Ideal)
          (Cert.Spec.resAdd (V c main_v117 : Cert.Spec.Mat 50000 64) (V c main_v68_1 : Cert.Spec.Mat 50000 64)) := by
  show (cfg13.win 3).cut (grid13.coords t) ((Gen.dat13 (F := Ideal) V c).after 3 t) = _
  rw [Gen.after13_3, NormBlock.out13_3_eq (Gen.iblk13 V c 0 t) (Gen.iblk13 V c 1 t)]
  obtain ⟨-, -, e2, e3, -, -, e6, e7⟩ := idx_facts t
  funext j
  show Cert.Spec.resAdd (Gen.iblk13 V c 0 t : Cert.Spec.Mat 5000 64) (Gen.iblk13 V c 1 t : Cert.Spec.Mat 5000 64) j
    = Cert.Spec.resAdd (V c main_v117 : Cert.Spec.Mat 50000 64) (V c main_v68_1 : Cert.Spec.Mat 50000 64) (((cfg13.win 3).blk t).view.emb j)
  refine Cert.Spec.resAdd_of_rows (V c main_v117 : Cert.Spec.Mat 50000 64) (V c main_v68_1 : Cert.Spec.Mat 50000 64)
    (Gen.iblk13 V c 0 t : Cert.Spec.Mat 5000 64) (Gen.iblk13 V c 1 t : Cert.Spec.Mat 5000 64)
    (((cfg13.win 3).blk t).view.emb j) j ?_ (fun k => ?_) ?_
  · show win13_3.index t (1 : Fin 2) * 64 + 1 * (j 1).val = (j 1).val; omega
  · refine xblk_row V c t (j 0) k _ ?_
    show win13_3.index t (0 : Fin 2) * 5000 + 1 * (j 0).val = t.val * 5000 + (j 0).val; omega
  · show V c main_v68_1 (((cfg13.win 1).blk t).view.emb j) = V c main_v68_1 (((cfg13.win 3).blk t).view.emb j)
    refine congrArg (V c main_v68_1) (funext fun a => Fin.ext ?_)
    match a with
    | ⟨0, _⟩ => show win13_1.index t (0 : Fin 2) * 5000 + 1 * (j 0).val = win13_3.index t (0 : Fin 2) * 5000 + 1 * (j 0).val; omega
    | ⟨1, _⟩ => show win13_1.index t (1 : Fin 2) * 64 + 1 * (j 1).val = win13_3.index t (1 : Fin 2) * 64 + 1 * (j 1).val; omega

/-- An index of the first result's array is in point t's block iff each coordinate is in the block's range. -/
theorem mem_blk_2 (t : Fin cfg13.N) (i : S50000x64.Idx) :
    i ∈ ((cfg13.win 2).blk t).view.set ↔ ∀ a : Fin 2, win13_2.index t a * S5000x64.size a ≤ (i a).val
      ∧ (i a).val < win13_2.index t a * S5000x64.size a + S5000x64.size a := by
  show i ∈ ((View.whole main_v136_0).slice (win13_2.rect t)).set ↔ _
  rw [View.set_slice_whole, Rect.mem_set_unit]
  exact Iff.rfl

/-- The same for the second result's array. -/
theorem mem_blk_3 (t : Fin cfg13.N) (i : S50000x64.Idx) :
    i ∈ ((cfg13.win 3).blk t).view.set ↔ ∀ a : Fin 2, win13_3.index t a * S5000x64.size a ≤ (i a).val
      ∧ (i a).val < win13_3.index t a * S5000x64.size a + S5000x64.size a := by
  show i ∈ ((View.whole main_v136_1).slice (win13_3.rect t)).set ↔ _
  rw [View.set_slice_whole, Rect.mem_set_unit]
  exact Iff.rfl

/-- The point that covers row r is r / 5000. -/
theorem point_of_row (r : Nat) (hr : r < 50000) : ∃ t : Fin cfg13.N, t.val * 5000 ≤ r ∧ r < t.val * 5000 + 5000 := by
  have hN : grid13.N = 10 := Gen.N_13
  refine ⟨⟨r / 5000, ?_⟩, ?_, ?_⟩
  · show r / 5000 < grid13.N
    rw [hN]; omega
  · show r / 5000 * 5000 ≤ r; omega
  · show r < r / 5000 * 5000 + 5000; omega

/-- Every index of the first result's array is in some point's block. -/
theorem cover_2 (i : S50000x64.Idx) : ∃ t : Fin cfg13.N, (cfg13.win 2).flush t = true ∧ i ∈ ((cfg13.win 2).blk t).view.set := by
  have hi0 : (i 0).val < 50000 := (i 0).isLt
  have hi1 : (i 1).val < 64 := (i 1).isLt
  obtain ⟨t, h0, h1⟩ := point_of_row (i 0).val hi0
  obtain ⟨-, -, -, -, e4, e5, -⟩ := idx_facts t
  refine ⟨t, Gen.flush13_2 t, ?_⟩
  rw [mem_blk_2]
  intro a
  match a with
  | ⟨0, _⟩ => show win13_2.index t (0 : Fin 2) * 5000 ≤ (i 0).val ∧ (i 0).val < win13_2.index t (0 : Fin 2) * 5000 + 5000; omega
  | ⟨1, _⟩ => show win13_2.index t (1 : Fin 2) * 64 ≤ (i 1).val ∧ (i 1).val < win13_2.index t (1 : Fin 2) * 64 + 64; omega

/-- Every index of the second result's array is in some point's block. -/
theorem cover_3 (i : S50000x64.Idx) : ∃ t : Fin cfg13.N, (cfg13.win 3).flush t = true ∧ i ∈ ((cfg13.win 3).blk t).view.set := by
  have hi0 : (i 0).val < 50000 := (i 0).isLt
  have hi1 : (i 1).val < 64 := (i 1).isLt
  obtain ⟨t, h0, h1⟩ := point_of_row (i 0).val hi0
  obtain ⟨-, -, -, -, -, -, e6, e7⟩ := idx_facts t
  refine ⟨t, Gen.flush13_3 t, ?_⟩
  rw [mem_blk_3]
  intro a
  match a with
  | ⟨0, _⟩ => show win13_3.index t (0 : Fin 2) * 5000 ≤ (i 0).val ∧ (i 0).val < win13_3.index t (0 : Fin 2) * 5000 + 5000; omega
  | ⟨1, _⟩ => show win13_3.index t (1 : Fin 2) * 64 ≤ (i 1).val ∧ (i 1).val < win13_3.index t (1 : Fin 2) * 64 + 64; omega

/-- After the region the first result array is the row-normalised x array. -/
theorem arr_2 (c : Dev nD) :
    (Gen.dat13 (F := Ideal) V c).arrAt 2 cfg13.N = Cert.Spec.normed (V c main_v117 : Cert.Spec.Mat 50000 64) :=
  (Gen.dat13 (F := Ideal) V c).arrAt_eq_of_cover 2 (Cert.Spec.normed (V c main_v117 : Cert.Spec.Mat 50000 64))
    (fun t _ => flushed_2 V c t) cover_2

/-- After the region the second result array is res plus the row-normalised x array. -/
theorem arr_3 (c : Dev nD) :
    (Gen.dat13 (F := Ideal) V c).arrAt 3 cfg13.N
      = Cert.Spec.resAdd (V c main_v117 : Cert.Spec.Mat 50000 64) (V c main_v68_1 : Cert.Spec.Mat 50000 64) :=
  (Gen.dat13 (F := Ideal) V c).arrAt_eq_of_cover 3
    (Cert.Spec.resAdd (V c main_v117 : Cert.Spec.Mat 50000 64) (V c main_v68_1 : Cert.Spec.Mat 50000 64))
    (fun t _ => flushed_3 V c t) cover_3

end Cert.KernelIdeal.Reg13

end
-- ==== Proof.ChainB.lean ====
/-
  The kernel program's buffers, boundary by boundary: the second hop and the results.

  The second hop reads the first hop's normalised entity and user rows and its four residuals; its segments are the first
  hop's again. The four result buffers end at: the concatenated entity residual, the user residual, and the two item
  residuals, each the first hop's residual plus the second hop's normalised rows.
-/
import proofs.«124958_j46205258170764_2_alg».proof.Proof.ChainA
import proofs.«124958_j46205258170764_2_alg».proof.Proof.Reg7
import proofs.«124958_j46205258170764_2_alg».proof.Proof.Reg8
import proofs.«124958_j46205258170764_2_alg».proof.Proof.Reg9
import proofs.«124958_j46205258170764_2_alg».proof.Proof.Reg10
import proofs.«124958_j46205258170764_2_alg».proof.Proof.Reg11
import proofs.«124958_j46205258170764_2_alg».proof.Proof.Reg12
import proofs.«124958_j46205258170764_2_alg».proof.Proof.Reg13
import Idealize.ShloMosaic.Lib.StableHlo.Run

set_option maxRecDepth 16384

noncomputable section

namespace Cert.KernelIdeal.Chain

open Cert.KernelIdeal Cert.KernelIdeal.Gen Cert.KernelIdeal.Keep Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem r7_v62_0 : W7 m ρ c (Proc.devRef .tc main_v62_0) = FN1 m c := (k7 m ρ c main_v62_0 (by decide)).trans (r6_v62_0 m ρ c)

theorem r8_v62_0 : W8 m ρ c (Proc.devRef .tc main_v62_0) = FN1 m c := (k8 m ρ c main_v62_0 (by decide)).trans (r7_v62_0 m ρ c)

theorem r9_v62_0 : W9 m ρ c (Proc.devRef .tc main_v62_0) = FN1 m c := (k9 m ρ c main_v62_0 (by decide)).trans (r8_v62_0 m ρ c)

theorem r10_v62_0 : W10 m ρ c (Proc.devRef .tc main_v62_0) = FN1 m c := (k10 m ρ c main_v62_0 (by decide)).trans (r9_v62_0 m ρ c)

theorem r11_v62_0 : W11 m ρ c (Proc.devRef .tc main_v62_0) = FN1 m c := (k11 m ρ c main_v62_0 (by decide)).trans (r10_v62_0 m ρ c)

theorem r12_v62_0 : W12 m ρ c (Proc.devRef .tc main_v62_0) = FN1 m c := (k12 m ρ c main_v62_0 (by decide)).trans (r11_v62_0 m ρ c)

theorem r9_v64_0 : W9 m ρ c (Proc.devRef .tc main_v64_0) = AN1 m c := (k9 m ρ c main_v64_0 (by decide)).trans (r8_v64_0 m ρ c)

theorem r10_v64_0 : W10 m ρ c (Proc.devRef .tc main_v64_0) = AN1 m c := (k10 m ρ c main_v64_0 (by decide)).trans (r9_v64_0 m ρ c)

theorem r11_v64_0 : W11 m ρ c (Proc.devRef .tc main_v64_0) = AN1 m c := (k11 m ρ c main_v64_0 (by decide)).trans (r10_v64_0 m ρ c)

theorem r12_v64_0 : W12 m ρ c (Proc.devRef .tc main_v64_0) = AN1 m c := (k12 m ρ c main_v64_0 (by decide)).trans (r11_v64_0 m ρ c)

theorem r1_arg6 : W1 m ρ c (Proc.devRef .tc main_arg6) = A6 m c := (k1 m ρ c main_arg6 (by decide)).trans (r0_arg6 m ρ c)

theorem r2_arg6 : W2 m ρ c (Proc.devRef .tc main_arg6) = A6 m c := (k2 m ρ c main_arg6 (by decide)).trans (r1_arg6 m ρ c)

theorem r3_arg6 : W3 m ρ c (Proc.devRef .tc main_arg6) = A6 m c := (k3 m ρ c main_arg6 (by decide)).trans (r2_arg6 m ρ c)

theorem r4_arg6 : W4 m ρ c (Proc.devRef .tc main_arg6) = A6 m c := (k4 m ρ c main_arg6 (by decide)).trans (r3_arg6 m ρ c)

theorem r5_arg6 : W5 m ρ c (Proc.devRef .tc main_arg6) = A6 m c := (k5 m ρ c main_arg6 (by decide)).trans (r4_arg6 m ρ c)

theorem r6_arg6 : W6 m ρ c (Proc.devRef .tc main_arg6) = A6 m c := (k6 m ρ c main_arg6 (by decide)).trans (r5_arg6 m ρ c)

theorem r7_arg6 : W7 m ρ c (Proc.devRef .tc main_arg6) = A6 m c := (k7 m ρ c main_arg6 (by decide)).trans (r6_arg6 m ρ c)

theorem r8_arg6 : W8 m ρ c (Proc.devRef .tc main_arg6) = A6 m c := (k8 m ρ c main_arg6 (by decide)).trans (r7_arg6 m ρ c)

theorem r9_arg6 : W9 m ρ c (Proc.devRef .tc main_arg6) = A6 m c := (k9 m ρ c main_arg6 (by decide)).trans (r8_arg6 m ρ c)

theorem r10_arg6 : W10 m ρ c (Proc.devRef .tc main_arg6) = A6 m c := (k10 m ρ c main_arg6 (by decide)).trans (r9_arg6 m ρ c)

theorem r11_arg6 : W11 m ρ c (Proc.devRef .tc main_arg6) = A6 m c := (k11 m ρ c main_arg6 (by decide)).trans (r10_arg6 m ρ c)

theorem r12_arg6 : W12 m ρ c (Proc.devRef .tc main_arg6) = A6 m c := (k12 m ρ c main_arg6 (by decide)).trans (r11_arg6 m ρ c)

theorem r1_arg2 : W1 m ρ c (Proc.devRef .tc main_arg2) = A2 m c := (k1 m ρ c main_arg2 (by decide)).trans (r0_arg2 m ρ c)

theorem r2_arg2 : W2 m ρ c (Proc.devRef .tc main_arg2) = A2 m c := (k2 m ρ c main_arg2 (by decide)).trans (r1_arg2 m ρ c)

theorem r3_arg2 : W3 m ρ c (Proc.devRef .tc main_arg2) = A2 m c := (k3 m ρ c main_arg2 (by decide)).trans (r2_arg2 m ρ c)

theorem r4_arg2 : W4 m ρ c (Proc.devRef .tc main_arg2) = A2 m c := (k4 m ρ c main_arg2 (by decide)).trans (r3_arg2 m ρ c)

theorem r5_arg2 : W5 m ρ c (Proc.devRef .tc main_arg2) = A2 m c := (k5 m ρ c main_arg2 (by decide)).trans (r4_arg2 m ρ c)

theorem r6_arg2 : W6 m ρ c (Proc.devRef .tc main_arg2) = A2 m c := (k6 m ρ c main_arg2 (by decide)).trans (r5_arg2 m ρ c)

theorem r7_arg2 : W7 m ρ c (Proc.devRef .tc main_arg2) = A2 m c := (k7 m ρ c main_arg2 (by decide)).trans (r6_arg2 m ρ c)

theorem r8_arg2 : W8 m ρ c (Proc.devRef .tc main_arg2) = A2 m c := (k8 m ρ c main_arg2 (by decide)).trans (r7_arg2 m ρ c)

theorem r9_arg2 : W9 m ρ c (Proc.devRef .tc main_arg2) = A2 m c := (k9 m ρ c main_arg2 (by decide)).trans (r8_arg2 m ρ c)

theorem r10_arg2 : W10 m ρ c (Proc.devRef .tc main_arg2) = A2 m c := (k10 m ρ c main_arg2 (by decide)).trans (r9_arg2 m ρ c)

theorem r11_arg2 : W11 m ρ c (Proc.devRef .tc main_arg2) = A2 m c := (k11 m ρ c main_arg2 (by decide)).trans (r10_arg2 m ρ c)

theorem r12_arg2 : W12 m ρ c (Proc.devRef .tc main_arg2) = A2 m c := (k12 m ρ c main_arg2 (by decide)).trans (r11_arg2 m ρ c)

theorem r1_arg7 : W1 m ρ c (Proc.devRef .tc main_arg7) = A7 m c := (k1 m ρ c main_arg7 (by decide)).trans (r0_arg7 m ρ c)

theorem r2_arg7 : W2 m ρ c (Proc.devRef .tc main_arg7) = A7 m c := (k2 m ρ c main_arg7 (by decide)).trans (r1_arg7 m ρ c)

theorem r3_arg7 : W3 m ρ c (Proc.devRef .tc main_arg7) = A7 m c := (k3 m ρ c main_arg7 (by decide)).trans (r2_arg7 m ρ c)

theorem r4_arg7 : W4 m ρ c (Proc.devRef .tc main_arg7) = A7 m c := (k4 m ρ c main_arg7 (by decide)).trans (r3_arg7 m ρ c)

theorem r5_arg7 : W5 m ρ c (Proc.devRef .tc main_arg7) = A7 m c := (k5 m ρ c main_arg7 (by decide)).trans (r4_arg7 m ρ c)

theorem r6_arg7 : W6 m ρ c (Proc.devRef .tc main_arg7) = A7 m c := (k6 m ρ c main_arg7 (by decide)).trans (r5_arg7 m ρ c)

theorem r7_arg7 : W7 m ρ c (Proc.devRef .tc main_arg7) = A7 m c := (k7 m ρ c main_arg7 (by decide)).trans (r6_arg7 m ρ c)

theorem r8_arg7 : W8 m ρ c (Proc.devRef .tc main_arg7) = A7 m c := (k8 m ρ c main_arg7 (by decide)).trans (r7_arg7 m ρ c)

theorem r9_arg7 : W9 m ρ c (Proc.devRef .tc main_arg7) = A7 m c := (k9 m ρ c main_arg7 (by decide)).trans (r8_arg7 m ρ c)

theorem r10_arg7 : W10 m ρ c (Proc.devRef .tc main_arg7) = A7 m c := (k10 m ρ c main_arg7 (by decide)).trans (r9_arg7 m ρ c)

theorem r11_arg7 : W11 m ρ c (Proc.devRef .tc main_arg7) = A7 m c := (k11 m ρ c main_arg7 (by decide)).trans (r10_arg7 m ρ c)

theorem r12_arg7 : W12 m ρ c (Proc.devRef .tc main_arg7) = A7 m c := (k12 m ρ c main_arg7 (by decide)).trans (r11_arg7 m ρ c)

set_option maxHeartbeats 2000000 in
theorem r13_v76 : W13 m ρ c (Proc.devRef .tc main_v76) = T2 m c := by
  show after hostOps7 (W12 m ρ c) (Proc.devRef .tc main_v76) = _
  simp only [hostOps7]
  after_results_simp
  show _ = Cert.Stage.gE (Cert.Stage.cat (FN1 m c) (AN1 m c)) (A6 m c)
  rw [← r12_v62_0 m ρ c, ← r12_v64_0 m ρ c, ← r12_arg6 m ρ c]
  rfl

set_option maxHeartbeats 2000000 in
theorem r13_v83 : W13 m ρ c (Proc.devRef .tc main_v83) = RL m c := by
  show after hostOps7 (W12 m ρ c) (Proc.devRef .tc main_v83) = _
  simp only [hostOps7]
  after_results_simp
  simp only [r12_v62_0 m ρ c, r12_v64_0 m ρ c, r12_arg6 m ρ c, r12_arg2 m ρ c, r12_arg7 m ρ c] <;> rfl

theorem r14_v84 : W14 m ρ c (Proc.devRef .tc main_v84) = N2 m c := by
  refine (W14_arr m ρ c 2).trans ((Cert.KernelIdeal.Reg7.arr_2 (V13 m ρ) c).trans ?_)
  rw [show V13 m ρ c main_v76 = T2 m c from r13_v76 m ρ c, show V13 m ρ c main_v83 = RL m c from r13_v83 m ρ c]
  rfl

theorem r3_arg5 : W3 m ρ c (Proc.devRef .tc main_arg5) = A5 m c := (k3 m ρ c main_arg5 (by decide)).trans (r2_arg5 m ρ c)

theorem r4_arg5 : W4 m ρ c (Proc.devRef .tc main_arg5) = A5 m c := (k4 m ρ c main_arg5 (by decide)).trans (r3_arg5 m ρ c)

theorem r5_arg5 : W5 m ρ c (Proc.devRef .tc main_arg5) = A5 m c := (k5 m ρ c main_arg5 (by decide)).trans (r4_arg5 m ρ c)

theorem r6_arg5 : W6 m ρ c (Proc.devRef .tc main_arg5) = A5 m c := (k6 m ρ c main_arg5 (by decide)).trans (r5_arg5 m ρ c)

theorem r7_arg5 : W7 m ρ c (Proc.devRef .tc main_arg5) = A5 m c := (k7 m ρ c main_arg5 (by decide)).trans (r6_arg5 m ρ c)

theorem r8_arg5 : W8 m ρ c (Proc.devRef .tc main_arg5) = A5 m c := (k8 m ρ c main_arg5 (by decide)).trans (r7_arg5 m ρ c)

theorem r9_arg5 : W9 m ρ c (Proc.devRef .tc main_arg5) = A5 m c := (k9 m ρ c main_arg5 (by decide)).trans (r8_arg5 m ρ c)

theorem r10_arg5 : W10 m ρ c (Proc.devRef .tc main_arg5) = A5 m c := (k10 m ρ c main_arg5 (by decide)).trans (r9_arg5 m ρ c)

theorem r11_arg5 : W11 m ρ c (Proc.devRef .tc main_arg5) = A5 m c := (k11 m ρ c main_arg5 (by decide)).trans (r10_arg5 m ρ c)

theorem r12_arg5 : W12 m ρ c (Proc.devRef .tc main_arg5) = A5 m c := (k12 m ρ c main_arg5 (by decide)).trans (r11_arg5 m ρ c)

theorem r13_arg5 : W13 m ρ c (Proc.devRef .tc main_arg5) = A5 m c := (k13 m ρ c main_arg5 (by decide)).trans (r12_arg5 m ρ c)

theorem r14_arg5 : W14 m ρ c (Proc.devRef .tc main_arg5) = A5 m c := (k14 m ρ c main_arg5 (by decide)).trans (r13_arg5 m ρ c)

theorem r11_v66_0 : W11 m ρ c (Proc.devRef .tc main_v66_0) = UE1 m c := (k11 m ρ c main_v66_0 (by decide)).trans (r10_v66_0 m ρ c)

theorem r12_v66_0 : W12 m ρ c (Proc.devRef .tc main_v66_0) = UE1 m c := (k12 m ρ c main_v66_0 (by decide)).trans (r11_v66_0 m ρ c)

theorem r13_v66_0 : W13 m ρ c (Proc.devRef .tc main_v66_0) = UE1 m c := (k13 m ρ c main_v66_0 (by decide)).trans (r12_v66_0 m ρ c)

theorem r14_v66_0 : W14 m ρ c (Proc.devRef .tc main_v66_0) = UE1 m c := (k14 m ρ c main_v66_0 (by decide)).trans (r13_v66_0 m ρ c)

theorem r5_arg8 : W5 m ρ c (Proc.devRef .tc main_arg8) = A8 m c := (k5 m ρ c main_arg8 (by decide)).trans (r4_arg8 m ρ c)

theorem r6_arg8 : W6 m ρ c (Proc.devRef .tc main_arg8) = A8 m c := (k6 m ρ c main_arg8 (by decide)).trans (r5_arg8 m ρ c)

theorem r7_arg8 : W7 m ρ c (Proc.devRef .tc main_arg8) = A8 m c := (k7 m ρ c main_arg8 (by decide)).trans (r6_arg8 m ρ c)

theorem r8_arg8 : W8 m ρ c (Proc.devRef .tc main_arg8) = A8 m c := (k8 m ρ c main_arg8 (by decide)).trans (r7_arg8 m ρ c)

theorem r9_arg8 : W9 m ρ c (Proc.devRef .tc main_arg8) = A8 m c := (k9 m ρ c main_arg8 (by decide)).trans (r8_arg8 m ρ c)

theorem r10_arg8 : W10 m ρ c (Proc.devRef .tc main_arg8) = A8 m c := (k10 m ρ c main_arg8 (by decide)).trans (r9_arg8 m ρ c)

theorem r11_arg8 : W11 m ρ c (Proc.devRef .tc main_arg8) = A8 m c := (k11 m ρ c main_arg8 (by decide)).trans (r10_arg8 m ρ c)

theorem r12_arg8 : W12 m ρ c (Proc.devRef .tc main_arg8) = A8 m c := (k12 m ρ c main_arg8 (by decide)).trans (r11_arg8 m ρ c)

theorem r13_arg8 : W13 m ρ c (Proc.devRef .tc main_arg8) = A8 m c := (k13 m ρ c main_arg8 (by decide)).trans (r12_arg8 m ρ c)

theorem r14_arg8 : W14 m ρ c (Proc.devRef .tc main_arg8) = A8 m c := (k14 m ρ c main_arg8 (by decide)).trans (r13_arg8 m ρ c)

theorem r5_arg9 : W5 m ρ c (Proc.devRef .tc main_arg9) = A9 m c := (k5 m ρ c main_arg9 (by decide)).trans (r4_arg9 m ρ c)

theorem r6_arg9 : W6 m ρ c (Proc.devRef .tc main_arg9) = A9 m c := (k6 m ρ c main_arg9 (by decide)).trans (r5_arg9 m ρ c)

theorem r7_arg9 : W7 m ρ c (Proc.devRef .tc main_arg9) = A9 m c := (k7 m ρ c main_arg9 (by decide)).trans (r6_arg9 m ρ c)

theorem r8_arg9 : W8 m ρ c (Proc.devRef .tc main_arg9) = A9 m c := (k8 m ρ c main_arg9 (by decide)).trans (r7_arg9 m ρ c)

theorem r9_arg9 : W9 m ρ c (Proc.devRef .tc main_arg9) = A9 m c := (k9 m ρ c main_arg9 (by decide)).trans (r8_arg9 m ρ c)

theorem r10_arg9 : W10 m ρ c (Proc.devRef .tc main_arg9) = A9 m c := (k10 m ρ c main_arg9 (by decide)).trans (r9_arg9 m ρ c)

theorem r11_arg9 : W11 m ρ c (Proc.devRef .tc main_arg9) = A9 m c := (k11 m ρ c main_arg9 (by decide)).trans (r10_arg9 m ρ c)

theorem r12_arg9 : W12 m ρ c (Proc.devRef .tc main_arg9) = A9 m c := (k12 m ρ c main_arg9 (by decide)).trans (r11_arg9 m ρ c)

theorem r13_arg9 : W13 m ρ c (Proc.devRef .tc main_arg9) = A9 m c := (k13 m ρ c main_arg9 (by decide)).trans (r12_arg9 m ρ c)

theorem r14_arg9 : W14 m ρ c (Proc.devRef .tc main_arg9) = A9 m c := (k14 m ρ c main_arg9 (by decide)).trans (r13_arg9 m ρ c)

set_option maxHeartbeats 2000000 in
theorem r15_v97 : W15 m ρ c (Proc.devRef .tc main_v97) = IK2 m c := by
  show after hostOps8 (W14 m ρ c) (Proc.devRef .tc main_v97) = _
  simp only [hostOps8]
  after_results_simp
  simp only [r14_v84 m ρ c, r14_arg5 m ρ c, r14_v66_0 m ρ c, r14_arg8 m ρ c, r14_arg9 m ρ c] <;> rfl

set_option maxHeartbeats 2000000 in
theorem r15_v98 : W15 m ρ c (Proc.devRef .tc main_v98) = AT2 m c := by
  show after hostOps8 (W14 m ρ c) (Proc.devRef .tc main_v98) = _
  simp only [hostOps8]
  after_results_simp
  simp only [r14_v84 m ρ c, r14_arg5 m ρ c, r14_v66_0 m ρ c, r14_arg8 m ρ c, r14_arg9 m ρ c] <;> rfl

set_option maxHeartbeats 2000000 in
theorem r15_v117 : W15 m ρ c (Proc.devRef .tc main_v117) = II2 m c := by
  show after hostOps8 (W14 m ρ c) (Proc.devRef .tc main_v117) = _
  simp only [hostOps8]
  after_results_simp
  simp only [r14_v84 m ρ c, r14_arg5 m ρ c, r14_v66_0 m ρ c, r14_arg8 m ρ c, r14_arg9 m ρ c] <;> rfl

theorem r4_arg3 : W4 m ρ c (Proc.devRef .tc main_arg3) = A3 m c := ((W4_arr m ρ c 2).trans (((dat1 (V3 m ρ) c).arrAt_in 2 rfl _).trans (A_eq1 (V3 m ρ) c 2))).trans (r3_arg3 m ρ c)

theorem r5_arg3 : W5 m ρ c (Proc.devRef .tc main_arg3) = A3 m c := (k5 m ρ c main_arg3 (by decide)).trans (r4_arg3 m ρ c)

theorem r6_arg3 : W6 m ρ c (Proc.devRef .tc main_arg3) = A3 m c := (k6 m ρ c main_arg3 (by decide)).trans (r5_arg3 m ρ c)

theorem r7_arg3 : W7 m ρ c (Proc.devRef .tc main_arg3) = A3 m c := (k7 m ρ c main_arg3 (by decide)).trans (r6_arg3 m ρ c)

theorem r8_arg3 : W8 m ρ c (Proc.devRef .tc main_arg3) = A3 m c := (k8 m ρ c main_arg3 (by decide)).trans (r7_arg3 m ρ c)

theorem r9_arg3 : W9 m ρ c (Proc.devRef .tc main_arg3) = A3 m c := (k9 m ρ c main_arg3 (by decide)).trans (r8_arg3 m ρ c)

theorem r10_arg3 : W10 m ρ c (Proc.devRef .tc main_arg3) = A3 m c := (k10 m ρ c main_arg3 (by decide)).trans (r9_arg3 m ρ c)

theorem r11_arg3 : W11 m ρ c (Proc.devRef .tc main_arg3) = A3 m c := (k11 m ρ c main_arg3 (by decide)).trans (r10_arg3 m ρ c)

theorem r12_arg3 : W12 m ρ c (Proc.devRef .tc main_arg3) = A3 m c := (k12 m ρ c main_arg3 (by decide)).trans (r11_arg3 m ρ c)

theorem r13_arg3 : W13 m ρ c (Proc.devRef .tc main_arg3) = A3 m c := (k13 m ρ c main_arg3 (by decide)).trans (r12_arg3 m ρ c)

theorem r14_arg3 : W14 m ρ c (Proc.devRef .tc main_arg3) = A3 m c := (k14 m ρ c main_arg3 (by decide)).trans (r13_arg3 m ρ c)

theorem r15_arg3 : W15 m ρ c (Proc.devRef .tc main_arg3) = A3 m c := (k15 m ρ c main_arg3 (by decide)).trans (r14_arg3 m ρ c)

theorem r4_arg4 : W4 m ρ c (Proc.devRef .tc main_arg4) = A4 m c := ((W4_arr m ρ c 3).trans (((dat1 (V3 m ρ) c).arrAt_in 3 rfl _).trans (A_eq1 (V3 m ρ) c 3))).trans (r3_arg4 m ρ c)

theorem r5_arg4 : W5 m ρ c (Proc.devRef .tc main_arg4) = A4 m c := (k5 m ρ c main_arg4 (by decide)).trans (r4_arg4 m ρ c)

theorem r6_arg4 : W6 m ρ c (Proc.devRef .tc main_arg4) = A4 m c := (k6 m ρ c main_arg4 (by decide)).trans (r5_arg4 m ρ c)

theorem r7_arg4 : W7 m ρ c (Proc.devRef .tc main_arg4) = A4 m c := (k7 m ρ c main_arg4 (by decide)).trans (r6_arg4 m ρ c)

theorem r8_arg4 : W8 m ρ c (Proc.devRef .tc main_arg4) = A4 m c := (k8 m ρ c main_arg4 (by decide)).trans (r7_arg4 m ρ c)

theorem r9_arg4 : W9 m ρ c (Proc.devRef .tc main_arg4) = A4 m c := (k9 m ρ c main_arg4 (by decide)).trans (r8_arg4 m ρ c)

theorem r10_arg4 : W10 m ρ c (Proc.devRef .tc main_arg4) = A4 m c := (k10 m ρ c main_arg4 (by decide)).trans (r9_arg4 m ρ c)

theorem r11_arg4 : W11 m ρ c (Proc.devRef .tc main_arg4) = A4 m c := (k11 m ρ c main_arg4 (by decide)).trans (r10_arg4 m ρ c)

theorem r12_arg4 : W12 m ρ c (Proc.devRef .tc main_arg4) = A4 m c := (k12 m ρ c main_arg4 (by decide)).trans (r11_arg4 m ρ c)

theorem r13_arg4 : W13 m ρ c (Proc.devRef .tc main_arg4) = A4 m c := (k13 m ρ c main_arg4 (by decide)).trans (r12_arg4 m ρ c)

theorem r14_arg4 : W14 m ρ c (Proc.devRef .tc main_arg4) = A4 m c := (k14 m ρ c main_arg4 (by decide)).trans (r13_arg4 m ρ c)

theorem r15_arg4 : W15 m ρ c (Proc.devRef .tc main_arg4) = A4 m c := (k15 m ρ c main_arg4 (by decide)).trans (r14_arg4 m ρ c)

theorem r16_v118 : W16 m ρ c (Proc.devRef .tc main_v118) = F2 m c := by
  refine (W16_arr m ρ c 4).trans ((Cert.KernelIdeal.Reg8.arr_4 (V15 m ρ) c).trans ?_)
  rw [show V15 m ρ c main_v97 = IK2 m c from r15_v97 m ρ c, show V15 m ρ c main_v117 = II2 m c from r15_v117 m ρ c, show V15 m ρ c main_arg3 = A3 m c from r15_arg3 m ρ c, show V15 m ρ c main_arg4 = A4 m c from r15_arg4 m ρ c]
  rfl

theorem r15_arg9 : W15 m ρ c (Proc.devRef .tc main_arg9) = A9 m c := (k15 m ρ c main_arg9 (by decide)).trans (r14_arg9 m ρ c)

theorem r16_arg9 : W16 m ρ c (Proc.devRef .tc main_arg9) = A9 m c := (k16 m ρ c main_arg9 (by decide)).trans (r15_arg9 m ρ c)

theorem r15_arg8 : W15 m ρ c (Proc.devRef .tc main_arg8) = A8 m c := (k15 m ρ c main_arg8 (by decide)).trans (r14_arg8 m ρ c)

theorem r16_arg8 : W16 m ρ c (Proc.devRef .tc main_arg8) = A8 m c := (k16 m ρ c main_arg8 (by decide)).trans (r15_arg8 m ρ c)

theorem r10_v65 : W10 m ρ c (Proc.devRef .tc main_v65) = ER1 m c := (k10 m ρ c main_v65 (by decide)).trans (r9_v65 m ρ c)

theorem r11_v65 : W11 m ρ c (Proc.devRef .tc main_v65) = ER1 m c := (k11 m ρ c main_v65 (by decide)).trans (r10_v65 m ρ c)

theorem r12_v65 : W12 m ρ c (Proc.devRef .tc main_v65) = ER1 m c := (k12 m ρ c main_v65 (by decide)).trans (r11_v65 m ρ c)

theorem r13_v65 : W13 m ρ c (Proc.devRef .tc main_v65) = ER1 m c := (k13 m ρ c main_v65 (by decide)).trans (r12_v65 m ρ c)

theorem r14_v65 : W14 m ρ c (Proc.devRef .tc main_v65) = ER1 m c := (k14 m ρ c main_v65 (by decide)).trans (r13_v65 m ρ c)

theorem r15_v65 : W15 m ρ c (Proc.devRef .tc main_v65) = ER1 m c := (k15 m ρ c main_v65 (by decide)).trans (r14_v65 m ρ c)

theorem r16_v65 : W16 m ρ c (Proc.devRef .tc main_v65) = ER1 m c := (k16 m ρ c main_v65 (by decide)).trans (r15_v65 m ρ c)

set_option maxHeartbeats 2000000 in
theorem r17_v128 : W17 m ρ c (Proc.devRef .tc main_v128) = UA2 m c := by
  show after hostOps9 (W16 m ρ c) (Proc.devRef .tc main_v128) = _
  simp only [hostOps9]
  after_results_simp
  simp only [r16_v118 m ρ c, r16_arg9 m ρ c, r16_arg8 m ρ c, r16_v65 m ρ c] <;> rfl

set_option maxHeartbeats 2000000 in
theorem r17_v129 : W17 m ρ c (Proc.devRef .tc main_v129) = TE m c := by
  show after hostOps9 (W16 m ρ c) (Proc.devRef .tc main_v129) = _
  simp only [hostOps9]
  after_results_simp
  simp only [r16_v118 m ρ c, r16_arg9 m ρ c, r16_arg8 m ρ c, r16_v65 m ρ c] <;> rfl

theorem r17_v118 : W17 m ρ c (Proc.devRef .tc main_v118) = F2 m c := (k17 m ρ c main_v118 (by decide)).trans (r16_v118 m ρ c)

theorem r18_v130_1 : W18 m ρ c (Proc.devRef .tc main_v130_1) = FR2 m c := by
  refine (W18_arr m ρ c 3).trans ((Cert.KernelIdeal.Reg9.arr_3 (V17 m ρ) c).trans ?_)
  rw [show V17 m ρ c main_v118 = F2 m c from r17_v118 m ρ c, show V17 m ρ c main_v129 = TE m c from r17_v129 m ρ c]
  rfl

theorem r17_v65 : W17 m ρ c (Proc.devRef .tc main_v65) = ER1 m c := (k17 m ρ c main_v65 (by decide)).trans (r16_v65 m ρ c)

theorem r18_v65 : W18 m ρ c (Proc.devRef .tc main_v65) = ER1 m c := (k18 m ρ c main_v65 (by decide)).trans (r17_v65 m ρ c)

set_option maxHeartbeats 2000000 in
theorem r19_v131 : W19 m ρ c (Proc.devRef .tc main_v131) = BE m c := by
  show after hostOps10 (W18 m ρ c) (Proc.devRef .tc main_v131) = _
  simp only [hostOps10]
  after_results_simp
  simp only [r18_v65 m ρ c] <;> rfl

theorem r16_v98 : W16 m ρ c (Proc.devRef .tc main_v98) = AT2 m c := (k16 m ρ c main_v98 (by decide)).trans (r15_v98 m ρ c)

theorem r17_v98 : W17 m ρ c (Proc.devRef .tc main_v98) = AT2 m c := (k17 m ρ c main_v98 (by decide)).trans (r16_v98 m ρ c)

theorem r18_v98 : W18 m ρ c (Proc.devRef .tc main_v98) = AT2 m c := (k18 m ρ c main_v98 (by decide)).trans (r17_v98 m ρ c)

theorem r19_v98 : W19 m ρ c (Proc.devRef .tc main_v98) = AT2 m c := (k19 m ρ c main_v98 (by decide)).trans (r18_v98 m ρ c)

theorem r20_v132_1 : W20 m ρ c (Proc.devRef .tc main_v132_1) = AR2 m c := by
  refine (W20_arr m ρ c 3).trans ((Cert.KernelIdeal.Reg10.arr_3 (V19 m ρ) c).trans ?_)
  rw [show V19 m ρ c main_v98 = AT2 m c from r19_v98 m ρ c, show V19 m ρ c main_v131 = BE m c from r19_v131 m ρ c]
  rfl

theorem r19_v130_1 : W19 m ρ c (Proc.devRef .tc main_v130_1) = FR2 m c := (k19 m ρ c main_v130_1 (by decide)).trans (r18_v130_1 m ρ c)

theorem r20_v130_1 : W20 m ρ c (Proc.devRef .tc main_v130_1) = FR2 m c := (k20 m ρ c main_v130_1 (by decide)).trans (r19_v130_1 m ρ c)

set_option maxHeartbeats 2000000 in
theorem r21_v133 : W21 m ρ c (Proc.devRef .tc main_v133) = ER2 m c := by
  show after hostOps11 (W20 m ρ c) (Proc.devRef .tc main_v133) = _
  simp only [hostOps11]
  after_results_simp
  show _ = Cert.Stage.cat (FR2 m c) (AR2 m c)
  rw [← r20_v130_1 m ρ c, ← r20_v132_1 m ρ c]
  rfl

theorem r18_v128 : W18 m ρ c (Proc.devRef .tc main_v128) = UA2 m c := (k18 m ρ c main_v128 (by decide)).trans (r17_v128 m ρ c)

theorem r19_v128 : W19 m ρ c (Proc.devRef .tc main_v128) = UA2 m c := (k19 m ρ c main_v128 (by decide)).trans (r18_v128 m ρ c)

theorem r20_v128 : W20 m ρ c (Proc.devRef .tc main_v128) = UA2 m c := (k20 m ρ c main_v128 (by decide)).trans (r19_v128 m ρ c)

theorem r21_v128 : W21 m ρ c (Proc.devRef .tc main_v128) = UA2 m c := (k21 m ρ c main_v128 (by decide)).trans (r20_v128 m ρ c)

theorem r11_v66_1 : W11 m ρ c (Proc.devRef .tc main_v66_1) = UR1 m c := (k11 m ρ c main_v66_1 (by decide)).trans (r10_v66_1 m ρ c)

theorem r12_v66_1 : W12 m ρ c (Proc.devRef .tc main_v66_1) = UR1 m c := (k12 m ρ c main_v66_1 (by decide)).trans (r11_v66_1 m ρ c)

theorem r13_v66_1 : W13 m ρ c (Proc.devRef .tc main_v66_1) = UR1 m c := (k13 m ρ c main_v66_1 (by decide)).trans (r12_v66_1 m ρ c)

theorem r14_v66_1 : W14 m ρ c (Proc.devRef .tc main_v66_1) = UR1 m c := (k14 m ρ c main_v66_1 (by decide)).trans (r13_v66_1 m ρ c)

theorem r15_v66_1 : W15 m ρ c (Proc.devRef .tc main_v66_1) = UR1 m c := (k15 m ρ c main_v66_1 (by decide)).trans (r14_v66_1 m ρ c)

theorem r16_v66_1 : W16 m ρ c (Proc.devRef .tc main_v66_1) = UR1 m c := (k16 m ρ c main_v66_1 (by decide)).trans (r15_v66_1 m ρ c)

theorem r17_v66_1 : W17 m ρ c (Proc.devRef .tc main_v66_1) = UR1 m c := (k17 m ρ c main_v66_1 (by decide)).trans (r16_v66_1 m ρ c)

theorem r18_v66_1 : W18 m ρ c (Proc.devRef .tc main_v66_1) = UR1 m c := (k18 m ρ c main_v66_1 (by decide)).trans (r17_v66_1 m ρ c)

theorem r19_v66_1 : W19 m ρ c (Proc.devRef .tc main_v66_1) = UR1 m c := (k19 m ρ c main_v66_1 (by decide)).trans (r18_v66_1 m ρ c)

theorem r20_v66_1 : W20 m ρ c (Proc.devRef .tc main_v66_1) = UR1 m c := (k20 m ρ c main_v66_1 (by decide)).trans (r19_v66_1 m ρ c)

theorem r21_v66_1 : W21 m ρ c (Proc.devRef .tc main_v66_1) = UR1 m c := (k21 m ρ c main_v66_1 (by decide)).trans (r20_v66_1 m ρ c)

theorem r22_v134_1 : W22 m ρ c (Proc.devRef .tc main_v134_1) = UR2 m c := by
  refine (W22_arr m ρ c 3).trans ((Cert.KernelIdeal.Reg11.arr_3 (V21 m ρ) c).trans ?_)
  rw [show V21 m ρ c main_v128 = UA2 m c from r21_v128 m ρ c, show V21 m ρ c main_v66_1 = UR1 m c from r21_v66_1 m ρ c]
  rfl

theorem r16_v97 : W16 m ρ c (Proc.devRef .tc main_v97) = IK2 m c := ((W16_arr m ρ c 0).trans (((dat8 (V15 m ρ) c).arrAt_in 0 rfl _).trans (A_eq8 (V15 m ρ) c 0))).trans (r15_v97 m ρ c)

theorem r17_v97 : W17 m ρ c (Proc.devRef .tc main_v97) = IK2 m c := (k17 m ρ c main_v97 (by decide)).trans (r16_v97 m ρ c)

theorem r18_v97 : W18 m ρ c (Proc.devRef .tc main_v97) = IK2 m c := (k18 m ρ c main_v97 (by decide)).trans (r17_v97 m ρ c)

theorem r19_v97 : W19 m ρ c (Proc.devRef .tc main_v97) = IK2 m c := (k19 m ρ c main_v97 (by decide)).trans (r18_v97 m ρ c)

theorem r20_v97 : W20 m ρ c (Proc.devRef .tc main_v97) = IK2 m c := (k20 m ρ c main_v97 (by decide)).trans (r19_v97 m ρ c)

theorem r21_v97 : W21 m ρ c (Proc.devRef .tc main_v97) = IK2 m c := (k21 m ρ c main_v97 (by decide)).trans (r20_v97 m ρ c)

theorem r22_v97 : W22 m ρ c (Proc.devRef .tc main_v97) = IK2 m c := (k22 m ρ c main_v97 (by decide)).trans (r21_v97 m ρ c)

theorem r12_v67_1 : W12 m ρ c (Proc.devRef .tc main_v67_1) = KR1 m c := (k12 m ρ c main_v67_1 (by decide)).trans (r11_v67_1 m ρ c)

theorem r13_v67_1 : W13 m ρ c (Proc.devRef .tc main_v67_1) = KR1 m c := (k13 m ρ c main_v67_1 (by decide)).trans (r12_v67_1 m ρ c)

theorem r14_v67_1 : W14 m ρ c (Proc.devRef .tc main_v67_1) = KR1 m c := (k14 m ρ c main_v67_1 (by decide)).trans (r13_v67_1 m ρ c)

theorem r15_v67_1 : W15 m ρ c (Proc.devRef .tc main_v67_1) = KR1 m c := (k15 m ρ c main_v67_1 (by decide)).trans (r14_v67_1 m ρ c)

theorem r16_v67_1 : W16 m ρ c (Proc.devRef .tc main_v67_1) = KR1 m c := (k16 m ρ c main_v67_1 (by decide)).trans (r15_v67_1 m ρ c)

theorem r17_v67_1 : W17 m ρ c (Proc.devRef .tc main_v67_1) = KR1 m c := (k17 m ρ c main_v67_1 (by decide)).trans (r16_v67_1 m ρ c)

theorem r18_v67_1 : W18 m ρ c (Proc.devRef .tc main_v67_1) = KR1 m c := (k18 m ρ c main_v67_1 (by decide)).trans (r17_v67_1 m ρ c)

theorem r19_v67_1 : W19 m ρ c (Proc.devRef .tc main_v67_1) = KR1 m c := (k19 m ρ c main_v67_1 (by decide)).trans (r18_v67_1 m ρ c)

theorem r20_v67_1 : W20 m ρ c (Proc.devRef .tc main_v67_1) = KR1 m c := (k20 m ρ c main_v67_1 (by decide)).trans (r19_v67_1 m ρ c)

theorem r21_v67_1 : W21 m ρ c (Proc.devRef .tc main_v67_1) = KR1 m c := (k21 m ρ c main_v67_1 (by decide)).trans (r20_v67_1 m ρ c)

theorem r22_v67_1 : W22 m ρ c (Proc.devRef .tc main_v67_1) = KR1 m c := (k22 m ρ c main_v67_1 (by decide)).trans (r21_v67_1 m ρ c)

theorem r23_v135_1 : W23 m ρ c (Proc.devRef .tc main_v135_1) = KR2 m c := by
  refine (W23_arr m ρ c 3).trans ((Cert.KernelIdeal.Reg12.arr_3 (V22 m ρ) c).trans ?_)
  rw [show V22 m ρ c main_v97 = IK2 m c from r22_v97 m ρ c, show V22 m ρ c main_v67_1 = KR1 m c from r22_v67_1 m ρ c]
  rfl

theorem r16_v117 : W16 m ρ c (Proc.devRef .tc main_v117) = II2 m c := ((W16_arr m ρ c 1).trans (((dat8 (V15 m ρ) c).arrAt_in 1 rfl _).trans (A_eq8 (V15 m ρ) c 1))).trans (r15_v117 m ρ c)

theorem r17_v117 : W17 m ρ c (Proc.devRef .tc main_v117) = II2 m c := (k17 m ρ c main_v117 (by decide)).trans (r16_v117 m ρ c)

theorem r18_v117 : W18 m ρ c (Proc.devRef .tc main_v117) = II2 m c := (k18 m ρ c main_v117 (by decide)).trans (r17_v117 m ρ c)

theorem r19_v117 : W19 m ρ c (Proc.devRef .tc main_v117) = II2 m c := (k19 m ρ c main_v117 (by decide)).trans (r18_v117 m ρ c)

theorem r20_v117 : W20 m ρ c (Proc.devRef .tc main_v117) = II2 m c := (k20 m ρ c main_v117 (by decide)).trans (r19_v117 m ρ c)

theorem r21_v117 : W21 m ρ c (Proc.devRef .tc main_v117) = II2 m c := (k21 m ρ c main_v117 (by decide)).trans (r20_v117 m ρ c)

theorem r22_v117 : W22 m ρ c (Proc.devRef .tc main_v117) = II2 m c := (k22 m ρ c main_v117 (by decide)).trans (r21_v117 m ρ c)

theorem r23_v117 : W23 m ρ c (Proc.devRef .tc main_v117) = II2 m c := (k23 m ρ c main_v117 (by decide)).trans (r22_v117 m ρ c)

theorem r13_v68_1 : W13 m ρ c (Proc.devRef .tc main_v68_1) = IR1 m c := (k13 m ρ c main_v68_1 (by decide)).trans (r12_v68_1 m ρ c)

theorem r14_v68_1 : W14 m ρ c (Proc.devRef .tc main_v68_1) = IR1 m c := (k14 m ρ c main_v68_1 (by decide)).trans (r13_v68_1 m ρ c)

theorem r15_v68_1 : W15 m ρ c (Proc.devRef .tc main_v68_1) = IR1 m c := (k15 m ρ c main_v68_1 (by decide)).trans (r14_v68_1 m ρ c)

theorem r16_v68_1 : W16 m ρ c (Proc.devRef .tc main_v68_1) = IR1 m c := (k16 m ρ c main_v68_1 (by decide)).trans (r15_v68_1 m ρ c)

theorem r17_v68_1 : W17 m ρ c (Proc.devRef .tc main_v68_1) = IR1 m c := (k17 m ρ c main_v68_1 (by decide)).trans (r16_v68_1 m ρ c)

theorem r18_v68_1 : W18 m ρ c (Proc.devRef .tc main_v68_1) = IR1 m c := (k18 m ρ c main_v68_1 (by decide)).trans (r17_v68_1 m ρ c)

theorem r19_v68_1 : W19 m ρ c (Proc.devRef .tc main_v68_1) = IR1 m c := (k19 m ρ c main_v68_1 (by decide)).trans (r18_v68_1 m ρ c)

theorem r20_v68_1 : W20 m ρ c (Proc.devRef .tc main_v68_1) = IR1 m c := (k20 m ρ c main_v68_1 (by decide)).trans (r19_v68_1 m ρ c)

theorem r21_v68_1 : W21 m ρ c (Proc.devRef .tc main_v68_1) = IR1 m c := (k21 m ρ c main_v68_1 (by decide)).trans (r20_v68_1 m ρ c)

theorem r22_v68_1 : W22 m ρ c (Proc.devRef .tc main_v68_1) = IR1 m c := (k22 m ρ c main_v68_1 (by decide)).trans (r21_v68_1 m ρ c)

theorem r23_v68_1 : W23 m ρ c (Proc.devRef .tc main_v68_1) = IR1 m c := (k23 m ρ c main_v68_1 (by decide)).trans (r22_v68_1 m ρ c)

theorem r24_v136_1 : W24 m ρ c (Proc.devRef .tc main_v136_1) = IR2 m c := by
  refine (W24_arr m ρ c 3).trans ((Cert.KernelIdeal.Reg13.arr_3 (V23 m ρ) c).trans ?_)
  rw [show V23 m ρ c main_v117 = II2 m c from r23_v117 m ρ c, show V23 m ρ c main_v68_1 = IR1 m c from r23_v68_1 m ρ c]
  rfl

theorem r22_v133 : W22 m ρ c (Proc.devRef .tc main_v133) = ER2 m c := (k22 m ρ c main_v133 (by decide)).trans (r21_v133 m ρ c)

theorem r23_v133 : W23 m ρ c (Proc.devRef .tc main_v133) = ER2 m c := (k23 m ρ c main_v133 (by decide)).trans (r22_v133 m ρ c)

theorem r24_v133 : W24 m ρ c (Proc.devRef .tc main_v133) = ER2 m c := (k24 m ρ c main_v133 (by decide)).trans (r23_v133 m ρ c)

theorem r25_v133 : W25 m ρ c (Proc.devRef .tc main_v133) = ER2 m c := (k25 m ρ c main_v133 (by decide)).trans (r24_v133 m ρ c)

theorem r23_v134_1 : W23 m ρ c (Proc.devRef .tc main_v134_1) = UR2 m c := (k23 m ρ c main_v134_1 (by decide)).trans (r22_v134_1 m ρ c)

theorem r24_v134_1 : W24 m ρ c (Proc.devRef .tc main_v134_1) = UR2 m c := (k24 m ρ c main_v134_1 (by decide)).trans (r23_v134_1 m ρ c)

theorem r25_v134_1 : W25 m ρ c (Proc.devRef .tc main_v134_1) = UR2 m c := (k25 m ρ c main_v134_1 (by decide)).trans (r24_v134_1 m ρ c)

theorem r24_v135_1 : W24 m ρ c (Proc.devRef .tc main_v135_1) = KR2 m c := (k24 m ρ c main_v135_1 (by decide)).trans (r23_v135_1 m ρ c)

theorem r25_v135_1 : W25 m ρ c (Proc.devRef .tc main_v135_1) = KR2 m c := (k25 m ρ c main_v135_1 (by decide)).trans (r24_v135_1 m ρ c)

theorem r25_v136_1 : W25 m ρ c (Proc.devRef .tc main_v136_1) = IR2 m c := (k25 m ρ c main_v136_1 (by decide)).trans (r24_v136_1 m ρ c)

end Cert.KernelIdeal.Chain

end
-- ==== Proof.NormRef.lean ====
/-
  The row normalisation spelt with host operations is the specification's.

  For a matrix x with n rows and 64 columns the host computes, entry by entry,
    x (p, q) / max (sqrt (0 + sum_k x (p, k)^2), eps):
  the squares are summed along the lanes into a vector of n entries, the vector is read as a column [n, 1], the
  column's square root is floored at the column of eps, and the floored column is spread over the 64 lanes before
  the division. Read at the index (p, q), every one of these steps keeps the row p and forgets the lane, so the
  entry is the specification's normalised entry of row p; adding a residual entry by entry gives the residual form.
  Everything is stated for any number of rows n, and every shape condition is a hypothesis.
-/
import Idealize.ShloMosaic.PureOps.Ideal.Laws
import Idealize.ShloMosaic.Lib.ValueIdx
import Idealize.ShloMosaic.Lib.Pipeline.Value
import proofs.«124958_j46205258170764_2_alg».proof.Proof.Spec

noncomputable section

namespace Cert.NormRef

open Idealize.ShloMosaic Idealize.ShloMosaic.ValueIdx

variable {α : Type}

/-- A column [n, 1] spread over 64 lanes (operand axes 0, 1 to result axes 0, 1) holds at (p, q) the column's entry
    of row p: the operand's lane axis has extent one, so the lane is forgotten. -/
theorem column_apply {n : ℕ} (v : (⟨2, ![n, 1]⟩ : Shape).Idx → α)
    (h : (⟨2, ![n, 1]⟩ : Shape).BroadcastsInDim ⟨2, ![n, 64]⟩ (![0, 1] : Fin 2 → Fin 2)) (p : Fin n) (q : Fin 64) :
    broadcastInDim ⟨2, ![n, 64]⟩ ![0, 1] h v (ix2 p q) = v (ix2 p (0 : Fin 1)) := by
  refine broadcastInDim_apply _ h v (ix2 p q) (ix2 p (0 : Fin 1)) fun a => ?_
  match a with
  | ⟨0, _⟩ =>
    show p.val = if n = 1 then 0 else p.val
    split
    · have := p.isLt; omega
    · rfl
  | ⟨1, _⟩ => rfl

/-- A vector of n entries read as a column [n, 1] (operand axis 0 to result axis 0) holds at (p, u) the vector's
    entry p. -/
theorem vector_apply {n : ℕ} (v : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h v (ix2 p u) = v (ix1 p) := by
  refine broadcastInDim_apply _ h v (ix2 p u) (ix1 p) fun a => ?_
  match a with
  | ⟨0, _⟩ =>
    show p.val = if n = 1 then 0 else p.val
    split
    · have := p.isLt; omega
    · rfl

/-- A scalar spread over a column [n, 1] holds the scalar everywhere. -/
theorem scalar_apply {n : ℕ} (v : (⟨0, ![]⟩ : Shape).Idx → α)
    (h : (⟨0, ![]⟩ : Shape).BroadcastsInDim ⟨2, ![n, 1]⟩ (![] : Fin 0 → Fin 2)) (j : (⟨2, ![n, 1]⟩ : Shape).Idx) :
    broadcastInDim ⟨2, ![n, 1]⟩ ![] h v j = v ix0 :=
  broadcastInDim_apply _ h v j ix0 fun a => a.elim0

/-- The reduced index p with lane k put back is (p, k). -/
theorem lift_row {n : ℕ} (h : (⟨2, ![n, 64]⟩ : Shape).Reduces [1] (⟨1, ![n]⟩ : Shape)) (p : Fin n)
    (k : Fin ((⟨2, ![n, 64]⟩ : Shape).size 1)) : h.lift (ix1 p) k = ix2 p (⟨k.val, k.isLt⟩ : Fin 64) := by
  funext c; apply Fin.ext
  fin_cases c <;> rfl

/-- The host's sum along the lanes of the squares of x, started from the zero word, is at row p the sum of the
    squares of row p. -/
theorem sumSq_apply {n : ℕ} (x : FVec Ideal (⟨2, ![n, 64]⟩ : Shape) .f32)
    (hr : (⟨2, ![n, 64]⟩ : Shape).ReducesTo [1] ⟨1, ![n]⟩) (h0 : 0 < (⟨0, ![]⟩ : Shape).numel) (p : Fin n) :
    Host.reduceAdd (mulf x x) (constant (F := Ideal) ⟨0, ![]⟩ .f32 0x00000000#32) hr h0 (ix1 p) = Cert.Spec.rowSq x p := by
  have hR : (⟨2, ![n, 64]⟩ : Shape).Reduces [1] ⟨1, ![n]⟩ := ⟨hr.1, Nat.one_pos, hr.2⟩
  show Ideal.hostReduceAdd hr (mulf x x) (Ideal.ofBits .f32 0x00000000#32) (ix1 p) = _
  rw [Ideal.hostReduceAdd_single hr hR, Ideal.ofBits_zero_f32, zero_add]
  unfold Cert.Spec.rowSq
  exact Finset.sum_congr rfl fun k _ => by rw [lift_row]; rfl

/-- The host's row normalisation read at (p, q), the vector of the rows' sums of squares being any vector S that
    holds the sum of the squares of row p at p. -/
theorem normRef_at {n : ℕ} (x : FVec Ideal (⟨2, ![n, 64]⟩ : Shape) .f32) (S : FVec Ideal (⟨1, ![n]⟩ : Shape) .f32)
    (hb2 : (⟨2, ![n, 1]⟩ : Shape).BroadcastsInDim ⟨2, ![n, 64]⟩ (![0, 1] : Fin 2 → Fin 2))
    (hb1 : (⟨1, ![n]⟩ : Shape).BroadcastsInDim ⟨2, ![n, 1]⟩ (![0] : Fin 1 → Fin 2))
    (hb0 : (⟨0, ![]⟩ : Shape).BroadcastsInDim ⟨2, ![n, 1]⟩ (![] : Fin 0 → Fin 2))
    (p : Fin n) (q : Fin 64) (hS : S (ix1 p) = Cert.Spec.rowSq x p) :
    Host.divf x (broadcastInDim ⟨2, ![n, 64]⟩ ![0, 1] hb2 (maximumf (Host.sqrt (broadcastInDim ⟨2, ![n, 1]⟩ ![0] hb1 S))
        (broadcastInDim ⟨2, ![n, 1]⟩ ![] hb0 (constant (F := Ideal) ⟨0, ![]⟩ .f32 0x2B8CBCCC#32)))) (ix2 p q)
      = Cert.Spec.normedAt x p q := by
  show Ideal.div (x (ix2 p q)) (broadcastInDim (s := ⟨2, ![n, 1]⟩) ⟨2, ![n, 64]⟩ ![0, 1] hb2 _ (ix2 p q)) = _
  rw [column_apply]
  show Ideal.div (x (ix2 p q)) (max (Ideal.sqrt (broadcastInDim (s := ⟨1, ![n]⟩) ⟨2, ![n, 1]⟩ ![0] hb1 S (ix2 p (0 : Fin 1))))
    (broadcastInDim (s := ⟨0, ![]⟩) ⟨2, ![n, 1]⟩ ![] hb0 _ (ix2 p (0 : Fin 1)))) = _
  rw [vector_apply, scalar_apply, hS]
  rfl

/-- The host's row normalisation of x is the specification's. -/
theorem normRef_eq {n : ℕ} (x : FVec Ideal (⟨2, ![n, 64]⟩ : Shape) .f32)
    (hb2 : (⟨2, ![n, 1]⟩ : Shape).BroadcastsInDim ⟨2, ![n, 64]⟩ (![0, 1] : Fin 2 → Fin 2))
    (hb1 : (⟨1, ![n]⟩ : Shape).BroadcastsInDim ⟨2, ![n, 1]⟩ (![0] : Fin 1 → Fin 2))
    (hb0 : (⟨0, ![]⟩ : Shape).BroadcastsInDim ⟨2, ![n, 1]⟩ (![] : Fin 0 → Fin 2))
    (hr : (⟨2, ![n, 64]⟩ : Shape).ReducesTo [1] ⟨1, ![n]⟩) (h0 : 0 < (⟨0, ![]⟩ : Shape).numel) :
    Host.divf x (broadcastInDim ⟨2, ![n, 64]⟩ ![0, 1] hb2 (maximumf (Host.sqrt (broadcastInDim ⟨2, ![n, 1]⟩ ![0] hb1
        (Host.reduceAdd (mulf x x) (constant (F := Ideal) ⟨0, ![]⟩ .f32 0x00000000#32) hr h0)))
        (broadcastInDim ⟨2, ![n, 1]⟩ ![] hb0 (constant (F := Ideal) ⟨0, ![]⟩ .f32 0x2B8CBCCC#32))))
      = Cert.Spec.normed x := by
  funext i
  obtain ⟨p, q, rfl⟩ : ∃ (p : Fin n) (q : Fin 64), i = ix2 p q := ⟨i 0, i 1, eq_ix2 i⟩
  rw [Cert.Spec.normed_ix2]
  exact normRef_at x _ hb2 hb1 hb0 p q (sumSq_apply x hr h0 p)

/-- The residual spelt with host operations: r plus the host's row normalisation of x is the specification's
    residual. -/
theorem resRef_eq {n : ℕ} (x r : FVec Ideal (⟨2, ![n, 64]⟩ : Shape) .f32)
    (hb2 : (⟨2, ![n, 1]⟩ : Shape).BroadcastsInDim ⟨2, ![n, 64]⟩ (![0, 1] : Fin 2 → Fin 2))
    (hb1 : (⟨1, ![n]⟩ : Shape).BroadcastsInDim ⟨2, ![n, 1]⟩ (![0] : Fin 1 → Fin 2))
    (hb0 : (⟨0, ![]⟩ : Shape).BroadcastsInDim ⟨2, ![n, 1]⟩ (![] : Fin 0 → Fin 2))
    (hr : (⟨2, ![n, 64]⟩ : Shape).ReducesTo [1] ⟨1, ![n]⟩) (h0 : 0 < (⟨0, ![]⟩ : Shape).numel) :
    addf r (Host.divf x (broadcastInDim ⟨2, ![n, 64]⟩ ![0, 1] hb2 (maximumf (Host.sqrt (broadcastInDim ⟨2, ![n, 1]⟩ ![0] hb1
        (Host.reduceAdd (mulf x x) (constant (F := Ideal) ⟨0, ![]⟩ .f32 0x00000000#32) hr h0)))
        (broadcastInDim ⟨2, ![n, 1]⟩ ![] hb0 (constant (F := Ideal) ⟨0, ![]⟩ .f32 0x2B8CBCCC#32)))))
      = Cert.Spec.resAdd x r := by
  rw [normRef_eq x hb2 hb1 hb0 hr h0]
  rfl

end Cert.NormRef

end
-- ==== Proof.RowsCat.lean ====
/-
  Rows concatenated and rows sliced, for matrices with 64 columns.

  The concatenation of an a-row matrix A over a b-row matrix B holds row p of A at row p < a and row p - a of B at row
  p ≥ a; the slice of a rows from row 0 holds row p of its operand at row p, the slice of b rows from row a holds row
  a + p. Hence: slicing the concatenation gives the two pieces back; concatenating the two slices gives the matrix
  back; and, because the row normalisation's entry at (p, q) sees only row p of its operand, normalising (or
  normalising and adding a residual) piece by piece and concatenating is normalising the concatenation.
  Every shape condition is a hypothesis; the number of rows of the concatenation is read off its condition.
-/
import Idealize.ShloMosaic.PureOps.Ideal.Laws
import Idealize.ShloMosaic.Lib.ValueIdx
import Idealize.ShloMosaic.Lib.Pipeline.Value
import proofs.«124958_j46205258170764_2_alg».proof.Proof.Spec

noncomputable section

namespace Cert.RowsCat

open Idealize.ShloMosaic Idealize.ShloMosaic.ValueIdx

variable {α : Type} {a b n : ℕ}

/-- The concatenation's rows are the pieces' rows together. -/
theorem rows_eq (hc : Shape.Concatenates [(⟨2, ![a, 64]⟩ : Shape), ⟨2, ![b, 64]⟩] ⟨2, ![n, 64]⟩ 0) : a + b = n := by
  have h : (if _h : (2 : ℕ) = 2 then a else 0) + ((if _h : (2 : ℕ) = 2 then b else 0) + 0) = n := hc.2.2
  rw [dif_pos rfl, dif_pos rfl] at h
  omega

/-- At a row below a the concatenation holds the first piece's row. -/
theorem cat_top (A : (⟨2, ![a, 64]⟩ : Shape).Idx → α) (B : (⟨2, ![b, 64]⟩ : Shape).Idx → α)
    (hc : Shape.Concatenates [(⟨2, ![a, 64]⟩ : Shape), ⟨2, ![b, 64]⟩] ⟨2, ![n, 64]⟩ 0) (p : Fin n) (q : Fin 64) (hp : p.val < a) :
    concatenate ⟨2, ![n, 64]⟩ 0 [⟨⟨2, ![a, 64]⟩, A⟩, ⟨⟨2, ![b, 64]⟩, B⟩] hc (ix2 p q) = A (ix2 ⟨p.val, hp⟩ q) :=
  concatenate_pair_apply_left 0 A B hc (ix2 p q) rfl (ix2 ⟨p.val, hp⟩ q) fun c => by
    match c with
    | ⟨0, _⟩ => rfl
    | ⟨1, _⟩ => rfl

/-- At a row p from a on the concatenation holds the second piece's row p - a. -/
theorem cat_bot (A : (⟨2, ![a, 64]⟩ : Shape).Idx → α) (B : (⟨2, ![b, 64]⟩ : Shape).Idx → α)
    (hc : Shape.Concatenates [(⟨2, ![a, 64]⟩ : Shape), ⟨2, ![b, 64]⟩] ⟨2, ![n, 64]⟩ 0) (p : Fin n) (q : Fin 64) (hp : a ≤ p.val) :
    concatenate ⟨2, ![n, 64]⟩ 0 [⟨⟨2, ![a, 64]⟩, A⟩, ⟨⟨2, ![b, 64]⟩, B⟩] hc (ix2 p q)
      = B (ix2 ⟨p.val - a, by have := rows_eq hc; have := p.isLt; omega⟩ q) :=
  concatenate_pair_apply_right 0 A B hc (ix2 p q) rfl rfl (ix2 ⟨p.val - a, by have := rows_eq hc; have := p.isLt; omega⟩ q)
    (fun c hne => by
      match c with
      | ⟨0, _⟩ => exact absurd rfl hne
      | ⟨1, _⟩ => rfl)
    (by show p.val - a + a = p.val; omega)

/-- The slice of a rows from row 0 holds at row p the operand's row p. -/
theorem top_apply (X : (⟨2, ![n, 64]⟩ : Shape).Idx → α) (hs0 : (⟨2, ![n, 64]⟩ : Shape).Slices ![0, 0] ⟨2, ![a, 64]⟩)
    (p : Fin a) (q : Fin 64) (hp : p.val < n) :
    extractStridedSlice ⟨2, ![a, 64]⟩ ![0, 0] X hs0 (ix2 p q) = X (ix2 ⟨p.val, hp⟩ q) :=
  extractStridedSlice_apply _ X hs0 (ix2 p q) (ix2 ⟨p.val, hp⟩ q) fun c => by
    match c with
    | ⟨0, _⟩ => show p.val = 0 + p.val; omega
    | ⟨1, _⟩ => show q.val = 0 + q.val; omega

/-- The slice of b rows from row a holds at row p the operand's row a + p. -/
theorem bot_apply (X : (⟨2, ![n, 64]⟩ : Shape).Idx → α) (hs1 : (⟨2, ![n, 64]⟩ : Shape).Slices ![a, 0] ⟨2, ![b, 64]⟩)
    (p : Fin b) (q : Fin 64) (hp : a + p.val < n) :
    extractStridedSlice ⟨2, ![b, 64]⟩ ![a, 0] X hs1 (ix2 p q) = X (ix2 ⟨a + p.val, hp⟩ q) :=
  extractStridedSlice_apply _ X hs1 (ix2 p q) (ix2 ⟨a + p.val, hp⟩ q) fun c => by
    match c with
    | ⟨0, _⟩ => rfl
    | ⟨1, _⟩ => show q.val = 0 + q.val; omega

/-- The slice of the first a rows of the concatenation is the first piece. -/
theorem top_cat (A : (⟨2, ![a, 64]⟩ : Shape).Idx → α) (B : (⟨2, ![b, 64]⟩ : Shape).Idx → α)
    (hc : Shape.Concatenates [(⟨2, ![a, 64]⟩ : Shape), ⟨2, ![b, 64]⟩] ⟨2, ![n, 64]⟩ 0)
    (hs0 : (⟨2, ![n, 64]⟩ : Shape).Slices ![0, 0] ⟨2, ![a, 64]⟩) :
    extractStridedSlice ⟨2, ![a, 64]⟩ ![0, 0] (concatenate ⟨2, ![n, 64]⟩ 0 [⟨⟨2, ![a, 64]⟩, A⟩, ⟨⟨2, ![b, 64]⟩, B⟩] hc) hs0 = A := by
  funext i
  obtain ⟨p, q, rfl⟩ : ∃ (p : Fin a) (q : Fin 64), i = ix2 p q := ⟨i 0, i 1, eq_ix2 i⟩
  have hn := rows_eq hc
  have hp : p.val < n := by have := p.isLt; omega
  rw [top_apply _ hs0 p q hp]
  exact cat_top A B hc ⟨p.val, hp⟩ q p.isLt

/-- The slice of the b rows from row a of the concatenation is the second piece. -/
theorem bot_cat (A : (⟨2, ![a, 64]⟩ : Shape).Idx → α) (B : (⟨2, ![b, 64]⟩ : Shape).Idx → α)
    (hc : Shape.Concatenates [(⟨2, ![a, 64]⟩ : Shape), ⟨2, ![b, 64]⟩] ⟨2, ![n, 64]⟩ 0)
    (hs1 : (⟨2, ![n, 64]⟩ : Shape).Slices ![a, 0] ⟨2, ![b, 64]⟩) :
    extractStridedSlice ⟨2, ![b, 64]⟩ ![a, 0] (concatenate ⟨2, ![n, 64]⟩ 0 [⟨⟨2, ![a, 64]⟩, A⟩, ⟨⟨2, ![b, 64]⟩, B⟩] hc) hs1 = B := by
  funext i
  obtain ⟨p, q, rfl⟩ : ∃ (p : Fin b) (q : Fin 64), i = ix2 p q := ⟨i 0, i 1, eq_ix2 i⟩
  have hn := rows_eq hc
  have hp : a + p.val < n := by have := p.isLt; omega
  rw [bot_apply _ hs1 p q hp]
  refine (cat_bot A B hc ⟨a + p.val, hp⟩ q (Nat.le_add_right a p.val)).trans ?_
  exact congrArg (fun r => B (ix2 r q)) (Fin.ext (by show a + p.val - a = p.val; omega))

/-- The two slices of a matrix, concatenated, are the matrix. -/
theorem cat_top_bot (X : (⟨2, ![n, 64]⟩ : Shape).Idx → α)
    (hc : Shape.Concatenates [(⟨2, ![a, 64]⟩ : Shape), ⟨2, ![b, 64]⟩] ⟨2, ![n, 64]⟩ 0)
    (hs0 : (⟨2, ![n, 64]⟩ : Shape).Slices ![0, 0] ⟨2, ![a, 64]⟩) (hs1 : (⟨2, ![n, 64]⟩ : Shape).Slices ![a, 0] ⟨2, ![b, 64]⟩) :
    concatenate ⟨2, ![n, 64]⟩ 0 [⟨⟨2, ![a, 64]⟩, extractStridedSlice ⟨2, ![a, 64]⟩ ![0, 0] X hs0⟩,
      ⟨⟨2, ![b, 64]⟩, extractStridedSlice ⟨2, ![b, 64]⟩ ![a, 0] X hs1⟩] hc = X := by
  funext i
  obtain ⟨p, q, rfl⟩ : ∃ (p : Fin n) (q : Fin 64), i = ix2 p q := ⟨i 0, i 1, eq_ix2 i⟩
  have hn := rows_eq hc
  by_cases hp : p.val < a
  · rw [cat_top _ _ hc p q hp]
    exact top_apply X hs0 ⟨p.val, hp⟩ q p.isLt
  · have hp' : a ≤ p.val := Nat.le_of_not_lt hp
    rw [cat_bot _ _ hc p q hp']
    refine (bot_apply X hs1 ⟨p.val - a, by have := p.isLt; omega⟩ q (by show a + (p.val - a) < n; have := p.isLt; omega)).trans ?_
    exact congrArg (fun r => X (ix2 r q)) (Fin.ext (by show a + (p.val - a) = p.val; omega))

/-- The normalised entry of the concatenation at a row below a is the first piece's. -/
theorem normedAt_cat_top (x : Cert.Spec.Mat a 64) (y : Cert.Spec.Mat b 64)
    (hc : Shape.Concatenates [(⟨2, ![a, 64]⟩ : Shape), ⟨2, ![b, 64]⟩] ⟨2, ![n, 64]⟩ 0) (p : Fin n) (q : Fin 64) (hp : p.val < a) :
    Cert.Spec.normedAt (concatenate ⟨2, ![n, 64]⟩ 0 [⟨⟨2, ![a, 64]⟩, x⟩, ⟨⟨2, ![b, 64]⟩, y⟩] hc) p q
      = Cert.Spec.normedAt x ⟨p.val, hp⟩ q :=
  Cert.Spec.normedAt_congr x _ ⟨p.val, hp⟩ p q fun k => cat_top x y hc p k hp

/-- The normalised entry of the concatenation at a row p from a on is the second piece's at row p - a. -/
theorem normedAt_cat_bot (x : Cert.Spec.Mat a 64) (y : Cert.Spec.Mat b 64)
    (hc : Shape.Concatenates [(⟨2, ![a, 64]⟩ : Shape), ⟨2, ![b, 64]⟩] ⟨2, ![n, 64]⟩ 0) (p : Fin n) (q : Fin 64) (hp : a ≤ p.val) :
    Cert.Spec.normedAt (concatenate ⟨2, ![n, 64]⟩ 0 [⟨⟨2, ![a, 64]⟩, x⟩, ⟨⟨2, ![b, 64]⟩, y⟩] hc) p q
      = Cert.Spec.normedAt y ⟨p.val - a, by have := rows_eq hc; have := p.isLt; omega⟩ q :=
  Cert.Spec.normedAt_congr y _ ⟨p.val - a, by have := rows_eq hc; have := p.isLt; omega⟩ p q fun k => cat_bot x y hc p k hp

/-- Normalising the rows piece by piece and concatenating is normalising the rows of the concatenation. -/
theorem cat_normed (x : Cert.Spec.Mat a 64) (y : Cert.Spec.Mat b 64)
    (hc : Shape.Concatenates [(⟨2, ![a, 64]⟩ : Shape), ⟨2, ![b, 64]⟩] ⟨2, ![n, 64]⟩ 0) :
    concatenate ⟨2, ![n, 64]⟩ 0 [⟨⟨2, ![a, 64]⟩, Cert.Spec.normed x⟩, ⟨⟨2, ![b, 64]⟩, Cert.Spec.normed y⟩] hc
      = Cert.Spec.normed (concatenate ⟨2, ![n, 64]⟩ 0 [⟨⟨2, ![a, 64]⟩, x⟩, ⟨⟨2, ![b, 64]⟩, y⟩] hc) := by
  funext i
  obtain ⟨p, q, rfl⟩ : ∃ (p : Fin n) (q : Fin 64), i = ix2 p q := ⟨i 0, i 1, eq_ix2 i⟩
  rw [Cert.Spec.normed_ix2]
  by_cases hp : p.val < a
  · rw [cat_top _ _ hc p q hp, normedAt_cat_top x y hc p q hp]
    rfl
  · have hp' : a ≤ p.val := Nat.le_of_not_lt hp
    rw [cat_bot _ _ hc p q hp', normedAt_cat_bot x y hc p q hp']
    rfl

/-- The residuals of the pieces, concatenated: the concatenated residual operands plus the normalised
    concatenation. -/
theorem cat_resAdd (x r : Cert.Spec.Mat a 64) (y s : Cert.Spec.Mat b 64)
    (hc : Shape.Concatenates [(⟨2, ![a, 64]⟩ : Shape), ⟨2, ![b, 64]⟩] ⟨2, ![n, 64]⟩ 0) :
    concatenate ⟨2, ![n, 64]⟩ 0 [⟨⟨2, ![a, 64]⟩, Cert.Spec.resAdd x r⟩, ⟨⟨2, ![b, 64]⟩, Cert.Spec.resAdd y s⟩] hc
      = addf (F := Ideal) (φ := .f32) (concatenate ⟨2, ![n, 64]⟩ 0 [⟨⟨2, ![a, 64]⟩, r⟩, ⟨⟨2, ![b, 64]⟩, s⟩] hc)
          (Cert.Spec.normed (concatenate ⟨2, ![n, 64]⟩ 0 [⟨⟨2, ![a, 64]⟩, x⟩, ⟨⟨2, ![b, 64]⟩, y⟩] hc)) := by
  funext i
  obtain ⟨p, q, rfl⟩ : ∃ (p : Fin n) (q : Fin 64), i = ix2 p q := ⟨i 0, i 1, eq_ix2 i⟩
  rw [addf_apply, Cert.Spec.normed_ix2]
  by_cases hp : p.val < a
  · rw [cat_top _ _ hc p q hp, cat_top r s hc p q hp, normedAt_cat_top x y hc p q hp]
    rfl
  · have hp' : a ≤ p.val := Nat.le_of_not_lt hp
    rw [cat_bot _ _ hc p q hp', cat_bot r s hc p q hp', normedAt_cat_bot x y hc p q hp']
    rfl

/-- The same with the normalisation taken piece by piece. -/
theorem cat_resAdd' (x r : Cert.Spec.Mat a 64) (y s : Cert.Spec.Mat b 64)
    (hc : Shape.Concatenates [(⟨2, ![a, 64]⟩ : Shape), ⟨2, ![b, 64]⟩] ⟨2, ![n, 64]⟩ 0) :
    concatenate ⟨2, ![n, 64]⟩ 0 [⟨⟨2, ![a, 64]⟩, Cert.Spec.resAdd x r⟩, ⟨⟨2, ![b, 64]⟩, Cert.Spec.resAdd y s⟩] hc
      = addf (F := Ideal) (φ := .f32) (concatenate ⟨2, ![n, 64]⟩ 0 [⟨⟨2, ![a, 64]⟩, r⟩, ⟨⟨2, ![b, 64]⟩, s⟩] hc)
          (concatenate ⟨2, ![n, 64]⟩ 0 [⟨⟨2, ![a, 64]⟩, Cert.Spec.normed x⟩, ⟨⟨2, ![b, 64]⟩, Cert.Spec.normed y⟩] hc) := by
  rw [cat_normed x y hc]
  exact cat_resAdd x r y s hc

/-- The residuals of the pieces, concatenated, are the residual of the concatenations. -/
theorem cat_resAdd_eq (x r : Cert.Spec.Mat a 64) (y s : Cert.Spec.Mat b 64)
    (hc : Shape.Concatenates [(⟨2, ![a, 64]⟩ : Shape), ⟨2, ![b, 64]⟩] ⟨2, ![n, 64]⟩ 0) :
    concatenate ⟨2, ![n, 64]⟩ 0 [⟨⟨2, ![a, 64]⟩, Cert.Spec.resAdd x r⟩, ⟨⟨2, ![b, 64]⟩, Cert.Spec.resAdd y s⟩] hc
      = Cert.Spec.resAdd (concatenate ⟨2, ![n, 64]⟩ 0 [⟨⟨2, ![a, 64]⟩, x⟩, ⟨⟨2, ![b, 64]⟩, y⟩] hc)
          (concatenate ⟨2, ![n, 64]⟩ 0 [⟨⟨2, ![a, 64]⟩, r⟩, ⟨⟨2, ![b, 64]⟩, s⟩] hc) :=
  cat_resAdd x r y s hc

end Cert.RowsCat

end
-- ==== Proof.Bridge.lean ====
/-
  The reference's stages read as the specification's pieces, and the identities that carry two hops' results through
  the concatenation of item rows over attribute rows.

  The row normalisation the reference spells with host operations (at 150000, 200000 and 50000 rows) is the
  specification's; the gate's weight followed by the blend is the specification's gated fusion. The first 50000 and
  the last 100000 rows of a concatenation are its two pieces, and the two slices of a matrix concatenated are the
  matrix; the row normalisation acts row by row, so it passes through the concatenation.

  A residual is "res plus the normalised x" entry by entry. Two hops of it are therefore the start plus the first
  normalised matrix plus the second, and for the entities, whose rows are item rows over attribute rows normalised
  together, the same holds with every matrix cut at row 50000: slicing what was just concatenated gives the pieces
  back, the concatenation of residuals is the residual of the concatenations, and the start matrix is its own two
  slices concatenated.
-/
import proofs.«124958_j46205258170764_2_alg».proof.Proof.Stages
import proofs.«124958_j46205258170764_2_alg».proof.Proof.Spec
import proofs.«124958_j46205258170764_2_alg».proof.Proof.NormRef
import proofs.«124958_j46205258170764_2_alg».proof.Proof.RowsCat
import proofs.«124958_j46205258170764_2_alg».proof.Proof.GateRef

noncomputable section

namespace Cert.Bridge

open Cert.ReferenceIdeal Cert.ReferenceIdeal.Gen Idealize.ShloMosaic Idealize.ShloMosaic.ValueIdx

/-! ## The row normalisation at the three row counts -/

theorem nrm150_eq (X : FVec Ideal S150000x64 .f32) : Cert.Stage.nrm150 X = Cert.Spec.normed X :=
  Cert.NormRef.normRef_eq (n := 150000) X bcast_S150000x1_S150000x64_0_1 bcast_S150000_S150000x1_0 bcast_S_S150000x1
    reducesTo_S150000x64_S150000_d1 h_S_

theorem nrm200_eq (X : FVec Ideal S200000x64 .f32) : Cert.Stage.nrm200 X = Cert.Spec.normed X :=
  Cert.NormRef.normRef_eq (n := 200000) X bcast_S200000x1_S200000x64_0_1 bcast_S200000_S200000x1_0 bcast_S_S200000x1
    reducesTo_S200000x64_S200000_d1 h_S_

theorem nrm50_eq (X : FVec Ideal S50000x64 .f32) : Cert.Stage.nrm50 X = Cert.Spec.normed X :=
  Cert.NormRef.normRef_eq (n := 50000) X bcast_S50000x1_S50000x64_0_1 bcast_S50000_S50000x1_0 bcast_S_S50000x1
    reducesTo_S50000x64_S50000_d1 h_S_

/-! ## The gated fusion -/

/-- The gate's weight followed by the blend is the specification's gated fusion. The dimension record contracts the
    left operand's axis 1 against the transposed weight's axis 0; its coordinate facts are computations. -/
theorem fuse_eq (kg intg : FVec Ideal S50000x64 .f32) (g1 g2 : FVec Ideal S64x64 .f32) :
    Cert.Stage.fuse (Cert.Stage.gateW kg intg g1 g2) kg intg = Cert.Spec.gate kg intg g1 g2 :=
  Cert.GateRef.gateRef_eq (n := 50000) dot_S50000x64_S64x64_S50000x64_1_0_0_1_n_n rfl rfl
    (fun _ _ => rfl)
    (fun i k => DotDims.lhsIdx_val_of_single _ rfl i k)
    (fun i k => DotDims.rhsIdx_val_of_single _ rfl i k)
    (fun _ _ => rfl)
    bcast_S_S50000x64 transposes_S64x64_S64x64_1_0 kg intg g1 g2

/-! ## Item rows over attribute rows -/

theorem top_cat (A : FVec Ideal S50000x64 .f32) (B : FVec Ideal S100000x64 .f32) :
    Cert.Stage.top (Cert.Stage.cat A B) = A :=
  Cert.RowsCat.top_cat (a := 50000) (b := 100000) (n := 150000) A B concatenates_S50000x64_S100000x64_S150000x64_d0
    slices_S150000x64_S50000x64_0_0

theorem bot_cat (A : FVec Ideal S50000x64 .f32) (B : FVec Ideal S100000x64 .f32) :
    Cert.Stage.bot (Cert.Stage.cat A B) = B :=
  Cert.RowsCat.bot_cat (a := 50000) (b := 100000) (n := 150000) A B concatenates_S50000x64_S100000x64_S150000x64_d0
    slices_S150000x64_S100000x64_50000_0

theorem cat_top_bot (X : FVec Ideal S150000x64 .f32) : Cert.Stage.cat (Cert.Stage.top X) (Cert.Stage.bot X) = X :=
  Cert.RowsCat.cat_top_bot (a := 50000) (b := 100000) (n := 150000) X concatenates_S50000x64_S100000x64_S150000x64_d0
    slices_S150000x64_S50000x64_0_0 slices_S150000x64_S100000x64_50000_0

theorem cat_normed (x : FVec Ideal S50000x64 .f32) (y : FVec Ideal S100000x64 .f32) :
    Cert.Stage.cat (Cert.Spec.normed x) (Cert.Spec.normed y) = Cert.Spec.normed (Cert.Stage.cat x y) :=
  Cert.RowsCat.cat_normed (a := 50000) (b := 100000) (n := 150000) x y concatenates_S50000x64_S100000x64_S150000x64_d0

/-- The residuals of the item rows and of the attribute rows, concatenated: the concatenated residual operands plus
    the normalised concatenation. -/
theorem cat_resAdd (x r : FVec Ideal S50000x64 .f32) (y s : FVec Ideal S100000x64 .f32) :
    Cert.Stage.cat (Cert.Spec.resAdd x r) (Cert.Spec.resAdd y s)
      = addf (Cert.Stage.cat r s) (Cert.Spec.normed (Cert.Stage.cat x y)) :=
  Cert.RowsCat.cat_resAdd (a := 50000) (b := 100000) (n := 150000) x r y s concatenates_S50000x64_S100000x64_S150000x64_d0

/-! ## Two hops of residuals -/

/-- The entities after two hops: each hop adds, to the item rows and to the attribute rows of what it started from,
    the rows of the fused items over the aggregated attributes normalised together. -/
theorem entity_res (a1 : FVec Ideal S150000x64 .f32) (F1 F2 : FVec Ideal S50000x64 .f32) (AT1 AT2 : FVec Ideal S100000x64 .f32) :
    Cert.Stage.cat
        (Cert.Spec.resAdd F2 (Cert.Stage.top (Cert.Stage.cat (Cert.Spec.resAdd F1 (Cert.Stage.top a1)) (Cert.Spec.resAdd AT1 (Cert.Stage.bot a1)))))
        (Cert.Spec.resAdd AT2 (Cert.Stage.bot (Cert.Stage.cat (Cert.Spec.resAdd F1 (Cert.Stage.top a1)) (Cert.Spec.resAdd AT1 (Cert.Stage.bot a1)))))
      = addf (addf a1 (Cert.Stage.nrm150 (Cert.Stage.cat F1 AT1))) (Cert.Stage.nrm150 (Cert.Stage.cat F2 AT2)) := by
  rw [top_cat, bot_cat, cat_resAdd, cat_resAdd, cat_top_bot, nrm150_eq, nrm150_eq]

/-- The users after two hops. -/
theorem user_res (a0 UA1 UA2 : FVec Ideal S200000x64 .f32) :
    Cert.Spec.resAdd UA2 (Cert.Spec.resAdd UA1 a0) = addf (addf a0 (Cert.Stage.nrm200 UA1)) (Cert.Stage.nrm200 UA2) := by
  rw [nrm200_eq, nrm200_eq]
  rfl

/-- The items' accumulated rows after two hops, from the zero matrix. -/
theorem item_res (X1 X2 : FVec Ideal S50000x64 .f32) :
    Cert.Spec.resAdd X2 (Cert.Spec.resAdd X1 Cert.Stage.zeros50)
      = addf (addf Cert.Stage.zeros50 (Cert.Stage.nrm50 X1)) (Cert.Stage.nrm50 X2) := by
  rw [nrm50_eq, nrm50_eq]
  rfl

/-- The entity embedding a hop carries on: the normalised item rows over the normalised attribute rows. -/
theorem entity_emb (F1 : FVec Ideal S50000x64 .f32) (AT1 : FVec Ideal S100000x64 .f32) :
    Cert.Stage.cat (Cert.Spec.normed F1) (Cert.Spec.normed AT1) = Cert.Stage.nrm150 (Cert.Stage.cat F1 AT1) := by
  rw [nrm150_eq, cat_normed]

/-- The user embedding a hop carries on. -/
theorem user_emb (UA1 : FVec Ideal S200000x64 .f32) : Cert.Spec.normed UA1 = Cert.Stage.nrm200 UA1 :=
  (nrm200_eq UA1).symm

end Cert.Bridge

end
-- ==== Proof.RefSide.lean ====
/-
  The reference's run, stage by stage, on the same argument arrays as the kernel's.

  When the reference's ten argument arrays are the kernel's, every named intermediate of the reference's run is the
  corresponding value of the kernel's chain: the scatter-mean over entities and its two row slices, the scatter-mean
  over items, the gated fusion (the gate's weight and the blend are the specification's gate), the scatter-sum over
  users, the concatenation of item rows over attribute rows, and the normalised rows a hop carries on (the host
  spelling of the row normalisation is the specification's, and it passes through the concatenation) - first for hop
  one, then, from hop one's normalised rows, for hop two. The four results are the argument (or the zero matrix) plus
  the two hops' normalised rows; two hops of "residual plus normalised rows" are the same sums, for the entities with
  every matrix cut at row 50000.
-/
import proofs.«124958_j46205258170764_2_alg».proof.Proof.Vals
import proofs.«124958_j46205258170764_2_alg».proof.Proof.Stages
import proofs.«124958_j46205258170764_2_alg».proof.Proof.Bridge

noncomputable section

namespace Cert.RefSide

open Idealize.ShloMosaic Idealize.ShloMosaic.TcCoe Idealize.SL.Sem Cert.ReferenceIdeal.Value

variable (m : (ℓ : Loc Cert.KernelIdeal.nD Cert.KernelIdeal.τ Cert.KernelIdeal.sig) → Buf (Elt Ideal) ℓ)
  (c : Dev Cert.KernelIdeal.nD) (L : Valuation Cert.ReferenceIdeal.τ Cert.ReferenceIdeal.sig (Elt Ideal))

/-- The reference's ten argument arrays are the kernel's. -/
structure Agree : Prop where
  a0 : L (Proc.devRef .tc Cert.ReferenceIdeal.main_arg0) = Cert.KernelIdeal.Chain.A0 m c
  a1 : L (Proc.devRef .tc Cert.ReferenceIdeal.main_arg1) = Cert.KernelIdeal.Chain.A1 m c
  a2 : L (Proc.devRef .tc Cert.ReferenceIdeal.main_arg2) = Cert.KernelIdeal.Chain.A2 m c
  a3 : L (Proc.devRef .tc Cert.ReferenceIdeal.main_arg3) = Cert.KernelIdeal.Chain.A3 m c
  a4 : L (Proc.devRef .tc Cert.ReferenceIdeal.main_arg4) = Cert.KernelIdeal.Chain.A4 m c
  a5 : L (Proc.devRef .tc Cert.ReferenceIdeal.main_arg5) = Cert.KernelIdeal.Chain.A5 m c
  a6 : L (Proc.devRef .tc Cert.ReferenceIdeal.main_arg6) = Cert.KernelIdeal.Chain.A6 m c
  a7 : L (Proc.devRef .tc Cert.ReferenceIdeal.main_arg7) = Cert.KernelIdeal.Chain.A7 m c
  a8 : L (Proc.devRef .tc Cert.ReferenceIdeal.main_arg8) = Cert.KernelIdeal.Chain.A8 m c
  a9 : L (Proc.devRef .tc Cert.ReferenceIdeal.main_arg9) = Cert.KernelIdeal.Chain.A9 m c

variable {m c L}

/-! ## Hop one -/

theorem e28 (h : Agree m c L) : res_main_v28 L = Cert.KernelIdeal.Chain.E1 m c := by
  rw [Cert.Stage.res28, h.a1, h.a6, h.a2, h.a7, h.a5]
  rfl

theorem e29 (h : Agree m c L) : res_main_v29 L = Cert.KernelIdeal.Chain.IK1 m c := by
  rw [Cert.Stage.res29, e28 h]
  rfl

theorem e49 (h : Agree m c L) : res_main_v49 L = Cert.KernelIdeal.Chain.II1 m c := by
  rw [Cert.Stage.res49, h.a0, h.a8, h.a9]
  rfl

theorem e65 (h : Agree m c L) : res_main_v65 L = Cert.KernelIdeal.Chain.F1 m c := by
  rw [Cert.Stage.res65, Cert.Stage.res60, e29 h, e49 h, h.a3, h.a4, Cert.Bridge.fuse_eq]
  rfl

theorem e75 (h : Agree m c L) : res_main_v75 L = Cert.KernelIdeal.Chain.UA1 m c := by
  rw [Cert.Stage.res75, e65 h, h.a8, h.a9]
  rfl

theorem e76 (h : Agree m c L) : res_main_v76 L = Cert.Stage.cat (Cert.KernelIdeal.Chain.F1 m c) (Cert.KernelIdeal.Chain.AT1 m c) := by
  rw [Cert.Stage.res76, e65 h, e28 h]
  rfl

theorem e84 (h : Agree m c L) : res_main_v84 L = Cert.KernelIdeal.Chain.EM1 m c := by
  rw [Cert.Stage.res84, e76 h, ← Cert.Bridge.entity_emb]
  rfl

theorem e92 (h : Agree m c L) : res_main_v92 L = Cert.KernelIdeal.Chain.UE1 m c := by
  rw [Cert.Stage.res92, e75 h, ← Cert.Bridge.user_emb]
  rfl

/-! ## Hop two -/

theorem e139 (h : Agree m c L) : res_main_v139 L = Cert.KernelIdeal.Chain.E2 m c := by
  rw [Cert.Stage.res139, e84 h, h.a6, h.a2, h.a7, h.a5]
  rfl

theorem e140 (h : Agree m c L) : res_main_v140 L = Cert.KernelIdeal.Chain.IK2 m c := by
  rw [Cert.Stage.res140, e139 h]
  rfl

theorem e160 (h : Agree m c L) : res_main_v160 L = Cert.KernelIdeal.Chain.II2 m c := by
  rw [Cert.Stage.res160, e92 h, h.a8, h.a9]
  rfl

theorem e176 (h : Agree m c L) : res_main_v176 L = Cert.KernelIdeal.Chain.F2 m c := by
  rw [Cert.Stage.res176, Cert.Stage.res171, e140 h, e160 h, h.a3, h.a4, Cert.Bridge.fuse_eq]
  rfl

theorem e186 (h : Agree m c L) : res_main_v186 L = Cert.KernelIdeal.Chain.UA2 m c := by
  rw [Cert.Stage.res186, e176 h, h.a8, h.a9]
  rfl

theorem e187 (h : Agree m c L) : res_main_v187 L = Cert.Stage.cat (Cert.KernelIdeal.Chain.F2 m c) (Cert.KernelIdeal.Chain.AT2 m c) := by
  rw [Cert.Stage.res187, e176 h, e139 h]
  rfl

/-! ## The four results -/

/-- The entities: the argument plus both hops' normalised rows. -/
theorem out0 (h : Agree m c L) :
    addf (addf (L (Proc.devRef .tc Cert.ReferenceIdeal.main_arg1)) (res_main_v84 L)) (Cert.Stage.nrm150 (res_main_v187 L)) = Cert.KernelIdeal.Chain.ER2 m c := by
  rw [Cert.Stage.res84, e76 h, e187 h, h.a1, ← Cert.Bridge.entity_res]
  rfl

/-- The users. -/
theorem out1 (h : Agree m c L) :
    addf (addf (L (Proc.devRef .tc Cert.ReferenceIdeal.main_arg0)) (res_main_v92 L)) (Cert.Stage.nrm200 (res_main_v186 L)) = Cert.KernelIdeal.Chain.UR2 m c := by
  rw [Cert.Stage.res92, e75 h, e186 h, h.a0, ← Cert.Bridge.user_res]
  rfl

/-- The items' knowledge-graph rows, accumulated from the zero matrix. -/
theorem out2 (h : Agree m c L) :
    addf (addf Cert.Stage.zeros50 (Cert.Stage.nrm50 (res_main_v29 L))) (Cert.Stage.nrm50 (res_main_v140 L)) = Cert.KernelIdeal.Chain.KR2 m c := by
  rw [e29 h, e140 h, ← Cert.Bridge.item_res]
  rfl

/-- The items' interaction rows, accumulated from the zero matrix. -/
theorem out3 (h : Agree m c L) :
    addf (addf Cert.Stage.zeros50 (Cert.Stage.nrm50 (res_main_v49 L))) (Cert.Stage.nrm50 (res_main_v160 L)) = Cert.KernelIdeal.Chain.IR2 m c := by
  rw [e49 h, e160 h, ← Cert.Bridge.item_res]
  rfl

end Cert.RefSide

end
-- ==== Proof.lean ====
/-
  A two-hop graph convolution: the kernel program against its reference, on the extended reals.

  Each hop gathers the tail rows of the entity matrix and the relation rows along the edges, multiplies them entry by entry,
  scatter-means the products over the head entities, scatter-means the users' rows over the items they interact with,
  fuses the items' two aggregates through a logistic gate of two 64 x 64 weights, scatter-sums the fused items over the
  users, normalises every row of the new entity, user and item matrices (dividing by the row's norm floored at 1e-12) and
  adds the normalised rows to four running residuals, which after two hops are the results.

  The two programs share the gathers, the scatters, the slices and the concatenations. They differ in the three dense
  pieces, which the kernel computes in Pallas regions over blocks of rows — the entrywise product, the gated fusion (its
  two products contracted against the weights' second axis where the reference transposes the weights; its logistic one
  operation where the reference spells negate, exponential, add, divide) and the row normalisation with the residual — and in
  one arrangement: the kernel normalises the item rows and the attribute rows apart and joins them, the reference joins them
  and normalises. On the extended reals each piece is one function of its operands row by row, so every block of a
  region's output is the corresponding block of that function of the whole operand arrays, and normalising commutes with
  joining rows. No law used needs the inputs finite: the precondition is not opened.

  The proof: each region's output array is the specification of its kernel applied to the operand arrays as the region
  finds them (Proof/Reg0 … Reg13 over Proof/Spec); the kernel program's buffers are followed through its 25 segments to the
  four results (Proof/ChainKeep, ChainA, ChainB over the run of Proof/KRun); the reference's run is read stage by stage
  (Proof/Stages) and each of its stages is the kernel's value (Proof/RefSide over Proof/Bridge, NormRef, RowsCat, GateRef).
  The ideal pass rewrote nothing, so the kernel's idealization is its own text.
-/
import proofs.«124958_j46205258170764_2_alg».proof.Defs
import proofs.«124958_j46205258170764_2_alg».proof.Proof.Gen.Kernel
import proofs.«124958_j46205258170764_2_alg».proof.Proof.Gen.Kernel.Skeleton
import proofs.«124958_j46205258170764_2_alg».proof.Proof.Gen.Kernel.Launch
import proofs.«124958_j46205258170764_2_alg».proof.Proof.Gen.Kernel.Points
import proofs.«124958_j46205258170764_2_alg».proof.Proof.Gen.Kernel.Frame
import proofs.«124958_j46205258170764_2_alg».proof.Proof.Gen.KernelIdeal
import proofs.«124958_j46205258170764_2_alg».proof.Proof.Gen.KernelIdeal.Skeleton
import proofs.«124958_j46205258170764_2_alg».proof.Proof.Gen.KernelIdeal.Launch
import proofs.«124958_j46205258170764_2_alg».proof.Proof.Gen.KernelIdeal.Points
import proofs.«124958_j46205258170764_2_alg».proof.Proof.Gen.KernelIdeal.Frame
import proofs.«124958_j46205258170764_2_alg».proof.Proof.Gen.ReferenceIdeal
import proofs.«124958_j46205258170764_2_alg».proof.Proof.Gen.Pre_finite_inputs
import proofs.«124958_j46205258170764_2_alg».proof.Proof.Gen.ReferenceIdeal.Run
import proofs.«124958_j46205258170764_2_alg».proof.Proof.KRun
import proofs.«124958_j46205258170764_2_alg».proof.Proof.ChainB
import proofs.«124958_j46205258170764_2_alg».proof.Proof.RefSide
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_k [Cert.Kernel.Facts] [Cert.Pre_finite_inputs.Facts] : Cert.frame_Kernel := fun m ρ _ => Cert.Kernel.Gen.frame m ρ

/-- So does the idealized kernel program. -/
theorem frame_ki [Cert.KernelIdeal.Facts] [Cert.Pre_finite_inputs.Facts] : Cert.frame_KernelIdeal := fun m ρ _ => Cert.KernelIdeal.Gen.frame m ρ

/-- The reference's run, its results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2.2) (Cert.ReferenceIdeal.Value.run (F := Ideal) m ρ)

/-- From memories agreeing on the arguments both programs end with the same four arrays: the entity residual, the user
    residual and the two item residuals after two hops. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Chain.ER2 m c, fun c => Cert.KernelIdeal.Chain.UR2 m c, fun c => Cert.KernelIdeal.Chain.KR2 m c,
    fun c => Cert.KernelIdeal.Chain.IR2 m c, ?_, ?_⟩
  · refine (θ_run Cert.KernelIdeal.defs _ _).mono (fun r h c => ?_) (Cert.KernelIdeal.KRun.run_results (F := Ideal) m ρ)
    obtain ⟨h0, h1, h2, h3, hargs⟩ := h c
    exact ⟨h0.trans (Cert.KernelIdeal.Chain.r25_v133 m ρ c), h1.trans (Cert.KernelIdeal.Chain.r25_v134_1 m ρ c),
      h2.trans (Cert.KernelIdeal.Chain.r25_v135_1 m ρ c), h3.trans (Cert.KernelIdeal.Chain.r25_v136_1 m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨g0, g1, g2, g3, g4, g5, g6, g7, g8, g9⟩ := hagree c
    have hag : Cert.RefSide.Agree m c (Idealize.ShloMosaic.StableHlo.launchContents m' c) := ⟨g0, g1, g2, g3, g4, g5, g6, g7, g8, g9⟩
    exact ⟨h0.trans (Cert.RefSide.out0 hag), h1.trans (Cert.RefSide.out1 hag), h2.trans (Cert.RefSide.out2 hag),
      h3.trans (Cert.RefSide.out3 hag), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
